-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v150)) (v1 : (c : Dev Cert.KernelIdeal.nD) → Buf (Elt Ideal) ((c.tc : Thread Cert.KernelIdeal.nD Cert.KernelIdeal.τ).loc Cert.KernelIdeal.main_v149_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_v149_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S3x2x128x128 : Shape := ⟨4, ![3, 2, 128, 128]⟩
abbrev S3x2x128 : Shape := ⟨3, ![3, 2, 128]⟩
abbrev S1x256 : Shape := ⟨2, ![1, 256]⟩
abbrev S1 : Shape := ⟨1, ![1]⟩
abbrev S600000 : Shape := ⟨1, ![600000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3x2x128x128 .f32) (main_arg5 : FVec F S1x256 .f32) (main_arg6 : FVec F S1 .f32) (main_v13 : IVec S_ 1) (main_v16 : IVec S3x2x128 1) : IVec S_ 1 :=
  let main_c_5 : IVec S_ 1 := constantI S_ 1 1#1
  let main_v17 : IVec S_ 1 := (fun x v => Host.reduce IntOp.andi x v reducesTo_S3x2x128_S_d0_1_2 h_S_) main_v16 main_c_5
  let main_v18 : IVec S_ 1 := andi main_v13 main_v17
  let main_v19 : FVec F S3x2x128x128 .f32 := Host.absf main_arg4
  let main_cst_6 : FVec F S_ .f32 := constant S_ .f32 0x7F800000#32
  let main_v20 : FVec F S3x2x128x128 .f32 := broadcastInDim S3x2x128x128 ![] bcast_S_S3x2x128x128 main_cst_6
  let main_v21 : IVec S3x2x128x128 1 := cmpf .olt main_v19 main_v20
  let main_c_7 : IVec S_ 1 := constantI S_ 1 1#1
  let main_v22 : IVec S_ 1 := (fun x v => Host.reduce IntOp.andi x v reducesTo_S3x2x128x128_S_d0_1_2_3 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : FVec F S20000x128 .f32) (main_arg2 : FVec F S3x2x128x128 .f32) (main_arg3 : FVec F S3x2x128 .f32) (main_arg4 : FVec F S3x2x128x128 .f32) (main_arg5 : FVec F S1x256 .f32) (main_arg6 : FVec F S1 .f32) (main_arg7 : IVec S600000 32) (main_arg8 : IVec S600000 32) (main_arg9 : IVec S200000 32) (main_arg10 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128 .f32 := Host.absf main_arg3
  let main_cst_4 : FVec F S_ .f32 := constant S_ .f32 0x7F800000#32
  let main_v15 : FVec F S3x2x128 .f32 := broadcastInDim S3x2x128 ![] bcast_S_S3x2x128 main_cst_4
  let main_v16 : IVec S3x2x128 1 := cmpf .olt main_v14 main_v15
  fn_part1 (F := F) main_arg4 main_arg5 main_arg6 main_v13 main_v16
-- ==== Kernel.lean ====
abbrev S100000x128 : Shape := ⟨2, ![100000, 128]⟩
abbrev S20000x128 : Shape := ⟨2, ![20000, 128]⟩
abbrev S3x2x128x128 : Shape := ⟨4, ![3, 2, 128, 128]⟩
abbrev S3x2x128 : Shape := ⟨3, ![3, 2, 128]⟩
abbrev S1x256 : Shape := ⟨2, ![1, 256]⟩
abbrev S1 : Shape := ⟨1, ![1]⟩
abbrev S600000 : Shape := ⟨1, ![600000]⟩
abbrev S200000 : Shape := ⟨1, ![200000]⟩
abbrev S_ : Shape := ⟨0, ![]⟩
abbrev S20000 : Shape := ⟨1, ![20000]⟩
abbrev S600000x1 : Shape := ⟨2, ![600000, 1]⟩
abbrev S20000x1 : Shape := ⟨2, ![20000, 1]⟩
abbrev S100000 : Shape := ⟨1, ![100000]⟩
abbrev S100000x1 : Shape := ⟨2, ![100000, 1]⟩
abbrev S600000x128 : Shape := ⟨2, ![600000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩
abbrev S5000x1 : Shape := ⟨2, ![5000, 1]⟩
abbrev S200000x1 : Shape := ⟨2, ![200000, 1]⟩
abbrev S200000x128 : Shape := ⟨2, ![200000, 128]⟩
abbrev S128x1 : Shape := ⟨2, ![128, 1]⟩
abbrev S1x1 : Shape := ⟨2, ![1, 1]⟩
abbrev S200000x256 : Shape := ⟨2, ![200000, 256]⟩
abbrev S4000x128 : Shape := ⟨2, ![4000, 128]⟩
abbrev S4000x1 : Shape := ⟨2, ![4000, 1]⟩
abbrev S4000x256 : Shape := ⟨2, ![4000, 256]⟩

abbrev nBuf : Space → Nat
  | .hbm => 189
  | .vmem => 77
  | .smem => 0
  | _ => 0

abbrev hbmTy0_0 (i : Nat) : BufTy := match i % 128 with
  | 0 => ⟨S100000x128, .f32⟩
  | 1 => ⟨S20000x128, .f32⟩
  | 2 => ⟨S3x2x128x128, .f32⟩
  | 3 => ⟨S3x2x128, .f32⟩
  | 4 => ⟨S3x2x128x128, .f32⟩
  | 5 => ⟨S1x256, .f32⟩
  | 6 => ⟨S1, .f32⟩
  | 7 => ⟨S600000, .i32⟩
  | 8 => ⟨S600000, .i32⟩
  | 9 => ⟨S200000, .i32⟩
  | 10 => ⟨S200000, .i32⟩
  | 11 => ⟨S_, .f32⟩
  | 12 => ⟨S600000, .f32⟩
  | 13 => ⟨S_, .f32⟩
  | 14 => ⟨S20000, .f32⟩
  | 15 => ⟨S600000x1, .i32⟩
  | 16 => ⟨S20000, .f32⟩
  | 17 => ⟨S20000x1, .f32⟩
  | 18 => ⟨S_, .f32⟩
  | 19 => ⟨S600000, .f32⟩
  | 20 => ⟨S_, .f32⟩
  | 21 => ⟨S100000, .f32⟩
  | 22 => ⟨S600000x1, .i32⟩
  | 23 => ⟨S100000, .f32⟩
  | 24 => ⟨S100000x1, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S20000x128, .f32⟩
  | 36 => ⟨S600000x1, .i32⟩
  | 37 => ⟨S20000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S1x1x128x128, .f32⟩
  | 52 => ⟨S128x128, .f32⟩
  | 53 => ⟨S128x128, .f32⟩
  | 54 => ⟨S1x1x128x128, .f32⟩
  | 55 => ⟨S128x128, .f32⟩
  | 56 => ⟨S128x128, .f32⟩
  | 57 => ⟨S1x1x128, .f32⟩
  | 58 => ⟨S128, .f32⟩
  | 59 => ⟨S1x128, .f32⟩
  | 60 => ⟨S1x1x128x128, .f32⟩
  | 61 => ⟨S128x128, .f32⟩
  | 62 => ⟨S128x128, .f32⟩
  | 63 => ⟨S1x1x128x128, .f32⟩
  | 64 => ⟨S128x128, .f32⟩
  | 65 => ⟨S128x128, .f32⟩
  | 66 => ⟨S1x1x128, .f32⟩
  | 67 => ⟨S128, .f32⟩
  | 68 => ⟨S1x128, .f32⟩
  | 69 => ⟨S20000x128, .f32⟩
  | 70 => ⟨S100000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S20000x128, .f32⟩
  | 82 => ⟨S600000x1, .i32⟩
  | 83 => ⟨S20000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S1x1x128x128, .f32⟩
  | 98 => ⟨S128x128, .f32⟩
  | 99 => ⟨S128x128, .f32⟩
  | 100 => ⟨S1x1x128x128, .f32⟩
  | 101 => ⟨S128x128, .f32⟩
  | 102 => ⟨S128x128, .f32⟩
  | 103 => ⟨S1x1x128, .f32⟩
  | 104 => ⟨S128, .f32⟩
  | 105 => ⟨S1x128, .f32⟩
  | 106 => ⟨S1x1x128x128, .f32⟩
  | 107 => ⟨S128x128, .f32⟩
  | 108 => ⟨S128x128, .f32⟩
  | 109 => ⟨S1x1x128x128, .f32⟩
  | 110 => ⟨S128x128, .f32⟩
  | 111 => ⟨S128x128, .f32⟩
  | 112 => ⟨S1x1x128, .f32⟩
  | 113 => ⟨S128, .f32⟩
  | 114 => ⟨S1x128, .f32⟩
  | 115 => ⟨S20000x128, .f32⟩
  | 116 => ⟨S100000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S_, .f32⟩
  | 127 => ⟨S20000x128, .f32⟩
  | _ => ⟨S100000x128, .f32⟩

abbrev hbmTy0_1 (i : Nat) : BufTy := match i % 128 with
  | 0 => ⟨S600000x1, .i32⟩
  | 1 => ⟨S20000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S100000x128, .f32⟩
  | 13 => ⟨S600000x1, .i32⟩
  | 14 => ⟨S100000x128, .f32⟩
  | 15 => ⟨S1x1x128x128, .f32⟩
  | 16 => ⟨S128x128, .f32⟩
  | 17 => ⟨S128x128, .f32⟩
  | 18 => ⟨S1x1x128x128, .f32⟩
  | 19 => ⟨S128x128, .f32⟩
  | 20 => ⟨S128x128, .f32⟩
  | 21 => ⟨S1x1x128, .f32⟩
  | 22 => ⟨S128, .f32⟩
  | 23 => ⟨S1x128, .f32⟩
  | 24 => ⟨S1x1x128x128, .f32⟩
  | 25 => ⟨S128x128, .f32⟩
  | 26 => ⟨S128x128, .f32⟩
  | 27 => ⟨S1x1x128x128, .f32⟩
  | 28 => ⟨S128x128, .f32⟩
  | 29 => ⟨S128x128, .f32⟩
  | 30 => ⟨S1x1x128, .f32⟩
  | 31 => ⟨S128, .f32⟩
  | 32 => ⟨S1x128, .f32⟩
  | 33 => ⟨S20000x128, .f32⟩
  | 34 => ⟨S100000x128, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x128, .f32⟩
  | 53 => ⟨S1x128, .f32⟩
  | 54 => ⟨S128x1, .f32⟩
  | 55 => ⟨S1x128, .f32⟩
  | 56 => ⟨S128x1, .f32⟩
  | 57 => ⟨S1x1, .f32⟩
  | 58 => ⟨S200000x1, .f32⟩
  | 59 => ⟨S200000x256, .f32⟩
  | 60 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S1x128, .f32⟩
  | .local _ .vmem, ⟨63, _⟩ => ⟨S128x128, .f32⟩
  | .local _ .vmem, ⟨64, _⟩ => ⟨S5000x128, .f32⟩
  | .local _ .vmem, ⟨65, _⟩ => ⟨S5000x128, .f32⟩
  | .local _ .vmem, ⟨66, _⟩ => ⟨S4000x128, .f32⟩
  | .local _ .vmem, ⟨67, _⟩ => ⟨S4000x128, .f32⟩
  | .local _ .vmem, ⟨68, _⟩ => ⟨S4000x128, .f32⟩
  | .local _ .vmem, ⟨69, _⟩ => ⟨S4000x128, .f32⟩
  | .local _ .vmem, ⟨70, _⟩ => ⟨S128x1, .f32⟩
  | .local _ .vmem, ⟨71, _⟩ => ⟨S128x1, .f32⟩
  | .local _ .vmem, ⟨72, _⟩ => ⟨S1x1, .f32⟩
  | .local _ .vmem, ⟨73, _⟩ => ⟨S4000x1, .f32⟩
  | .local _ .vmem, ⟨74, _⟩ => ⟨S4000x1, .f32⟩
  | .local _ .vmem, ⟨75, _⟩ => ⟨S4000x256, .f32⟩
  | .local _ .vmem, ⟨76, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_c_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_17 : Ref sig .tc := ⟨.hbm, 130, rfl⟩
abbrev main_v100 : Ref sig .tc := ⟨.hbm, 131, rfl⟩
abbrev main_v101 : Ref sig .tc := ⟨.hbm, 132, rfl⟩
abbrev main_c_18 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_19 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_c_20 : Ref sig .tc := ⟨.hbm, 163, rfl⟩
abbrev main_v130 : Ref sig .tc := ⟨.hbm, 164, rfl⟩
abbrev main_v131 : Ref sig .tc := ⟨.hbm, 165, rfl⟩
abbrev main_c_21 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_c_22 : Ref sig .tc := ⟨.hbm, 172, rfl⟩
abbrev main_v137 : Ref sig .tc := ⟨.hbm, 173, rfl⟩
abbrev main_v138 : Ref sig .tc := ⟨.hbm, 174, rfl⟩
abbrev main_c_23 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149_0 : Ref sig .tc := ⟨.hbm, 186, rfl⟩
abbrev main_v149_1 : Ref sig .tc := ⟨.hbm, 187, rfl⟩
abbrev main_v150 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg5_1 : Ref sig .tc := ⟨.vmem, 74, rfl⟩
abbrev cc6_stg6_0 : Ref sig .tc := ⟨.vmem, 75, rfl⟩
abbrev cc6_stg6_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem3_0 : DmaSem sig := 71
abbrev cc6_sem4_0 : DmaSem sig := 72
abbrev cc6_sem5_0 : DmaSem sig := 73
abbrev cc6_sem5_1 : DmaSem sig := 74
abbrev cc6_sem6_0 : DmaSem sig := 75
abbrev cc6_sem6_1 : DmaSem sig := 76

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  bcast_S_S600000 : S_.BroadcastsInDim S600000 (![] : Fin 0 → Fin S600000.rank)
  bcast_S_S20000 : S_.BroadcastsInDim S20000 (![] : Fin 0 → Fin S20000.rank)
  bcast_S600000_S600000x1_0 : S600000.BroadcastsInDim S600000x1 (![0] : Fin 1 → Fin S600000x1.rank)
  shapeCasts_S20000_S20000x1 : S20000.ShapeCasts S20000x1
  bcast_S_S100000 : S_.BroadcastsInDim S100000 (![] : Fin 0 → Fin S100000.rank)
  shapeCasts_S100000_S100000x1 : S100000.ShapeCasts S100000x1
  bcast_S_S20000x128 : S_.BroadcastsInDim S20000x128 (![] : Fin 0 → Fin S20000x128.rank)
  bcast_S_S100000x128 : S_.BroadcastsInDim S100000x128 (![] : Fin 0 → Fin S100000x128.rank)
  slices_S3x2x128x128_S1x1x128x128_0_0_0_0 : S3x2x128x128.Slices ![0, 0, 0, 0] S1x1x128x128
  shapeCasts_S1x1x128x128_S128x128 : S1x1x128x128.ShapeCasts S128x128
  transposes_S128x128_S128x128_1_0 : S128x128.Transposes [1, 0] S128x128
  slices_S3x2x128_S1x1x128_0_0_0 : S3x2x128.Slices ![0, 0, 0] S1x1x128
  shapeCasts_S1x1x128_S128 : S1x1x128.ShapeCasts S128
  shapeCasts_S128_S1x128 : S128.ShapeCasts S1x128
  slices_S3x2x128x128_S1x1x128x128_0_1_0_0 : S3x2x128x128.Slices ![0, 1, 0, 0] S1x1x128x128
  slices_S3x2x128_S1x1x128_0_1_0 : S3x2x128.Slices ![0, 1, 0] S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  bcast_S_S200000 : S_.BroadcastsInDim S200000 (![] : Fin 0 → Fin S200000.rank)
  bcast_S200000_S200000x1_0 : S200000.BroadcastsInDim S200000x1 (![0] : Fin 1 → Fin S200000x1.rank)
  slices_S1x256_S1x128_0_0 : S1x256.Slices ![0, 0] S1x128
  transposes_S1x128_S128x1_1_0 : S1x128.Transposes [1, 0] S128x1
  slices_S1x256_S1x128_0_128 : S1x256.Slices ![0, 128] S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  shapeCasts_S200000x1_S200000 : S200000x1.ShapeCasts S200000
  scatter_S20000_S600000x1_S600000_n_0_0_1_wf : ScatterDims.WF S20000 S600000x1 S600000 [] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S20000x1.size a
  hwx0_1 : ∀ i : grid0.Coords, EltTy.bits .f32 = 32 ∨ (Rect.block (s := S20000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S20000x128.size a
  hwx0_2 : ∀ i : grid0.Coords, EltTy.bits .f32 = 32 ∨ (Rect.block (s := S20000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S20000x128.size a
  hwx0_6 : ∀ i : grid0.Coords, EltTy.bits .f32 = 32 ∨ (Rect.block (s := S20000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S20000x128.size a
  hwx2_2 : ∀ i : grid2.Coords, EltTy.bits .f32 = 32 ∨ (Rect.block (s := S20000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S20000x128.size a
  hwx2_6 : ∀ i : grid2.Coords, EltTy.bits .f32 = 32 ∨ (Rect.block (s := S20000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S20000x128.size a
  hwx4_0 : ∀ i : grid4.Coords, EltTy.bits .f32 = 32 ∨ (Rect.block (s := S20000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S20000x1.size a
  hwx4_1 : ∀ i : grid4.Coords, EltTy.bits .f32 = 32 ∨ (Rect.block (s := S20000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S20000x128.size a
  hwx4_2 : ∀ i : grid4.Coords, EltTy.bits .f32 = 32 ∨ (Rect.block (s := S20000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S20000x128.size a
  hwx4_6 : ∀ i : grid4.Coords, EltTy.bits .f32 = 32 ∨ (Rect.block (s := S20000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S200000x128.size a
  hwx6_0 : ∀ i : grid6.Coords, EltTy.bits .f32 = 32 ∨ (Rect.block (s := S200000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S200000x128.size a
  hwx6_1 : ∀ i : grid6.Coords, EltTy.bits .f32 = 32 ∨ (Rect.block (s := S200000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x1.size a ≤ S200000x1.size a
  hwx6_5 : ∀ i : grid6.Coords, EltTy.bits .f32 = 32 ∨ (Rect.block (s := S200000x1) S4000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x256.size a ≤ S200000x256.size a
  hwx6_6 : ∀ i : grid6.Coords, EltTy.bits .f32 = 32 ∨ (Rect.block (s := S200000x256) S4000x256.size (cc6_transform_6 i) (hinb6_6 i)).WholeWords (EltTy.packing .f32)

variable [Facts₀]

def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v72) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v88) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v69) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v84) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v99) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v112) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v115) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v128) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v109) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v121) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v127) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v129) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v136) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v143) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v145) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v149_0) S4000x1.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v149_1) S4000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S3x2x128x128 : Shape := ⟨4, ![3, 2, 128, 128]⟩
abbrev S3x2x128 : Shape := ⟨3, ![3, 2, 128]⟩
abbrev S1x256 : Shape := ⟨2, ![1, 256]⟩
abbrev S1 : Shape := ⟨1, ![1]⟩
abbrev S600000 : Shape := ⟨1, ![600000]⟩
abbrev S200000 : Shape := ⟨1, ![200000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S20000 : Shape := ⟨1, ![20000]⟩
abbrev S20000x1 : Shape := ⟨2, ![20000, 1]⟩
abbrev S1x128 : Shape := ⟨2, ![1, 128]⟩
abbrev S100000 : Shape := ⟨1, ![100000]⟩
abbrev S100000x1 : Shape := ⟨2, ![100000, 1]⟩
abbrev S200000x1 : Shape := ⟨2, ![200000, 1]⟩
abbrev S200000x128 : Shape := ⟨2, ![200000, 128]⟩
abbrev S200000x256 : Shape := ⟨2, ![200000, 256]⟩
abbrev S256x1 : Shape := ⟨2, ![256, 1]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S100000x128, .f32⟩
  | 1 => ⟨S20000x128, .f32⟩
  | 2 => ⟨S3x2x128x128, .f32⟩
  | 3 => ⟨S3x2x128, .f32⟩
  | 4 => ⟨S3x2x128x128, .f32⟩
  | 5 => ⟨S1x256, .f32⟩
  | 6 => ⟨S1, .f32⟩
  | 7 => ⟨S600000, .i32⟩
  | 8 => ⟨S600000, .i32⟩
  | 9 => ⟨S200000, .i32⟩
  | 10 => ⟨S200000, .i32⟩
  | 11 => ⟨S1x1x128x128, .f32⟩
  | 12 => ⟨S128x128, .f32⟩
  | 13 => ⟨S1x1x128, .f32⟩
  | 14 => ⟨S128, .f32⟩
  | 15 => ⟨S1x1x128x128, .f32⟩
  | 16 => ⟨S128x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S20000x128, .f32⟩
  | 28 => ⟨S600000x1, .i32⟩
  | 29 => ⟨S20000x128, .f32⟩
  | 30 => ⟨S_, .f32⟩
  | 31 => ⟨S600000, .f32⟩
  | 32 => ⟨S_, .f32⟩
  | 33 => ⟨S20000, .f32⟩
  | 34 => ⟨S600000x1, .i32⟩
  | 35 => ⟨S20000, .f32⟩
  | 36 => ⟨S_, .f32⟩
  | 37 => ⟨S_, .f32⟩
  | 38 => ⟨S20000, .f32⟩
  | 39 => ⟨S20000, .f32⟩
  | 40 => ⟨S20000x1, .f32⟩
  | 41 => ⟨S20000x128, .f32⟩
  | 42 => ⟨S20000x128, .f32⟩
  | 43 => ⟨S128x128, .f32⟩
  | 44 => ⟨S20000x128, .f32⟩
  | 45 => ⟨S1x128, .f32⟩
  | 46 => ⟨S20000x128, .f32⟩
  | 47 => ⟨S20000x128, .f32⟩
  | 48 => ⟨S128x128, .f32⟩
  | 49 => ⟨S20000x128, .f32⟩
  | 50 => ⟨S20000x128, .f32⟩
  | 51 => ⟨S1x1x128x128, .f32⟩
  | 52 => ⟨S128x128, .f32⟩
  | 53 => ⟨S1x1x128, .f32⟩
  | 54 => ⟨S128, .f32⟩
  | 55 => ⟨S1x1x128x128, .f32⟩
  | 56 => ⟨S128x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S_, .f32⟩
  | 71 => ⟨S600000, .f32⟩
  | 72 => ⟨S_, .f32⟩
  | 73 => ⟨S100000, .f32⟩
  | 74 => ⟨S600000x1, .i32⟩
  | 75 => ⟨S100000, .f32⟩
  | 76 => ⟨S_, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S128x128, .f32⟩
  | 84 => ⟨S100000x128, .f32⟩
  | 85 => ⟨S1x128, .f32⟩
  | 86 => ⟨S100000x128, .f32⟩
  | 87 => ⟨S100000x128, .f32⟩
  | 88 => ⟨S128x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S20000x128, .f32⟩
  | 96 => ⟨S20000x128, .f32⟩
  | 97 => ⟨S1x1x128x128, .f32⟩
  | 98 => ⟨S128x128, .f32⟩
  | 99 => ⟨S1x1x128, .f32⟩
  | 100 => ⟨S128, .f32⟩
  | 101 => ⟨S1x1x128x128, .f32⟩
  | 102 => ⟨S128x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .f32⟩
  | 113 => ⟨S20000x128, .f32⟩
  | 114 => ⟨S600000x1, .i32⟩
  | 115 => ⟨S20000x128, .f32⟩
  | 116 => ⟨S_, .f32⟩
  | 117 => ⟨S600000, .f32⟩
  | 118 => ⟨S_, .f32⟩
  | 119 => ⟨S20000, .f32⟩
  | 120 => ⟨S600000x1, .i32⟩
  | 121 => ⟨S20000, .f32⟩
  | 122 => ⟨S_, .f32⟩
  | 123 => ⟨S_, .f32⟩
  | 124 => ⟨S20000, .f32⟩
  | 125 => ⟨S20000, .f32⟩
  | 126 => ⟨S20000x1, .f32⟩
  | 127 => ⟨S20000x128, .f32⟩
  | _ => ⟨S100000x128, .f32⟩

abbrev hbmTy0_1 (i : Nat) : BufTy := match i % 128 with
  | 0 => ⟨S20000x128, .f32⟩
  | 1 => ⟨S128x128, .f32⟩
  | 2 => ⟨S20000x128, .f32⟩
  | 3 => ⟨S1x128, .f32⟩
  | 4 => ⟨S20000x128, .f32⟩
  | 5 => ⟨S20000x128, .f32⟩
  | 6 => ⟨S128x128, .f32⟩
  | 7 => ⟨S20000x128, .f32⟩
  | 8 => ⟨S20000x128, .f32⟩
  | 9 => ⟨S1x1x128x128, .f32⟩
  | 10 => ⟨S128x128, .f32⟩
  | 11 => ⟨S1x1x128, .f32⟩
  | 12 => ⟨S128, .f32⟩
  | 13 => ⟨S1x1x128x128, .f32⟩
  | 14 => ⟨S128x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S_, .f32⟩
  | 29 => ⟨S600000, .f32⟩
  | 30 => ⟨S_, .f32⟩
  | 31 => ⟨S100000, .f32⟩
  | 32 => ⟨S600000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S128x128, .f32⟩
  | 42 => ⟨S100000x128, .f32⟩
  | 43 => ⟨S1x128, .f32⟩
  | 44 => ⟨S100000x128, .f32⟩
  | 45 => ⟨S100000x128, .f32⟩
  | 46 => ⟨S128x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S20000x128, .f32⟩
  | 54 => ⟨S20000x128, .f32⟩
  | 55 => ⟨S1x1x128x128, .f32⟩
  | 56 => ⟨S128x128, .f32⟩
  | 57 => ⟨S1x1x128, .f32⟩
  | 58 => ⟨S128, .f32⟩
  | 59 => ⟨S1x1x128x128, .f32⟩
  | 60 => ⟨S128x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S20000x128, .f32⟩
  | 72 => ⟨S600000x1, .i32⟩
  | 73 => ⟨S20000x128, .f32⟩
  | 74 => ⟨S_, .f32⟩
  | 75 => ⟨S600000, .f32⟩
  | 76 => ⟨S_, .f32⟩
  | 77 => ⟨S20000, .f32⟩
  | 78 => ⟨S600000x1, .i32⟩
  | 79 => ⟨S20000, .f32⟩
  | 80 => ⟨S_, .f32⟩
  | 81 => ⟨S_, .f32⟩
  | 82 => ⟨S20000, .f32⟩
  | 83 => ⟨S20000, .f32⟩
  | 84 => ⟨S20000x1, .f32⟩
  | 85 => ⟨S20000x128, .f32⟩
  | 86 => ⟨S20000x128, .f32⟩
  | 87 => ⟨S128x128, .f32⟩
  | 88 => ⟨S20000x128, .f32⟩
  | 89 => ⟨S1x128, .f32⟩
  | 90 => ⟨S20000x128, .f32⟩
  | 91 => ⟨S20000x128, .f32⟩
  | 92 => ⟨S128x128, .f32⟩
  | 93 => ⟨S20000x128, .f32⟩
  | 94 => ⟨S20000x128, .f32⟩
  | 95 => ⟨S1x1x128x128, .f32⟩
  | 96 => ⟨S128x128, .f32⟩
  | 97 => ⟨S1x1x128, .f32⟩
  | 98 => ⟨S128, .f32⟩
  | 99 => ⟨S1x1x128x128, .f32⟩
  | 100 => ⟨S128x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S_, .f32⟩
  | 115 => ⟨S600000, .f32⟩
  | 116 => ⟨S_, .f32⟩
  | 117 => ⟨S100000, .f32⟩
  | 118 => ⟨S600000x1, .i32⟩
  | 119 => ⟨S100000, .f32⟩
  | 120 => ⟨S_, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S128x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S128x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S20000x128, .f32⟩
  | 12 => ⟨S20000x128, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x128, .f32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000x128, .f32⟩
  | 31 => ⟨S200000x256, .f32⟩
  | 32 => ⟨S256x1, .f32⟩
  | 33 => ⟨S200000x1, .f32⟩
  | 34 => ⟨S1x1, .f32⟩
  | 35 => ⟨S200000x1, .f32⟩
  | 36 => ⟨S200000x1, .f32⟩
  | 37 => ⟨S200000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_4 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_call3_cst : Ref sig .tc := ⟨.hbm, 94, rfl⟩
abbrev main_call3_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_10 : Ref sig .tc := ⟨.hbm, 103, rfl⟩
abbrev main_v72 : Ref sig .tc := ⟨.hbm, 104, rfl⟩
abbrev main_v73 : Ref sig .tc := ⟨.hbm, 105, rfl⟩
abbrev main_c_11 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_15 : Ref sig .tc := ⟨.hbm, 122, rfl⟩
abbrev main_call4_v0 : Ref sig .tc := ⟨.hbm, 123, rfl⟩
abbrev main_call4_v1 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_16 : Ref sig .tc := ⟨.hbm, 143, rfl⟩
abbrev main_v104 : Ref sig .tc := ⟨.hbm, 144, rfl⟩
abbrev main_v105 : Ref sig .tc := ⟨.hbm, 145, rfl⟩
abbrev main_c_17 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_18 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_19 : Ref sig .tc := ⟨.hbm, 156, rfl⟩
abbrev main_v114 : Ref sig .tc := ⟨.hbm, 157, rfl⟩
abbrev main_cst_20 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_21 : Ref sig .tc := ⟨.hbm, 162, rfl⟩
abbrev main_call5_v0 : Ref sig .tc := ⟨.hbm, 163, rfl⟩
abbrev main_call5_v1 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_call6_cst : Ref sig .tc := ⟨.hbm, 177, rfl⟩
abbrev main_call6_v0 : Ref sig .tc := ⟨.hbm, 178, rfl⟩
abbrev main_v130 : Ref sig .tc := ⟨.hbm, 179, rfl⟩
abbrev main_call7_cst : Ref sig .tc := ⟨.hbm, 180, rfl⟩
abbrev main_call7_v0 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_c_22 : Ref sig .tc := ⟨.hbm, 189, rfl⟩
abbrev main_v138 : Ref sig .tc := ⟨.hbm, 190, rfl⟩
abbrev main_v139 : Ref sig .tc := ⟨.hbm, 191, rfl⟩
abbrev main_c_23 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_24 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_25 : Ref sig .tc := ⟨.hbm, 202, rfl⟩
abbrev main_v148 : Ref sig .tc := ⟨.hbm, 203, rfl⟩
abbrev main_cst_26 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_27 : Ref sig .tc := ⟨.hbm, 208, rfl⟩
abbrev main_call8_v0 : Ref sig .tc := ⟨.hbm, 209, rfl⟩
abbrev main_call8_v1 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_28 : Ref sig .tc := ⟨.hbm, 229, rfl⟩
abbrev main_v170 : Ref sig .tc := ⟨.hbm, 230, rfl⟩
abbrev main_v171 : Ref sig .tc := ⟨.hbm, 231, rfl⟩
abbrev main_c_29 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_30 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_31 : Ref sig .tc := ⟨.hbm, 242, rfl⟩
abbrev main_v180 : Ref sig .tc := ⟨.hbm, 243, rfl⟩
abbrev main_cst_32 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_33 : Ref sig .tc := ⟨.hbm, 248, rfl⟩
abbrev main_call9_v0 : Ref sig .tc := ⟨.hbm, 249, rfl⟩
abbrev main_call9_v1 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_call10_cst : Ref sig .tc := ⟨.hbm, 263, rfl⟩
abbrev main_call10_v0 : Ref sig .tc := ⟨.hbm, 264, rfl⟩
abbrev main_v196 : Ref sig .tc := ⟨.hbm, 265, rfl⟩
abbrev main_call11_cst : Ref sig .tc := ⟨.hbm, 266, rfl⟩
abbrev main_call11_v0 : Ref sig .tc := ⟨.hbm, 267, rfl⟩
abbrev main_v197 : Ref sig .tc := ⟨.hbm, 268, rfl⟩
abbrev main_c_34 : Ref sig .tc := ⟨.hbm, 269, rfl⟩
abbrev main_v198 : Ref sig .tc := ⟨.hbm, 270, rfl⟩
abbrev main_v199 : Ref sig .tc := ⟨.hbm, 271, rfl⟩
abbrev main_c_35 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_c_36 : Ref sig .tc := ⟨.hbm, 278, rfl⟩
abbrev main_v205 : Ref sig .tc := ⟨.hbm, 279, rfl⟩
abbrev main_v206 : Ref sig .tc := ⟨.hbm, 280, rfl⟩
abbrev main_c_37 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩

abbrev nD : Nat := 1
abbrev τ : Topo := Topo.v7x

variable {F : FTy → Type} [FloatOps F]

class Facts₀ : Prop where
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  transposes_S1x256_S256x1_1_0 : S1x256.Transposes [1, 0] S256x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  dot_S20000x128_S128x128_S20000x128_1_0_0_1_n_n_wf : DotDims.WF S20000x128 S128x128 S20000x128 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S20000x128_S200000x1_S200000x128_1_0_n_n_0_1_1128_wf : GatherDims.WF S20000x128 S200000x1 S200000x128 [1] [0] [] [0] [] 1 ![1, 128]
  dot_S200000x256_S256x1_S200000x1_1_0_0_1_n_n_wf : DotDims.WF S200000x256 S256x1 S200000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  Where the idealized kernel program's memory ends.

  The program is a line of host operations interleaved with seven kernel regions.  Its memory is followed
  from boundary to boundary: after a stretch of host operations every buffer the stretch wrote holds the
  operations' results and every other buffer what it held before; after a region each of the region's arrays
  holds what the region's write-backs leave of it (an input array is unchanged, an output array is the blocks
  its grid points flushed) and every other buffer what it held before.  `W12` is the contents reached after
  the last stretch.  The theorem below says that every weakly fair execution terminates, nothing faulting, in
  a memory whose surviving buffers hold exactly `W12` — so any statement about the final memory may be
  proved about `W12` instead, stage by stage, which is what the modules importing this one do.
-/
import proofs.«167260_j2637109919789_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, and any property of
    the final memory that follows from "each core's surviving buffers hold the last boundary's contents"
    holds of it. -/
theorem run_to_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt to a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      -- each segment's post is the next one's pre; the last leaves the buffers, the register, and nothing owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- what the launch deals to a core is its buffers at the launch memory, its register, and an empty debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      -- buffers held whole at the last boundary's contents, beside a final state: the state holds those contents
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

end Cert.KernelIdeal.Run

end
-- ==== Proof.SageSpec.lean ====
/-
  The mathematics of the program, entry by entry, over the extended reals.

  One mean-aggregation layer sends a destination row `r` to
      relu( mean_r · Wlᵀ + x_r · Wrᵀ + b ),   mean_r = agg_r / max(deg_r, 1),
  and the edge decoder sends a label edge `r` to the pair
      x_r = [g_row_r , g_col_r]   (256 entries)   and   z_r = g_row_r · w₁ + g_col_r · w₂ + b_d .
  The functions below state exactly these entries, with the weights already transposed (entry (k, q) of
  `wl` multiplies entry k of the mean and lands in column q), the degree as a column [n, 1] and the bias
  as a row [1, 128]: the arrangement in which one program stages them.  The float words for 1 and 0 are
  kept as words: both programs carry the same words, so they are never evaluated.
-/
import Idealize.ShloMosaic.PureOps.Ideal.Laws
import Idealize.ShloMosaic.Lib.ValueIdx

noncomputable section

namespace Cert.Sage

open Idealize.ShloMosaic Idealize.ShloMosaic.ValueIdx

/-- The float word 1.0 read as an extended real. -/
abbrev one : EReal := Ideal.ofBits .f32 0x3F800000#32
/-- The float word 0.0 read as an extended real. -/
abbrev zero : EReal := Ideal.ofBits .f32 0x00000000#32

/-- Entry (r, q) of one layer: the mean of the aggregated row times the transposed left weight, plus the
    destination row times the transposed right weight, plus the bias, clamped at zero from below. -/
def layerAt {n : ℕ} (agg : (⟨2, ![n, 128]⟩ : Shape).Idx → EReal) (deg : (⟨2, ![n, 1]⟩ : Shape).Idx → EReal)
    (x : (⟨2, ![n, 128]⟩ : Shape).Idx → EReal) (wl : (⟨2, ![128, 128]⟩ : Shape).Idx → EReal)
    (b : (⟨2, ![1, 128]⟩ : Shape).Idx → EReal) (wr : (⟨2, ![128, 128]⟩ : Shape).Idx → EReal)
    (r : Fin n) (q : Fin 128) : EReal :=
  max (((∑ k : Fin 128, Ideal.div (agg (ix2 r k)) (max (deg (ix2 r 0)) one) * wl (ix2 k q))
        + ∑ k : Fin 128, x (ix2 r k) * wr (ix2 k q)) + b (ix2 0 q)) zero

/-- Entry r of the decoder's score: the two gathered rows against the two halves of the decoder weight
    (each a column [128, 1]), plus the decoder bias. -/
def scoreAt {n : ℕ} (gr gc : (⟨2, ![n, 128]⟩ : Shape).Idx → EReal) (w1 w2 : (⟨2, ![128, 1]⟩ : Shape).Idx → EReal)
    (bd : (⟨2, ![1, 1]⟩ : Shape).Idx → EReal) (r : Fin n) : EReal :=
  ((∑ k : Fin 128, gr (ix2 r k) * w1 (ix2 k 0)) + ∑ k : Fin 128, gc (ix2 r k) * w2 (ix2 k 0)) + bd (ix2 0 0)

/-- Entry (r, q) of the decoder's feature row: the first 128 columns are the row-side gather, the last 128
    the column-side gather. -/
def pairAt {n : ℕ} (gr gc : (⟨2, ![n, 128]⟩ : Shape).Idx → EReal) (r : Fin n) (q : Fin 256) : EReal :=
  if h : q.val < 128 then gr (ix2 r ⟨q.val, h⟩) else gc (ix2 r ⟨q.val - 128, by omega⟩)

/-- Reassociating the three summands of a layer: addition of extended reals is commutative and
    associative everywhere, infinities included, so no finiteness is needed. -/
theorem add_bias_last (a c b : EReal) : (a + b) + c = (a + c) + b := add_right_comm a b c

/-- A sum over 256 columns is the sum over the first 128 plus the sum over the last 128. -/
theorem sum_halves (f : Fin 256 → EReal) :
    ∑ k : Fin 256, f k = (∑ k : Fin 128, f ⟨k.val, by omega⟩) + ∑ k : Fin 128, f ⟨k.val + 128, by omega⟩ := by
  have h := Fin.sum_univ_add (M := EReal) (a := 128) (b := 128) (fun k => f k)
  rw [show (∑ k : Fin 256, f k) = ∑ k : Fin (128 + 128), f k from rfl, h]
  refine congrArg₂ (· + ·) (Finset.sum_congr rfl fun k _ => congrArg f (Fin.ext rfl))
    (Finset.sum_congr rfl fun k _ => congrArg f (Fin.ext ?_))
  simp [Fin.natAdd, Nat.add_comm]

end Cert.Sage

end
-- ==== Proof.RefLayerP.lean ====
/-
  The reference's layer on 20000 destination rows, read entry by entry.

  The reference computes a layer by whole-array host operations: the aggregated rows divided by the degree
  clamped at one from below (the degree broadcast along the 128 columns), a matrix product with the transposed
  left weight, the bias broadcast along the rows, a second matrix product of the destination rows with the
  transposed right weight, and a maximum with zero.  Read at an entry (r, q) this is
      max( (Σₖ agg(r,k) / max(1, deg r) · wl(k,q) + b q) + Σₖ x(r,k) · wr(k,q) , 0 ),
  which is `Cert.Sage.layerAt` once the maximum's arguments are swapped and the bias is moved past the
  second sum — both laws of the extended reals that hold at infinities too.  The degree enters `layerAt` as
  a column [20000, 1] and the bias as a row [1, 128]: the casts of the vectors to those shapes.
-/
import proofs.«167260_j2637109919789_2_alg».proof.Proof.Gen.ReferenceIdeal.Read
import proofs.«167260_j2637109919789_2_alg».proof.Proof.SageSpec
import Idealize.ShloMosaic.Lib.ValueLayout

noncomputable section

namespace Cert.ReferenceIdeal.LayerRef

open Cert.ReferenceIdeal Cert.ReferenceIdeal.Gen Idealize.ShloMosaic Idealize.ShloMosaic.ValueIdx

/-- The reference's layer on 20000 rows as ONE function of its six operands: aggregated rows, degree vector,
    destination rows, transposed left weight, bias vector, transposed right weight. -/
def layerP (agg : FVec Ideal S20000x128 .f32) (d : FVec Ideal S20000 .f32) (x : FVec Ideal S20000x128 .f32)
    (wl : FVec Ideal S128x128 .f32) (bv : FVec Ideal S128 .f32) (wr : FVec Ideal S128x128 .f32) : FVec Ideal S20000x128 .f32 :=
  maximumf (addf (addf (Host.dotGeneral dot_S20000x128_S128x128_S20000x128_1_0_0_1_n_n none
      (Host.divf agg (broadcastInDim S20000x128 ![0, 1] bcast_S20000x1_S20000x128_0_1 (broadcastInDim S20000x1 ![0] bcast_S20000_S20000x1_0
        (maximumf (broadcastInDim S20000 ![] bcast_S_S20000 (id (constant (F := Ideal) S_ .f32 0x3F800000#32))) d)))) wl)
      (broadcastInDim S20000x128 ![0, 1] bcast_S1x128_S20000x128_0_1 (broadcastInDim S1x128 ![1] bcast_S128_S1x128_1 bv)))
      (Host.dotGeneral dot_S20000x128_S128x128_S20000x128_1_0_0_1_n_n none x wr))
    (broadcastInDim S20000x128 ![] bcast_S_S20000x128 (constant (F := Ideal) S_ .f32 0x00000000#32))

/-- A host matrix product [20000,128] × [128,128] at an entry: the sum over the 128 contracted entries. -/
theorem dotP_at (l : FVec Ideal S20000x128 .f32) (w : FVec Ideal S128x128 .f32) (r : Fin 20000) (q : Fin 128) :
    Host.dotGeneral dot_S20000x128_S128x128_S20000x128_1_0_0_1_n_n none l w (ix2 r q) = ∑ k : Fin 128, l (ix2 r k) * w (ix2 k q) := by
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ix2 r q) ((ValueIdx.contrEquiv1 dot_S20000x128_S128x128_S20000x128_1_0_0_1_n_n 128 rfl rfl).symm k) = ix2 r k :=
    funext fun a => Fin.ext (by
      match a with
      | ⟨0, _⟩ => exact Read.lhs_main_v25_0 _ _
      | ⟨1, _⟩ => exact (Read.lhs_main_v25_1 _ _).trans hk)
  have er : dot_S20000x128_S128x128_S20000x128_1_0_0_1_n_n.rhsIdx (ix2 r q) ((ValueIdx.contrEquiv1 dot_S20000x128_S128x128_S20000x128_1_0_0_1_n_n 128 rfl rfl).symm k) = ix2 k q :=
    funext fun a => Fin.ext (by
      match a with
      | ⟨0, _⟩ => exact (Read.rhs_main_v25_0 _ _).trans hk
      | ⟨1, _⟩ => exact Read.rhs_main_v25_1 _ _)
  rw [el, er]

/-- A vector over the rows, made a column and then spread along the 128 columns, reads at (r, q) its entry r. -/
theorem spreadRowsP_at (y : FVec Ideal S20000 .f32) (r : Fin 20000) (q : Fin 128) :
    broadcastInDim S20000x128 ![0, 1] bcast_S20000x1_S20000x128_0_1 (broadcastInDim S20000x1 ![0] bcast_S20000_S20000x1_0 y) (ix2 r q) = y (ix1 r) := by
  rw [broadcastInDim_apply _ bcast_S20000x1_S20000x128_0_1 _ (ix2 r q) (ix2 r (0 : Fin 1)) (fun a => match a with
      | ⟨0, _⟩ => by show r.val = if (20000 : Nat) = 1 then 0 else r.val; rw [if_neg (by decide)]
      | ⟨1, _⟩ => by show 0 = if (1 : Nat) = 1 then 0 else q.val; rw [if_pos rfl])]
  exact broadcastInDim_apply _ bcast_S20000_S20000x1_0 y (ix2 r (0 : Fin 1)) (ix1 r) (fun a => match a with
      | ⟨0, _⟩ => by show r.val = if (20000 : Nat) = 1 then 0 else r.val; rw [if_neg (by decide)])

/-- A vector over the 128 columns, made a row and then spread along the rows, reads at (r, q) its entry q. -/
theorem spreadColsP_at (y : FVec Ideal S128 .f32) (r : Fin 20000) (q : Fin 128) :
    broadcastInDim S20000x128 ![0, 1] bcast_S1x128_S20000x128_0_1 (broadcastInDim S1x128 ![1] bcast_S128_S1x128_1 y) (ix2 r q) = y (ix1 q) := by
  rw [broadcastInDim_apply _ bcast_S1x128_S20000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ bcast_S128_S1x128_1 y (ix2 (0 : Fin 1) q) (ix1 q) (fun a => match a with
      | ⟨0, _⟩ => by show q.val = if (128 : Nat) = 1 then 0 else q.val; rw [if_neg (by decide)])

/-- A vector of 20000 entries cast to a column [20000, 1] reads at (r, 0) its entry r. -/
theorem columnP_at (y : (⟨1, ![20000]⟩ : Shape).Idx → EReal) (h : (⟨1, ![20000]⟩ : Shape).ShapeCasts ⟨2, ![20000, 1]⟩) (r : Fin 20000) :
    shapeCast ⟨2, ![20000, 1]⟩ y h (ix2 r (0 : Fin 1)) = y (ix1 r) :=
  shapeCast_apply y h _ _ (by
    rw [Shape.rowMajor_val_two, Shape.rowMajor_val_one]
    show r.val = r.val * 1 + 0
    omega)

/-- The pointwise operations read at an index. -/
theorem maxP_at {s : Shape} (a b : FVec Ideal s .f32) (i : s.Idx) : maximumf a b i = max (a i) (b i) := rfl
theorem addP_at {s : Shape} (a b : FVec Ideal s .f32) (i : s.Idx) : addf a b i = a i + b i := rfl
theorem divP_at {s : Shape} (a b : FVec Ideal s .f32) (i : s.Idx) : Host.divf a b i = Ideal.div (a i) (b i) := rfl

/-- THE LAYER, entry by entry: the reference's layer is `Cert.Sage.layerAt` of the same operands, the degree as a
    column and the bias as a row. -/
theorem layerP_eq (agg : FVec Ideal S20000x128 .f32) (d : FVec Ideal S20000 .f32) (x : FVec Ideal S20000x128 .f32)
    (wl : FVec Ideal S128x128 .f32) (bv : FVec Ideal S128 .f32) (wr : FVec Ideal S128x128 .f32)
    (hd : (⟨1, ![20000]⟩ : Shape).ShapeCasts ⟨2, ![20000, 1]⟩) (hb : (⟨1, ![128]⟩ : Shape).ShapeCasts ⟨2, ![1, 128]⟩) :
    layerP agg d x wl bv wr
      = fun i : S20000x128.Idx => Cert.Sage.layerAt (n := 20000) agg (shapeCast ⟨2, ![20000, 1]⟩ d hd) x wl (shapeCast ⟨2, ![1, 128]⟩ bv hb) wr (i 0) (i 1) := by
  funext i
  obtain ⟨r, q, rfl⟩ : ∃ (r : Fin 20000) (q : Fin 128), i = ix2 r q := ⟨i 0, i 1, eq_ix2 i⟩
  unfold layerP
  rw [maxP_at, addP_at, addP_at, dotP_at, dotP_at, spreadColsP_at]
  show _ = max (((∑ k : Fin 128, Ideal.div (agg (ix2 r k)) (max (shapeCast ⟨2, ![20000, 1]⟩ d hd (ix2 r (0 : Fin 1))) Cert.Sage.one) * wl (ix2 k q))
      + ∑ k : Fin 128, x (ix2 r k) * wr (ix2 k q)) + shapeCast ⟨2, ![1, 128]⟩ bv hb (ix2 (0 : Fin 1) q)) Cert.Sage.zero
  rw [columnP_at, shapeCast_a_1a_apply]
  refine congrArg₂ max ((add_right_comm _ _ _).trans ?_) rfl
  refine congrArg (· + bv (ix1 q)) (congrArg (· + ∑ k : Fin 128, x (ix2 r k) * wr (ix2 k q)) (Finset.sum_congr rfl fun k _ => ?_))
  rw [divP_at, spreadRowsP_at, maxP_at, max_comm]
  rfl

end Cert.ReferenceIdeal.LayerRef

end
-- ==== Proof.RefLayerC.lean ====
/-
  The reference's layer on 100000 destination rows, read entry by entry.

  The reference computes a layer by whole-array host operations: the aggregated rows divided by the degree
  clamped at one from below (the degree broadcast along the 128 columns), a matrix product with the transposed
  left weight, the bias broadcast along the rows, a second matrix product of the destination rows with the
  transposed right weight, and a maximum with zero.  Read at an entry (r, q) this is
      max( (Σₖ agg(r,k) / max(1, deg r) · wl(k,q) + b q) + Σₖ x(r,k) · wr(k,q) , 0 ),
  which is `Cert.Sage.layerAt` once the maximum's arguments are swapped and the bias is moved past the
  second sum — both laws of the extended reals that hold at infinities too.  The degree enters `layerAt` as
  a column [100000, 1] and the bias as a row [1, 128]: the casts of the vectors to those shapes.
-/
import proofs.«167260_j2637109919789_2_alg».proof.Proof.Gen.ReferenceIdeal.Read
import proofs.«167260_j2637109919789_2_alg».proof.Proof.SageSpec
import Idealize.ShloMosaic.Lib.ValueLayout

noncomputable section

namespace Cert.ReferenceIdeal.LayerRef

open Cert.ReferenceIdeal Cert.ReferenceIdeal.Gen Idealize.ShloMosaic Idealize.ShloMosaic.ValueIdx

/-- The reference's layer on 100000 rows as ONE function of its six operands: aggregated rows, degree vector,
    destination rows, transposed left weight, bias vector, transposed right weight. -/
def layerC (agg : FVec Ideal S100000x128 .f32) (d : FVec Ideal S100000 .f32) (x : FVec Ideal S100000x128 .f32)
    (wl : FVec Ideal S128x128 .f32) (bv : FVec Ideal S128 .f32) (wr : FVec Ideal S128x128 .f32) : FVec Ideal S100000x128 .f32 :=
  maximumf (addf (addf (Host.dotGeneral dot_S100000x128_S128x128_S100000x128_1_0_0_1_n_n none
      (Host.divf agg (broadcastInDim S100000x128 ![0, 1] bcast_S100000x1_S100000x128_0_1 (broadcastInDim S100000x1 ![0] bcast_S100000_S100000x1_0
        (maximumf (broadcastInDim S100000 ![] bcast_S_S100000 (id (constant (F := Ideal) S_ .f32 0x3F800000#32))) d)))) wl)
      (broadcastInDim S100000x128 ![0, 1] bcast_S1x128_S100000x128_0_1 (broadcastInDim S1x128 ![1] bcast_S128_S1x128_1 bv)))
      (Host.dotGeneral dot_S100000x128_S128x128_S100000x128_1_0_0_1_n_n none x wr))
    (broadcastInDim S100000x128 ![] bcast_S_S100000x128 (constant (F := Ideal) S_ .f32 0x00000000#32))

/-- A host matrix product [100000,128] × [128,128] at an entry: the sum over the 128 contracted entries. -/
theorem dotC_at (l : FVec Ideal S100000x128 .f32) (w : FVec Ideal S128x128 .f32) (r : Fin 100000) (q : Fin 128) :
    Host.dotGeneral dot_S100000x128_S128x128_S100000x128_1_0_0_1_n_n none l w (ix2 r q) = ∑ k : Fin 128, l (ix2 r k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k :=
    funext fun a => Fin.ext (by
      match a with
      | ⟨0, _⟩ => exact Read.lhs_main_v57_0 _ _
      | ⟨1, _⟩ => exact (Read.lhs_main_v57_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q :=
    funext fun a => Fin.ext (by
      match a with
      | ⟨0, _⟩ => exact (Read.rhs_main_v57_0 _ _).trans hk
      | ⟨1, _⟩ => exact Read.rhs_main_v57_1 _ _)
  rw [el, er]

/-- A vector over the rows, made a column and then spread along the 128 columns, reads at (r, q) its entry r. -/
theorem spreadRowsC_at (y : FVec Ideal S100000 .f32) (r : Fin 100000) (q : Fin 128) :
    broadcastInDim S100000x128 ![0, 1] bcast_S100000x1_S100000x128_0_1 (broadcastInDim S100000x1 ![0] bcast_S100000_S100000x1_0 y) (ix2 r q) = y (ix1 r) := by
  rw [broadcastInDim_apply _ bcast_S100000x1_S100000x128_0_1 _ (ix2 r q) (ix2 r (0 : Fin 1)) (fun a => match a with
      | ⟨0, _⟩ => by show r.val = if (100000 : Nat) = 1 then 0 else r.val; rw [if_neg (by decide)]
      | ⟨1, _⟩ => by show 0 = if (1 : Nat) = 1 then 0 else q.val; rw [if_pos rfl])]
  exact broadcastInDim_apply _ bcast_S100000_S100000x1_0 y (ix2 r (0 : Fin 1)) (ix1 r) (fun a => match a with
      | ⟨0, _⟩ => by show r.val = if (100000 : Nat) = 1 then 0 else r.val; rw [if_neg (by decide)])

/-- A vector over the 128 columns, made a row and then spread along the rows, reads at (r, q) its entry q. -/
theorem spreadColsC_at (y : FVec Ideal S128 .f32) (r : Fin 100000) (q : Fin 128) :
    broadcastInDim S100000x128 ![0, 1] bcast_S1x128_S100000x128_0_1 (broadcastInDim S1x128 ![1] bcast_S128_S1x128_1 y) (ix2 r q) = y (ix1 q) := by
  rw [broadcastInDim_apply _ bcast_S1x128_S100000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])]
  exact broadcastInDim_apply _ bcast_S128_S1x128_1 y (ix2 (0 : Fin 1) q) (ix1 q) (fun a => match a with
      | ⟨0, _⟩ => by show q.val = if (128 : Nat) = 1 then 0 else q.val; rw [if_neg (by decide)])

/-- A vector of 100000 entries cast to a column [100000, 1] reads at (r, 0) its entry r. -/
theorem columnC_at (y : (⟨1, ![100000]⟩ : Shape).Idx → EReal) (h : (⟨1, ![100000]⟩ : Shape).ShapeCasts ⟨2, ![100000, 1]⟩) (r : Fin 100000) :
    shapeCast ⟨2, ![100000, 1]⟩ y h (ix2 r (0 : Fin 1)) = y (ix1 r) :=
  shapeCast_apply y h _ _ (by
    rw [Shape.rowMajor_val_two, Shape.rowMajor_val_one]
    show r.val = r.val * 1 + 0
    omega)

/-- The pointwise operations read at an index. -/
theorem maxC_at {s : Shape} (a b : FVec Ideal s .f32) (i : s.Idx) : maximumf a b i = max (a i) (b i) := rfl
theorem addC_at {s : Shape} (a b : FVec Ideal s .f32) (i : s.Idx) : addf a b i = a i + b i := rfl
theorem divC_at {s : Shape} (a b : FVec Ideal s .f32) (i : s.Idx) : Host.divf a b i = Ideal.div (a i) (b i) := rfl

/-- THE LAYER, entry by entry: the reference's layer is `Cert.Sage.layerAt` of the same operands, the degree as a
    column and the bias as a row. -/
theorem layerC_eq (agg : FVec Ideal S100000x128 .f32) (d : FVec Ideal S100000 .f32) (x : FVec Ideal S100000x128 .f32)
    (wl : FVec Ideal S128x128 .f32) (bv : FVec Ideal S128 .f32) (wr : FVec Ideal S128x128 .f32)
    (hd : (⟨1, ![100000]⟩ : Shape).ShapeCasts ⟨2, ![100000, 1]⟩) (hb : (⟨1, ![128]⟩ : Shape).ShapeCasts ⟨2, ![1, 128]⟩) :
    layerC agg d x wl bv wr
      = fun i : S100000x128.Idx => Cert.Sage.layerAt (n := 100000) agg (shapeCast ⟨2, ![100000, 1]⟩ d hd) x wl (shapeCast ⟨2, ![1, 128]⟩ bv hb) wr (i 0) (i 1) := by
  funext i
  obtain ⟨r, q, rfl⟩ : ∃ (r : Fin 100000) (q : Fin 128), i = ix2 r q := ⟨i 0, i 1, eq_ix2 i⟩
  unfold layerC
  rw [maxC_at, addC_at, addC_at, dotC_at, dotC_at, spreadColsC_at]
  show _ = max (((∑ k : Fin 128, Ideal.div (agg (ix2 r k)) (max (shapeCast ⟨2, ![100000, 1]⟩ d hd (ix2 r (0 : Fin 1))) Cert.Sage.one) * wl (ix2 k q))
      + ∑ k : Fin 128, x (ix2 r k) * wr (ix2 k q)) + shapeCast ⟨2, ![1, 128]⟩ bv hb (ix2 (0 : Fin 1) q)) Cert.Sage.zero
  rw [columnC_at, shapeCast_a_1a_apply]
  refine congrArg₂ max ((add_right_comm _ _ _).trans ?_) rfl
  refine congrArg (· + bv (ix1 q)) (congrArg (· + ∑ k : Fin 128, x (ix2 r k) * wr (ix2 k q)) (Finset.sum_congr rfl fun k _ => ?_))
  rw [divC_at, spreadRowsC_at, maxC_at, max_comm]
  rfl

end Cert.ReferenceIdeal.LayerRef

end
-- ==== Proof.RefStages.lean ====
/-
  Each layer of the reference is its layer function applied to the stages before it.

  The reference's program applies, three times over and for each of the two node types, the same line of
  whole-array operations; the stage that a layer ends in is, by unfolding the stages, the layer function of
  the aggregated rows, the degree vector, the previous layer's destination rows, the two transposed weights
  and the bias.  Nothing is computed here: the two sides are the same composition of operations.
-/
import proofs.«167260_j2637109919789_2_alg».proof.Proof.RefLayerP
import proofs.«167260_j2637109919789_2_alg».proof.Proof.RefLayerC

noncomputable section

namespace Cert.ReferenceIdeal.LayerRef

open Cert.ReferenceIdeal Idealize.ShloMosaic

variable (x0 : (⟨S100000x128, .f32⟩ : BufTy).Contents (Elt Ideal)) (x1 : (⟨S20000x128, .f32⟩ : BufTy).Contents (Elt Ideal))
  (x2 : (⟨S3x2x128x128, .f32⟩ : BufTy).Contents (Elt Ideal)) (x3 : (⟨S3x2x128, .f32⟩ : BufTy).Contents (Elt Ideal))
  (x4 : (⟨S3x2x128x128, .f32⟩ : BufTy).Contents (Elt Ideal)) (x7 x8 : (⟨S600000, .i32⟩ : BufTy).Contents (Elt Ideal))

/-- Layer 0, the 20000-row node type: its last stage is the layer function of the stages before it. -/
theorem stage_v65 : Read.val_main_v65 (F := Ideal) x0 x1 x2 x3 x4 x7 x8 = layerP (Read.val_main_v15 (F := Ideal) x0 x7 x8) (Read.val_main_v19 (F := Ideal) x8) x1 (Read.val_main_v24 (F := Ideal) x2) (Read.val_main_v3 (F := Ideal) x3) (Read.val_main_v29 (F := Ideal) x4) := rfl

/-- Layer 0, the 100000-row node type. -/
theorem stage_v64 : Read.val_main_v64 (F := Ideal) x0 x1 x2 x3 x4 x7 x8 = layerC (Read.val_main_v47 (F := Ideal) x1 x7 x8) (Read.val_main_v51 (F := Ideal) x7) x0 (Read.val_main_v56 (F := Ideal) x2) (Read.val_main_v35 (F := Ideal) x3) (Read.val_main_v61 (F := Ideal) x4) := rfl

/-- Layer 1, the 20000-row node type: its last stage is the layer function of the stages before it. -/
theorem stage_v131 : Read.val_main_v131 (F := Ideal) x0 x1 x2 x3 x4 x7 x8 = layerP (Read.val_main_v81 (F := Ideal) x0 x1 x2 x3 x4 x7 x8) (Read.val_main_v85 (F := Ideal) x8) (Read.val_main_v65 (F := Ideal) x0 x1 x2 x3 x4 x7 x8) (Read.val_main_v90 (F := Ideal) x2) (Read.val_main_v69 (F := Ideal) x3) (Read.val_main_v95 (F := Ideal) x4) := rfl

/-- Layer 1, the 100000-row node type. -/
theorem stage_v130 : Read.val_main_v130 (F := Ideal) x0 x1 x2 x3 x4 x7 x8 = layerC (Read.val_main_v113 (F := Ideal) x0 x1 x2 x3 x4 x7 x8) (Read.val_main_v117 (F := Ideal) x7) (Read.val_main_v64 (F := Ideal) x0 x1 x2 x3 x4 x7 x8) (Read.val_main_v122 (F := Ideal) x2) (Read.val_main_v101 (F := Ideal) x3) (Read.val_main_v127 (F := Ideal) x4) := rfl

/-- Layer 2, the 20000-row node type: its last stage is the layer function of the stages before it. -/
theorem stage_v197 : Read.val_main_v197 (F := Ideal) x0 x1 x2 x3 x4 x7 x8 = layerP (Read.val_main_v147 (F := Ideal) x0 x1 x2 x3 x4 x7 x8) (Read.val_main_v151 (F := Ideal) x8) (Read.val_main_v131 (F := Ideal) x0 x1 x2 x3 x4 x7 x8) (Read.val_main_v156 (F := Ideal) x2) (Read.val_main_v135 (F := Ideal) x3) (Read.val_main_v161 (F := Ideal) x4) := rfl

/-- Layer 2, the 100000-row node type. -/
theorem stage_v196 : Read.val_main_v196 (F := Ideal) x0 x1 x2 x3 x4 x7 x8 = layerC (Read.val_main_v179 (F := Ideal) x0 x1 x2 x3 x4 x7 x8) (Read.val_main_v183 (F := Ideal) x7) (Read.val_main_v130 (F := Ideal) x0 x1 x2 x3 x4 x7 x8) (Read.val_main_v188 (F := Ideal) x2) (Read.val_main_v167 (F := Ideal) x3) (Read.val_main_v193 (F := Ideal) x4) := rfl

end Cert.ReferenceIdeal.LayerRef

end
-- ==== Proof.SagePayload.lean ====
/-
  One block of a layer, entry by entry.

  The body works on a block of 5000 rows.  It divides each aggregated row by its degree clamped below by 1,
  multiplies the resulting mean by the transposed left weight and the destination row by the transposed right
  weight, adds the two products and the bias row, and clamps at zero from below.  Over the extended reals the
  two conversions to a narrower float format are the identity, and a product accumulated into a zero block is
  the plain sum over the 128 contracted entries.  So entry (r, q) of the stored block depends only on row r of
  the aggregated and destination blocks, on entry r of the degree column, on column q of the two weights and on
  entry q of the bias, and it is exactly the layer's entry (r, q) of those six blocks.

  The six regions carry two spellings of this body; the second reshapes the destination block to its own shape
  before narrowing it, which changes nothing.  The lemma is stated once per region so that each region's array
  can cite its own.
-/
import proofs.«167260_j2637109919789_2_alg».proof.Proof.Gen.KernelIdeal.Skeleton
import proofs.«167260_j2637109919789_2_alg».proof.Proof.SageSpec
import Idealize.ShloMosaic.Lib.Pipeline.Value
import Idealize.ShloMosaic.Lib.ValueIdx
import Idealize.ShloMosaic.PureOps.Ideal.Laws

noncomputable section

namespace Cert.KernelIdeal.SageValue

open Idealize.ShloMosaic Idealize.ShloMosaic.ValueIdx

/-- The contraction of a block of 5000 rows of 128 entries against a 128 × 128 weight: the rows' second axis
    against the weight's first. -/
abbrev rowsByWeight : DotDims S5000x128 S128x128 S5000x128 := dot_S5000x128_S128x128_S5000x128_1_0_0_1_n_n

/-- The left operand is read in the output's row. -/
theorem lhs_row (i : S5000x128.Idx) (c : rowsByWeight.contr.Idx) : (rowsByWeight.lhsIdx i c 0).val = (i 0).val := by
  unfold DotDims.lhsIdx
  rw [dif_neg (show ¬(0 : Fin S5000x128.rank) ∈ rowsByWeight.lhsBatch by decide),
    dif_pos (show (0 : Fin S5000x128.rank) ∈ rowsByWeight.lhsNonContracting by decide)]
  rfl

/-- The left operand is read at the contracted entry along its second axis. -/
theorem lhs_col (i : S5000x128.Idx) (c : rowsByWeight.contr.Idx) : (rowsByWeight.lhsIdx i c 1).val = (c ⟨0, by decide⟩).val :=
  rowsByWeight.lhsIdx_val_of_single rfl i c

/-- The weight is read at the contracted entry along its first axis. -/
theorem rhs_row (i : S5000x128.Idx) (c : rowsByWeight.contr.Idx) : (rowsByWeight.rhsIdx i c 0).val = (c ⟨0, by decide⟩).val :=
  rowsByWeight.rhsIdx_val_of_single rfl i c

/-- The weight is read in the output's column. -/
theorem rhs_col (i : S5000x128.Idx) (c : rowsByWeight.contr.Idx) : (rowsByWeight.rhsIdx i c 1).val = (i 1).val := by
  unfold DotDims.rhsIdx
  rw [dif_neg (show ¬(1 : Fin S128x128.rank) ∈ rowsByWeight.rhsBatch by decide),
    dif_pos (show (1 : Fin S128x128.rank) ∈ rowsByWeight.rhsNonContracting by decide)]
  rfl

/-- Entry (r, q) of a product accumulated into a zero block: row r of the left operand against column q of the
    weight, summed over the 128 contracted entries. -/
theorem matmul_rows_at (l : FVec Ideal S5000x128 .bf16) (w : FVec Ideal S128x128 .bf16) (r : Fin 5000) (q : Fin 128) :
    matmul rowsByWeight none l w (constant (F := Ideal) S5000x128 .f32 0x00000000#32) (ix2 r q)
      = ∑ k : Fin 128, l (ix2 r k) * w (ix2 k q) := by
  show FloatOps.matmul rowsByWeight none l w _ _ = _
  rw [Ideal.matmul_constant_zero_apply, ← Equiv.sum_comp (contrEquiv1 rowsByWeight 128 rfl rfl).symm]
  refine Finset.sum_congr rfl fun k _ => ?_
  have hk := contrEquiv1_symm_val rowsByWeight 128 rfl rfl k
  have el : rowsByWeight.lhsIdx (ix2 r q) ((contrEquiv1 rowsByWeight 128 rfl rfl).symm k) = ix2 r k :=
    funext fun a => Fin.ext (by
      match a with
      | ⟨0, _⟩ => exact lhs_row _ _
      | ⟨1, _⟩ => exact (lhs_col _ _).trans hk)
  have er : rowsByWeight.rhsIdx (ix2 r q) ((contrEquiv1 rowsByWeight 128 rfl rfl).symm k) = ix2 k q :=
    funext fun a => Fin.ext (by
      match a with
      | ⟨0, _⟩ => exact (rhs_row _ _).trans hk
      | ⟨1, _⟩ => exact rhs_col _ _)
  rw [el, er]

/-- A column [5000, 1] spread over 128 columns reads, at (r, k), the column's entry r. -/
theorem col_to_rows (v : FVec Ideal S5000x1 .f32) (r : Fin 5000) (k : Fin 128) :
    broadcastTo S5000x128 v Gen.broadcasts_S5000x1_S5000x128 (ix2 r k) = v (ix2 r 0) :=
  broadcastTo_apply v _ (ix2 r k) (ix2 r 0) fun a => by
    match a with
    | ⟨0, _⟩ => rfl
    | ⟨1, _⟩ => rfl

/-- A row [1, 128] spread over 5000 rows reads, at (r, q), the row's entry q. -/
theorem row_to_rows (v : FVec Ideal S1x128 .f32) (r : Fin 5000) (q : Fin 128) :
    broadcastTo S5000x128 v Gen.broadcasts_S1x128_S5000x128 (ix2 r q) = v (ix2 0 q) :=
  broadcastTo_apply v _ (ix2 r q) (ix2 0 q) fun a => by
    match a with
    | ⟨0, _⟩ => rfl
    | ⟨1, _⟩ => rfl

/-- Entry (r, q) of the block that region 0's body stores is the layer's entry (r, q) of its six blocks. -/
theorem pay0_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k0_pay1 (F := Ideal) x0 x1 x2 wl wr b (ix2 r q) = Cert.Sage.layerAt (n := 5000) x0 x1 x2 wl b wr r q := by
  unfold Gen.k0_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

/-- Entry (r, q) of the block that region 1's body stores is the layer's entry (r, q) of its six blocks. -/
theorem pay1_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k1_pay1 (F := Ideal) x0 x1 x2 wl wr b (ix2 r q) = Cert.Sage.layerAt (n := 5000) x0 x1 x2 wl b wr r q := by
  unfold Gen.k1_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

/-- Entry (r, q) of the block that region 2's body stores is the layer's entry (r, q) of its six blocks. -/
theorem pay2_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k2_pay1 (F := Ideal) x0 x1 x2 wl wr b (ix2 r q) = Cert.Sage.layerAt (n := 5000) x0 x1 x2 wl b wr r q := by
  unfold Gen.k2_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

/-- Entry (r, q) of the block that region 3's body stores is the layer's entry (r, q) of its six blocks. -/
theorem pay3_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k3_pay1 (F := Ideal) x0 x1 x2 wl wr b (ix2 r q) = Cert.Sage.layerAt (n := 5000) x0 x1 x2 wl b wr r q := by
  unfold Gen.k3_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

/-- Entry (r, q) of the block that region 4's body stores is the layer's entry (r, q) of its six blocks. -/
theorem pay4_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k4_pay1 (F := Ideal) x0 x1 x2 wl wr b (ix2 r q) = Cert.Sage.layerAt (n := 5000) x0 x1 x2 wl b wr r q := by
  unfold Gen.k4_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

/-- Entry (r, q) of the block that region 5's body stores is the layer's entry (r, q) of its six blocks. -/
theorem pay5_at (x0 : Vec Ideal S5000x128 .f32) (x1 : Vec Ideal S5000x1 .f32) (x2 : Vec Ideal S5000x128 .f32)
    (wl wr : Vec Ideal S128x128 .f32) (b : Vec Ideal S1x128 .f32) (r : Fin 5000) (q : Fin 128) :
    Gen.k5_pay1 (F := Ideal) x0 x1 x2 wl wr b (ix2 r q) = Cert.Sage.layerAt (n := 5000) x0 x1 x2 wl b wr r q := by
  unfold Gen.k5_pay1 Cert.Sage.layerAt
  simp only [shapeCast_self]
  rw [maximumf_apply, addf_apply, addf_apply, matmul_rows_at, matmul_rows_at, row_to_rows, broadcast_apply]
  simp only [truncf_apply, divf_apply, col_to_rows, maximumf_apply, broadcast_apply]
  rfl

end Cert.KernelIdeal.SageValue

end
-- ==== Proof.SageArr0.lean ====
/-
  The output of layer region 0, entry by entry.

  The region sweeps 4 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 20000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the region's six arrays, as one function on the output's indices. -/
abbrev layer0 (V : (c : Dev nD) → (b : Ref sig .tc) → Buf (Elt Ideal) ((c : Thread nD τ).loc b)) (c : Dev nD) : S20000x128.Idx → EReal :=
  fun i => Cert.Sage.layerAt (n := 20000) (V c main_v19) (V c main_v4) (V c main_arg1) (V c main_v32) (V c main_v38) (V c main_v35) (i 0) (i 1)

/-- The layer's entry (r, q) of six blocks is the layer's entry (5000·p + r, q) of the six arrays when the three
    row blocks are rows 5000·p … of their arrays and the two weights and the bias are read whole. -/
theorem entry_of_blocks0 (A : S20000x128.Idx → EReal) (Dg : S20000x1.Idx → EReal) (X : S20000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 4)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S20000x128.Idx) (hi0 : (i 0).val = 5000 * p + (j 0).val) (hi1 : (i 1).val = (j 1).val) :
    Gen.k0_pay1 (F := Ideal) x0 x1 x2 wl wr b j = Cert.Sage.layerAt (n := 20000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 20000) (Q : Fin 128), i = ix2 R Q := ⟨i 0, i 1, eq_ix2 i⟩
  have hb : 5000 * p + r.val < 20000 := by have := r.isLt; omega
  obtain rfl : R = ⟨5000 * p + r.val, hb⟩ := Fin.ext hi0
  obtain rfl : Q = q := Fin.ext hi1
  subst h3 h4 h5
  rw [pay0_at]
  show Cert.Sage.layerAt (n := 5000) x0 x1 x2 wl b wr r Q = Cert.Sage.layerAt (n := 20000) A Dg X wl b wr ⟨5000 * p + r.val, hb⟩ Q
  unfold Cert.Sage.layerAt
  simp only [h0, h1, h2]

/-- The aggregated rows' block at point t is rows 5000·t … 5000·t + 4999 of the array. -/
theorem agg_block0 (V : (c : Dev nD) → (b : Ref sig .tc) → Buf (Elt Ideal) ((c : Thread nD τ).loc b)) (c : Dev nD) (t : Fin cfg0.N) (r : Fin 5000) (k : Fin 128) (h : 5000 * t.val + r.val < 20000) :
    (Gen.iblk0 V c 0 t : Vec Ideal S5000x128 .f32) (ix2 r k) = (V c main_v19 : S20000x128.Idx → EReal) (ix2 ⟨5000 * t.val + r.val, h⟩ k) := by
  obtain ⟨e00, e01, -⟩ := blockIdx0 t
  unfold Gen.iblk0
  show V c main_v19 (((cfg0.win 0).blk t).view.emb (ix2 r k)) = V c main_v19 _
  refine congrArg (V c main_v19) (funext fun a => Fin.ext ?_)
  match a with
  | ⟨0, _⟩ => show win0_0.index t (0 : Fin 2) * 5000 + 1 * r.val = 5000 * t.val + r.val; rw [e00]; omega
  | ⟨1, _⟩ => show win0_0.index t (1 : Fin 2) * 128 + 1 * k.val = k.val; rw [e01]; omega

/-- The degree column's block at point t is entries 5000·t … 5000·t + 4999 of the column. -/
theorem deg_block0 (V : (c : Dev nD) → (b : Ref sig .tc) → Buf (Elt Ideal) ((c : Thread nD τ).loc b)) (c : Dev nD) (t : Fin cfg0.N) (r : Fin 5000) (h : 5000 * t.val + r.val < 20000) :
    (Gen.iblk0 V c 1 t : Vec Ideal S5000x1 .f32) (ix2 r 0) = (V c main_v4 : S20000x1.Idx → EReal) (ix2 ⟨5000 * t.val + r.val, h⟩ 0) := by
  obtain ⟨-, -, e10, e11, -⟩ := blockIdx0 t
  unfold Gen.iblk0
  show V c main_v4 (((cfg0.win 1).blk t).view.emb (ix2 r 0)) = V c main_v4 _
  refine congrArg (V c main_v4) (funext fun a => Fin.ext ?_)
  match a with
  | ⟨0, _⟩ => show win0_1.index t (0 : Fin 2) * 5000 + 1 * r.val = 5000 * t.val + r.val; rw [e10]; omega
  | ⟨1, _⟩ => show win0_1.index t (1 : Fin 2) * 1 + 1 * 0 = 0; rw [e11]

/-- The destination rows' block at point t is rows 5000·t … 5000·t + 4999 of the array. -/
theorem dst_block0 (V : (c : Dev nD) → (b : Ref sig .tc) → Buf (Elt Ideal) ((c : Thread nD τ).loc b)) (c : Dev nD) (t : Fin cfg0.N) (r : Fin 5000) (k : Fin 128) (h : 5000 * t.val + r.val < 20000) :
    (Gen.iblk0 V c 2 t : Vec Ideal S5000x128 .f32) (ix2 r k) = (V c main_arg1 : S20000x128.Idx → EReal) (ix2 ⟨5000 * t.val + r.val, h⟩ k) := by
  obtain ⟨-, -, -, -, e20, e21, -⟩ := blockIdx0 t
  unfold Gen.iblk0
  show V c main_arg1 (((cfg0.win 2).blk t).view.emb (ix2 r k)) = V c main_arg1 _
  refine congrArg (V c main_arg1) (funext fun a => Fin.ext ?_)
  match a with
  | ⟨0, _⟩ => show win0_2.index t (0 : Fin 2) * 5000 + 1 * r.val = 5000 * t.val + r.val; rw [e20]; omega
  | ⟨1, _⟩ => show win0_2.index t (1 : Fin 2) * 128 + 1 * k.val = k.val; rw [e21]; omega

/-- The left weight is staged whole at every point. -/
theorem wl_block0 (V : (c : Dev nD) → (b : Ref sig .tc) → Buf (Elt Ideal) ((c : Thread nD τ).loc b)) (c : Dev nD) (t : Fin cfg0.N) :
    (Gen.iblk0 V c 3 t : Vec Ideal S128x128 .f32) = (V c main_v32 : S128x128.Idx → EReal) := by
  obtain ⟨-, -, -, -, -, -, e30, e31, -⟩ := blockIdx0 t
  unfold Gen.iblk0
  funext y
  show V c main_v32 (((cfg0.win 3).blk t).view.emb y) = V c main_v32 y
  refine congrArg (V c main_v32) (funext fun a => Fin.ext ?_)
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-- The bias row is staged whole at every point. -/
theorem bias_block0 (V : (c : Dev nD) → (b : Ref sig .tc) → Buf (Elt Ideal) ((c : Thread nD τ).loc b)) (c : Dev nD) (t : Fin cfg0.N) :
    (Gen.iblk0 V c 4 t : Vec Ideal S1x128 .f32) = (V c main_v38 : S1x128.Idx → EReal) := by
  obtain ⟨-, -, -, -, -, -, -, -, e40, e41, -⟩ := blockIdx0 t
  unfold Gen.iblk0
  funext y
  show V c main_v38 (((cfg0.win 4).blk t).view.emb y) = V c main_v38 y
  refine congrArg (V c main_v38) (funext fun a => Fin.ext ?_)
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-- The right weight is staged whole at every point. -/
theorem wr_block0 (V : (c : Dev nD) → (b : Ref sig .tc) → Buf (Elt Ideal) ((c : Thread nD τ).loc b)) (c : Dev nD) (t : Fin cfg0.N) :
    (Gen.iblk0 V c 5 t : Vec Ideal S128x128 .f32) = (V c main_v35 : S128x128.Idx → EReal) := by
  obtain ⟨-, -, -, -, -, -, -, -, -, -, e50, e51, -⟩ := blockIdx0 t
  unfold Gen.iblk0
  funext y
  show V c main_v35 (((cfg0.win 5).blk t).view.emb y) = V c main_v35 y
  refine congrArg (V c main_v35) (funext fun a => Fin.ext ?_)
  match a with
  | ⟨0, _⟩ => show win0_5.index t (0 : Fin 2) * 128 + 1 * (y 0).val = (y 0).val; rw [e50]; omega
  | ⟨1, _⟩ => show win0_5.index t (1 : Fin 2) * 128 + 1 * (y 1).val = (y 1).val; rw [e51]; omega

/-- What point t writes back is block t of the layer of the six arrays: rows 5000·t … 5000·t + 4999. -/
theorem flushed0 (V : (c : Dev nD) → (b : Ref sig .tc) → Buf (Elt Ideal) ((c : Thread nD τ).loc b)) (c : Dev nD) (t : Fin cfg0.N) :
    (Gen.dat0 (F := Ideal) V c).flushed 6 t = ((cfg0.win 6).blk t).view.read (Elt Ideal) (layer0 V c) := by
  have hz : (![0, 0] : Fin 2 → Nat) = fun _ => 0 := funext fun a => by fin_cases a <;> rfl
  show (cfg0.win 6).cut (grid0.coords t) ((Gen.dat0 (F := Ideal) V c).after 6 t) = _
  rw [Gen.after0_6]
  unfold Gen.out0_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 4 := t.isLt.trans_eq (show cfg0.N = 4 from Gen.N_0)
  obtain ⟨-, -, -, -, -, -, -, -, -, -, -, -, e60, e61⟩ := blockIdx0 t
  funext j
  show Gen.k0_pay1 (F := Ideal) (Gen.iblk0 V c 0 t) (Gen.iblk0 V c 1 t) (Gen.iblk0 V c 2 t) (Gen.iblk0 V c 3 t) (Gen.iblk0 V c 5 t) (Gen.iblk0 V c 4 t) j
    = layer0 V c (((cfg0.win 6).blk t).view.emb j)
  refine entry_of_blocks0 (V c main_v19) (V c main_v4) (V c main_arg1) (V c main_v32) (V c main_v38) (V c main_v35)
    (Gen.iblk0 V c 0 t) (Gen.iblk0 V c 1 t) (Gen.iblk0 V c 2 t) (Gen.iblk0 V c 3 t) (Gen.iblk0 V c 5 t) (Gen.iblk0 V c 4 t) t.val ht
    (fun r k => agg_block0 V c t r k _) (fun r => deg_block0 V c t r _) (fun r k => dst_block0 V c t r k _)
    (wl_block0 V c t) (bias_block0 V c t) (wr_block0 V c t) j (((cfg0.win 6).blk t).view.emb j) ?_ ?_
  · show win0_6.index t (0 : Fin 2) * 5000 + 1 * (j 0).val = 5000 * t.val + (j 0).val
    rw [e60]; omega
  · show win0_6.index t (1 : Fin 2) * 128 + 1 * (j 1).val = (j 1).val
    rw [e61]; omega

/-- An index of the output array is in point t's block iff each coordinate is in the block's range on its axis. -/
theorem mem_out0 (t : Fin cfg0.N) (i : S20000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v48).slice (win0_6.rect t)).set ↔ _
  rw [View.set_slice_whole, Rect.mem_set_unit]
  exact Iff.rfl

/-- Every row r of the output lies in the block of point r / 5000, and every point writes its block back. -/
theorem cover0 (i : S20000x128.Idx) :
    ∃ t : Fin cfg0.N, (cfg0.win 6).flush t = true ∧ i ∈ ((cfg0.win 6).blk t).view.set := by
  have h0 : (i 0).val < 20000 := idx2_lt0 i
  have h1 : (i 1).val < 128 := idx2_lt1 i
  have hN : cfg0.N = 4 := Gen.N_0
  have hq : (i 0).val / 5000 < cfg0.N := by rw [hN]; omega
  obtain ⟨-, -, -, -, -, -, -, -, -, -, -, -, e60, e61⟩ := blockIdx0 ⟨(i 0).val / 5000, hq⟩
  refine ⟨⟨(i 0).val / 5000, hq⟩, Gen.flush0_6 _, ?_⟩
  rw [mem_out0]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e61]; omega

/-- The output array after the region: the layer of the six input arrays, entry by entry. -/
theorem arr0 (V : (c : Dev nD) → (b : Ref sig .tc) → Buf (Elt Ideal) ((c : Thread nD τ).loc b)) (c : Dev nD) :
    (Gen.dat0 (F := Ideal) V c).arrAt 6 cfg0.N
      = fun i : S20000x128.Idx => Cert.Sage.layerAt (n := 20000) (V c main_v19) (V c main_v4) (V c main_arg1) (V c main_v32) (V c main_v38) (V c main_v35) (i 0) (i 1) :=
  (Gen.dat0 (F := Ideal) V c).arrAt_eq_of_cover 6 (layer0 V c) (fun t _ => flushed0 V c t) cover0

end Cert.KernelIdeal.SageValue

end
-- ==== Proof.SageArr1.lean ====
/-
  The output of layer region 1, entry by entry.

  The region sweeps 20 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 100000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer of the region's six arrays, as one function on the output's indices. -/
abbrev layer1 (V : (c : Dev nD) → (b : Ref sig .tc) → Buf (Elt Ideal) ((c : Thread nD τ).loc b)) (c : Dev nD) : S100000x128.Idx → EReal :=
  fun i => Cert.Sage.layerAt (n := 100000) (V c main_v29) (V c main_v9) (V c main_arg0) (V c main_v41) (V c main_v47) (V c main_v44) (i 0) (i 1)

/-- The layer's entry (r, q) of six blocks is the layer's entry (5000·p + r, q) of the six arrays when the three
    row blocks are rows 5000·p … of their arrays and the two weights and the bias are read whole. -/
theorem entry_of_blocks1 (A : S100000x128.Idx → EReal) (Dg : S100000x1.Idx → EReal) (X : S100000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 20)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S100000x128.Idx) (hi0 : (i 0).val = 5000 * p + (j 0).val) (hi1 : (i 1).val = (j 1).val) :
    Gen.k1_pay1 (F := Ideal) x0 x1 x2 wl wr b j = Cert.Sage.layerAt (n := 100000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 100000) (Q : Fin 128), i = ix2 R Q := ⟨i 0, i 1, eq_ix2 i⟩
  have hb : 5000 * p + r.val < 100000 := by have := r.isLt; omega
  obtain rfl : R = ⟨5000 * p + r.val, hb⟩ := Fin.ext hi0
  obtain rfl : Q = q := Fin.ext hi1
  subst h3 h4 h5
  rw [pay1_at]
  show Cert.Sage.layerAt (n := 5000) x0 x1 x2 wl b wr r Q = Cert.Sage.layerAt (n := 100000) A Dg X wl b wr ⟨5000 * p + r.val, hb⟩ Q
  unfold Cert.Sage.layerAt
  simp only [h0, h1, h2]

/-- The aggregated rows' block at point t is rows 5000·t … 5000·t + 4999 of the array. -/
theorem agg_block1 (V : (c : Dev nD) → (b : Ref sig .tc) → Buf (Elt Ideal) ((c : Thread nD τ).loc b)) (c : Dev nD) (t : Fin cfg1.N) (r : Fin 5000) (k : Fin 128) (h : 5000 * t.val + r.val < 100000) :
    (Gen.iblk1 V c 0 t : Vec Ideal S5000x128 .f32) (ix2 r k) = (V c main_v29 : S100000x128.Idx → EReal) (ix2 ⟨5000 * t.val + r.val, h⟩ k) := by
  obtain ⟨e00, e01, -⟩ := blockIdx1 t
  unfold Gen.iblk1
  show V c main_v29 (((cfg1.win 0).blk t).view.emb (ix2 r k)) = V c main_v29 _
  refine congrArg (V c main_v29) (funext fun a => Fin.ext ?_)
  match a with
  | ⟨0, _⟩ => show win1_0.index t (0 : Fin 2) * 5000 + 1 * r.val = 5000 * t.val + r.val; rw [e00]; omega
  | ⟨1, _⟩ => show win1_0.index t (1 : Fin 2) * 128 + 1 * k.val = k.val; rw [e01]; omega

/-- The degree column's block at point t is entries 5000·t … 5000·t + 4999 of the column. -/
theorem deg_block1 (V : (c : Dev nD) → (b : Ref sig .tc) → Buf (Elt Ideal) ((c : Thread nD τ).loc b)) (c : Dev nD) (t : Fin cfg1.N) (r : Fin 5000) (h : 5000 * t.val + r.val < 100000) :
    (Gen.iblk1 V c 1 t : Vec Ideal S5000x1 .f32) (ix2 r 0) = (V c main_v9 : S100000x1.Idx → EReal) (ix2 ⟨5000 * t.val + r.val, h⟩ 0) := by
  obtain ⟨-, -, e10, e11, -⟩ := blockIdx1 t
  unfold Gen.iblk1
  show V c main_v9 (((cfg1.win 1).blk t).view.emb (ix2 r 0)) = V c main_v9 _
  refine congrArg (V c main_v9) (funext fun a => Fin.ext ?_)
  match a with
  | ⟨0, _⟩ => show win1_1.index t (0 : Fin 2) * 5000 + 1 * r.val = 5000 * t.val + r.val; rw [e10]; omega
  | ⟨1, _⟩ => show win1_1.index t (1 : Fin 2) * 1 + 1 * 0 = 0; rw [e11]

/-- The destination rows' block at point t is rows 5000·t … 5000·t + 4999 of the array. -/
theorem dst_block1 (V : (c : Dev nD) → (b : Ref sig .tc) → Buf (Elt Ideal) ((c : Thread nD τ).loc b)) (c : Dev nD) (t : Fin cfg1.N) (r : Fin 5000) (k : Fin 128) (h : 5000 * t.val + r.val < 100000) :
    (Gen.iblk1 V c 2 t : Vec Ideal S5000x128 .f32) (ix2 r k) = (V c main_arg0 : S100000x128.Idx → EReal) (ix2 ⟨5000 * t.val + r.val, h⟩ k) := by
  obtain ⟨-, -, -, -, e20, e21, -⟩ := blockIdx1 t
  unfold Gen.iblk1
  show V c main_arg0 (((cfg1.win 2).blk t).view.emb (ix2 r k)) = V c main_arg0 _
  refine congrArg (V c main_arg0) (funext fun a => Fin.ext ?_)
  match a with
  | ⟨0, _⟩ => show win1_2.index t (0 : Fin 2) * 5000 + 1 * r.val = 5000 * t.val + r.val; rw [e20]; omega
  | ⟨1, _⟩ => show win1_2.index t (1 : Fin 2) * 128 + 1 * k.val = k.val; rw [e21]; omega

/-- The left weight is staged whole at every point. -/
theorem wl_block1 (V : (c : Dev nD) → (b : Ref sig .tc) → Buf (Elt Ideal) ((c : Thread nD τ).loc b)) (c : Dev nD) (t : Fin cfg1.N) :
    (Gen.iblk1 V c 3 t : Vec Ideal S128x128 .f32) = (V c main_v41 : S128x128.Idx → EReal) := by
  obtain ⟨-, -, -, -, -, -, e30, e31, -⟩ := blockIdx1 t
  unfold Gen.iblk1
  funext y
  show V c main_v41 (((cfg1.win 3).blk t).view.emb y) = V c main_v41 y
  refine congrArg (V c main_v41) (funext fun a => Fin.ext ?_)
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

/-- The bias row is staged whole at every point. -/
theorem bias_block1 (V : (c : Dev nD) → (b : Ref sig .tc) → Buf (Elt Ideal) ((c : Thread nD τ).loc b)) (c : Dev nD) (t : Fin cfg1.N) :
    (Gen.iblk1 V c 4 t : Vec Ideal S1x128 .f32) = (V c main_v47 : S1x128.Idx → EReal) := by
  obtain ⟨-, -, -, -, -, -, -, -, e40, e41, -⟩ := blockIdx1 t
  unfold Gen.iblk1
  funext y
  show V c main_v47 (((cfg1.win 4).blk t).view.emb y) = V c main_v47 y
  refine congrArg (V c main_v47) (funext fun a => Fin.ext ?_)
  match a with
  | ⟨0, _⟩ => show win1_4.index t (0 : Fin 2) * 1 + 1 * (y 0).val = (y 0).val; rw [e40]; omega
  | ⟨1, _⟩ => show win1_4.index t (1 : Fin 2) * 128 + 1 * (y 1).val = (y 1).val; rw [e41]; omega

/-- The right weight is staged whole at every point. -/
theorem wr_block1 (V : (c : Dev nD) → (b : Ref sig .tc) → Buf (Elt Ideal) ((c : Thread nD τ).loc b)) (c : Dev nD) (t : Fin cfg1.N) :
    (Gen.iblk1 V c 5 t : Vec Ideal S128x128 .f32) = (V c main_v44 : S128x128.Idx → EReal) := by
  obtain ⟨-, -, -, -, -, -, -, -, -, -, e50, e51, -⟩ := blockIdx1 t
  unfold Gen.iblk1
  funext y
  show V c main_v44 (((cfg1.win 5).blk t).view.emb y) = V c main_v44 y
  refine congrArg (V c main_v44) (funext fun a => Fin.ext ?_)
  match a with
  | ⟨0, _⟩ => show win1_5.index t (0 : Fin 2) * 128 + 1 * (y 0).val = (y 0).val; rw [e50]; omega
  | ⟨1, _⟩ => show win1_5.index t (1 : Fin 2) * 128 + 1 * (y 1).val = (y 1).val; rw [e51]; omega

/-- What point t writes back is block t of the layer of the six arrays: rows 5000·t … 5000·t + 4999. -/
theorem flushed1 (V : (c : Dev nD) → (b : Ref sig .tc) → Buf (Elt Ideal) ((c : Thread nD τ).loc b)) (c : Dev nD) (t : Fin cfg1.N) :
    (Gen.dat1 (F := Ideal) V c).flushed 6 t = ((cfg1.win 6).blk t).view.read (Elt Ideal) (layer1 V c) := by
  have hz : (![0, 0] : Fin 2 → Nat) = fun _ => 0 := funext fun a => by fin_cases a <;> rfl
  show (cfg1.win 6).cut (grid1.coords t) ((Gen.dat1 (F := Ideal) V c).after 6 t) = _
  rw [Gen.after1_6]
  unfold Gen.out1_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 20 := t.isLt.trans_eq (show cfg1.N = 20 from Gen.N_1)
  obtain ⟨-, -, -, -, -, -, -, -, -, -, -, -, e60, e61⟩ := blockIdx1 t
  funext j
  show Gen.k1_pay1 (F := Ideal) (Gen.iblk1 V c 0 t) (Gen.iblk1 V c 1 t) (Gen.iblk1 V c 2 t) (Gen.iblk1 V c 3 t) (Gen.iblk1 V c 5 t) (Gen.iblk1 V c 4 t) j
    = layer1 V c (((cfg1.win 6).blk t).view.emb j)
  refine entry_of_blocks1 (V c main_v29) (V c main_v9) (V c main_arg0) (V c main_v41) (V c main_v47) (V c main_v44)
    (Gen.iblk1 V c 0 t) (Gen.iblk1 V c 1 t) (Gen.iblk1 V c 2 t) (Gen.iblk1 V c 3 t) (Gen.iblk1 V c 5 t) (Gen.iblk1 V c 4 t) t.val ht
    (fun r k => agg_block1 V c t r k _) (fun r => deg_block1 V c t r _) (fun r k => dst_block1 V c t r k _)
    (wl_block1 V c t) (bias_block1 V c t) (wr_block1 V c t) j (((cfg1.win 6).blk t).view.emb j) ?_ ?_
  · show win1_6.index t (0 : Fin 2) * 5000 + 1 * (j 0).val = 5000 * t.val + (j 0).val
    rw [e60]; omega
  · show win1_6.index t (1 : Fin 2) * 128 + 1 * (j 1).val = (j 1).val
    rw [e61]; omega

/-- An index of the output array is in point t's block iff each coordinate is in the block's range on its axis. -/
theorem mem_out1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v49).slice (win1_6.rect t)).set ↔ _
  rw [View.set_slice_whole, Rect.mem_set_unit]
  exact Iff.rfl

/-- Every row r of the output lies in the block of point r / 5000, and every point writes its block back. -/
theorem cover1 (i : S100000x128.Idx) :
    ∃ t : Fin cfg1.N, (cfg1.win 6).flush t = true ∧ i ∈ ((cfg1.win 6).blk t).view.set := by
  have h0 : (i 0).val < 100000 := idx2_lt0 i
  have h1 : (i 1).val < 128 := idx2_lt1 i
  have hN : cfg1.N = 20 := Gen.N_1
  have hq : (i 0).val / 5000 < cfg1.N := by rw [hN]; omega
  obtain ⟨-, -, -, -, -, -, -, -, -, -, -, -, e60, e61⟩ := blockIdx1 ⟨(i 0).val / 5000, hq⟩
  refine ⟨⟨(i 0).val / 5000, hq⟩, Gen.flush1_6 _, ?_⟩
  rw [mem_out1]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e61]; omega

/-- The output array after the region: the layer of the six input arrays, entry by entry. -/
theorem arr1 (V : (c : Dev nD) → (b : Ref sig .tc) → Buf (Elt Ideal) ((c : Thread nD τ).loc b)) (c : Dev nD) :
    (Gen.dat1 (F := Ideal) V c).arrAt 6 cfg1.N
      = fun i : S100000x128.Idx => Cert.Sage.layerAt (n := 100000) (V c main_v29) (V c main_v9) (V c main_arg0) (V c main_v41) (V c main_v47) (V c main_v44) (i 0) (i 1) :=
  (Gen.dat1 (F := Ideal) V c).arrAt_eq_of_cover 6 (layer1 V c) (fun t _ => flushed1 V c t) cover1

end Cert.KernelIdeal.SageValue

end
-- ==== Proof.StagesLayer0.lean ====
/-
  Layer 0 of the kernel program, followed through the memory.

  At the boundary before the layer's two regions the host operations have left, for each node type, the rows
  aggregated over the edges (a gather of the source rows followed by a scatter-add at the destination rows) and
  the layer's transposed weights and bias row, and once for all layers the two degree columns: each is the SAME composition of
  operations on the argument arrays as the reference's stage of that role, so the two are equal by unfolding.
  The region for the 20000-row node type then leaves in its output array the layer function of its six input
  arrays, entry by entry, and that is the reference's stage at the end of its layer (the reference's layer read
  entry by entry); likewise the region for the 100000-row node type.  Every other buffer is carried across each
  boundary unchanged: a stretch of host operations changes only the buffers its operations write, a region only
  its output array (an input array of a region is staged and left as it was).
-/
import proofs.«167260_j2637109919789_2_alg».proof.Proof.Gen.KernelIdeal.Frame
import proofs.«167260_j2637109919789_2_alg».proof.Proof.Gen.ReferenceIdeal.Read
import proofs.«167260_j2637109919789_2_alg».proof.Proof.RefStages
import proofs.«167260_j2637109919789_2_alg».proof.Proof.SageArr0
import proofs.«167260_j2637109919789_2_alg».proof.Proof.SageArr1
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- None of a stretch's operations writes the buffer in question: each operation's one written buffer is a
    different buffer. -/
local macro "host_keeps " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))
/-! ## Boundary 0: the launch memory -/

theorem at0_arg0 : W0 m ρ c (Proc.devRef .tc main_arg0) = (m ((c : Thread nD τ).loc main_arg0)) := rfl

theorem at0_arg1 : W0 m ρ c (Proc.devRef .tc main_arg1) = (m ((c : Thread nD τ).loc main_arg1)) := rfl

theorem at0_arg2 : W0 m ρ c (Proc.devRef .tc main_arg2) = (m ((c : Thread nD τ).loc main_arg2)) := rfl

theorem at0_arg3 : W0 m ρ c (Proc.devRef .tc main_arg3) = (m ((c : Thread nD τ).loc main_arg3)) := rfl

theorem at0_arg4 : W0 m ρ c (Proc.devRef .tc main_arg4) = (m ((c : Thread nD τ).loc main_arg4)) := rfl

theorem at0_arg5 : W0 m ρ c (Proc.devRef .tc main_arg5) = (m ((c : Thread nD τ).loc main_arg5)) := rfl

theorem at0_arg6 : W0 m ρ c (Proc.devRef .tc main_arg6) = (m ((c : Thread nD τ).loc main_arg6)) := rfl

theorem at0_arg7 : W0 m ρ c (Proc.devRef .tc main_arg7) = (m ((c : Thread nD τ).loc main_arg7)) := rfl

theorem at0_arg8 : W0 m ρ c (Proc.devRef .tc main_arg8) = (m ((c : Thread nD τ).loc main_arg8)) := rfl

theorem at0_arg9 : W0 m ρ c (Proc.devRef .tc main_arg9) = (m ((c : Thread nD τ).loc main_arg9)) := rfl

theorem at0_arg10 : W0 m ρ c (Proc.devRef .tc main_arg10) = (m ((c : Thread nD τ).loc main_arg10)) := rfl

/-! ## Boundary 1: after the host operations `hostOps0` -/

theorem at1_arg0 : W1 m ρ c (Proc.devRef .tc main_arg0) = (m ((c : Thread nD τ).loc main_arg0)) :=
  (StableHlo.after_of_forall_not_mem (b := (Proc.devRef .tc main_arg0)) _ _ (List.forall_iff_forall_mem.mp (by host_keeps hostOps0))).trans (at0_arg0 m ρ c)

theorem at1_arg1 : W1 m ρ c (Proc.devRef .tc main_arg1) = (m ((c : Thread nD τ).loc main_arg1)) :=
  (StableHlo.after_of_forall_not_mem (b := (Proc.devRef .tc main_arg1)) _ _ (List.forall_iff_forall_mem.mp (by host_keeps hostOps0))).trans (at0_arg1 m ρ c)

theorem at1_arg2 : W1 m ρ c (Proc.devRef .tc main_arg2) = (m ((c : Thread nD τ).loc main_arg2)) :=
  (StableHlo.after_of_forall_not_mem (b := (Proc.devRef .tc main_arg2)) _ _ (List.forall_iff_forall_mem.mp (by host_keeps hostOps0))).trans (at0_arg2 m ρ c)

theorem at1_arg3 : W1 m ρ c (Proc.devRef .tc main_arg3) = (m ((c : Thread nD τ).loc main_arg3)) :=
  (StableHlo.after_of_forall_not_mem (b := (Proc.devRef .tc main_arg3)) _ _ (List.forall_iff_forall_mem.mp (by host_keeps hostOps0))).trans (at0_arg3 m ρ c)

theorem at1_arg4 : W1 m ρ c (Proc.devRef .tc main_arg4) = (m ((c : Thread nD τ).loc main_arg4)) :=
  (StableHlo.after_of_forall_not_mem (b := (Proc.devRef .tc main_arg4)) _ _ (List.forall_iff_forall_mem.mp (by host_keeps hostOps0))).trans (at0_arg4 m ρ c)

theorem at1_arg5 : W1 m ρ c (Proc.devRef .tc main_arg5) = (m ((c : Thread nD τ).loc main_arg5)) :=
  (StableHlo.after_of_forall_not_mem (b := (Proc.devRef .tc main_arg5)) _ _ (List.forall_iff_forall_mem.mp (by host_keeps hostOps0))).trans (at0_arg5 m ρ c)

theorem at1_arg6 : W1 m ρ c (Proc.devRef .tc main_arg6) = (m ((c : Thread nD τ).loc main_arg6)) :=
  (StableHlo.after_of_forall_not_mem (b := (Proc.devRef .tc main_arg6)) _ _ (List.forall_iff_forall_mem.mp (by host_keeps hostOps0))).trans (at0_arg6 m ρ c)

theorem at1_arg7 : W1 m ρ c (Proc.devRef .tc main_arg7) = (m ((c : Thread nD τ).loc main_arg7)) :=
  (StableHlo.after_of_forall_not_mem (b := (Proc.devRef .tc main_arg7)) _ _ (List.forall_iff_forall_mem.mp (by host_keeps hostOps0))).trans (at0_arg7 m ρ c)

theorem at1_arg8 : W1 m ρ c (Proc.devRef .tc main_arg8) = (m ((c : Thread nD τ).loc main_arg8)) :=
  (StableHlo.after_of_forall_not_mem (b := (Proc.devRef .tc main_arg8)) _ _ (List.forall_iff_forall_mem.mp (by host_keeps hostOps0))).trans (at0_arg8 m ρ c)

theorem at1_arg9 : W1 m ρ c (Proc.devRef .tc main_arg9) = (m ((c : Thread nD τ).loc main_arg9)) :=
  (StableHlo.after_of_forall_not_mem (b := (Proc.devRef .tc main_arg9)) _ _ (List.forall_iff_forall_mem.mp (by host_keeps hostOps0))).trans (at0_arg9 m ρ c)

theorem at1_arg10 : W1 m ρ c (Proc.devRef .tc main_arg10) = (m ((c : Thread nD τ).loc main_arg10)) :=
  (StableHlo.after_of_forall_not_mem (b := (Proc.devRef .tc main_arg10)) _ _ (List.forall_iff_forall_mem.mp (by host_keeps hostOps0))).trans (at0_arg10 m ρ c)

theorem at1_v4 : W1 m ρ c (Proc.devRef .tc main_v4) = (shapeCast S20000x1 (Cert.ReferenceIdeal.Read.val_main_v19 (F := Ideal) (m ((c : Thread nD τ).loc main_arg8))) shapeCasts_S20000_S20000x1) := by
  have e0 := at0_arg8 m ρ c
  dsimp only [W1]
  generalize W0 m ρ c = X at e0 ⊢
  after_results_simp
  simp only [e0]
  rfl

theorem at1_v9 : W1 m ρ c (Proc.devRef .tc main_v9) = (shapeCast S100000x1 (Cert.ReferenceIdeal.Read.val_main_v51 (F := Ideal) (m ((c : Thread nD τ).loc main_arg7))) shapeCasts_S100000_S100000x1) := by
  have e0 := at0_arg7 m ρ c
  dsimp only [W1]
  generalize W0 m ρ c = X at e0 ⊢
  after_results_simp
  simp only [e0]
  rfl

theorem at1_v19 : W1 m ρ c (Proc.devRef .tc main_v19) = (Cert.ReferenceIdeal.Read.val_main_v15 (F := Ideal) (m ((c : Thread nD τ).loc main_arg0)) (m ((c : Thread nD τ).loc main_arg7)) (m ((c : Thread nD τ).loc main_arg8))) := by
  have e0 := at0_arg0 m ρ c
  have e1 := at0_arg7 m ρ c
  have e2 := at0_arg8 m ρ c
  dsimp only [W1]
  generalize W0 m ρ c = X at e0 e1 e2 ⊢
  after_results_simp
  simp only [e0, e1, e2]
  rfl

theorem at1_v32 : W1 m ρ c (Proc.devRef .tc main_v32) = (Cert.ReferenceIdeal.Read.val_main_v24 (F := Ideal) (m ((c : Thread nD τ).loc main_arg2))) := by
  have e0 := at0_arg2 m ρ c
  dsimp only [W1]
  generalize W0 m ρ c = X at e0 ⊢
  after_results_simp
  simp only [e0]
  rfl

theorem at1_v38 : W1 m ρ c (Proc.devRef .tc main_v38) = (shapeCast S1x128 (Cert.ReferenceIdeal.Read.val_main_v3 (F := Ideal) (m ((c : Thread nD τ).loc main_arg3))) shapeCasts_S128_S1x128) := by
  have e0 := at0_arg3 m ρ c
  dsimp only [W1]
  generalize W0 m ρ c = X at e0 ⊢
  after_results_simp
  simp only [e0]
  rfl

theorem at1_v35 : W1 m ρ c (Proc.devRef .tc main_v35) = (Cert.ReferenceIdeal.Read.val_main_v29 (F := Ideal) (m ((c : Thread nD τ).loc main_arg4))) := by
  have e0 := at0_arg4 m ρ c
  dsimp only [W1]
  generalize W0 m ρ c = X at e0 ⊢
  after_results_simp
  simp only [e0]
  rfl

theorem at1_v29 : W1 m ρ c (Proc.devRef .tc main_v29) = (Cert.ReferenceIdeal.Read.val_main_v47 (F := Ideal) (m ((c : Thread nD τ).loc main_arg1)) (m ((c : Thread nD τ).loc main_arg7)) (m ((c : Thread nD τ).loc main_arg8))) := by
  have e0 := at0_arg1 m ρ c
  have e1 := at0_arg7 m ρ c
  have e2 := at0_arg8 m ρ c
  dsimp only [W1]
  generalize W0 m ρ c = X at e0 e1 e2 ⊢
  after_results_simp
  simp only [e0, e1, e2]
  rfl

theorem at1_v41 : W1 m ρ c (Proc.devRef .tc main_v41) = (Cert.ReferenceIdeal.Read.val_main_v56 (F := Ideal) (m ((c : Thread nD τ).loc main_arg2))) := by
  have e0 := at0_arg2 m ρ c
  dsimp only [W1]
  generalize W0 m ρ c = X at e0 ⊢
  after_results_simp
  simp only [e0]
  rfl

theorem at1_v47 : W1 m ρ c (Proc.devRef .tc main_v47) = (shapeCast S1x128 (Cert.ReferenceIdeal.Read.val_main_v35 (F := Ideal) (m ((c : Thread nD τ).loc main_arg3))) shapeCasts_S128_S1x128) := by
  have e0 := at0_arg3 m ρ c
  dsimp only [W1]
  generalize W0 m ρ c = X at e0 ⊢
  after_results_simp
  simp only [e0]
  rfl

theorem at1_v44 : W1 m ρ c (Proc.devRef .tc main_v44) = (Cert.ReferenceIdeal.Read.val_main_v61 (F := Ideal) (m ((c : Thread nD τ).loc main_arg4))) := by
  have e0 := at0_arg4 m ρ c
  dsimp only [W1]
  generalize W0 m ρ c = X at e0 ⊢
  after_results_simp
  simp only [e0]
  rfl

/-! ## Boundary 2: after region 0 -/

theorem at2_arg0 : W2 m ρ c (Proc.devRef .tc main_arg0) = (m ((c : Thread nD τ).loc main_arg0)) :=
  (W2_of_ne m ρ c main_arg0 (by decide)).trans (at1_arg0 m ρ c)

theorem at2_arg2 : W2 m ρ c (Proc.devRef .tc main_arg2) = (m ((c : Thread nD τ).loc main_arg2)) :=
  (W2_of_ne m ρ c main_arg2 (by decide)).trans (at1_arg2 m ρ c)

theorem at2_arg3 : W2 m ρ c (Proc.devRef .tc main_arg3) = (m ((c : Thread nD τ).loc main_arg3)) :=
  (W2_of_ne m ρ c main_arg3 (by decide)).trans (at1_arg3 m ρ c)

theorem at2_arg4 : W2 m ρ c (Proc.devRef .tc main_arg4) = (m ((c : Thread nD τ).loc main_arg4)) :=
  (W2_of_ne m ρ c main_arg4 (by decide)).trans (at1_arg4 m ρ c)

theorem at2_arg5 : W2 m ρ c (Proc.devRef .tc main_arg5) = (m ((c : Thread nD τ).loc main_arg5)) :=
  (W2_of_ne m ρ c main_arg5 (by decide)).trans (at1_arg5 m ρ c)

theorem at2_arg6 : W2 m ρ c (Proc.devRef .tc main_arg6) = (m ((c : Thread nD τ).loc main_arg6)) :=
  (W2_of_ne m ρ c main_arg6 (by decide)).trans (at1_arg6 m ρ c)

theorem at2_arg7 : W2 m ρ c (Proc.devRef .tc main_arg7) = (m ((c : Thread nD τ).loc main_arg7)) :=
  (W2_of_ne m ρ c main_arg7 (by decide)).trans (at1_arg7 m ρ c)

theorem at2_arg8 : W2 m ρ c (Proc.devRef .tc main_arg8) = (m ((c : Thread nD τ).loc main_arg8)) :=
  (W2_of_ne m ρ c main_arg8 (by decide)).trans (at1_arg8 m ρ c)

theorem at2_arg9 : W2 m ρ c (Proc.devRef .tc main_arg9) = (m ((c : Thread nD τ).loc main_arg9)) :=
  (W2_of_ne m ρ c main_arg9 (by decide)).trans (at1_arg9 m ρ c)

theorem at2_arg10 : W2 m ρ c (Proc.devRef .tc main_arg10) = (m ((c : Thread nD τ).loc main_arg10)) :=
  (W2_of_ne m ρ c main_arg10 (by decide)).trans (at1_arg10 m ρ c)

theorem at2_v4 : W2 m ρ c (Proc.devRef .tc main_v4) = (shapeCast S20000x1 (Cert.ReferenceIdeal.Read.val_main_v19 (F := Ideal) (m ((c : Thread nD τ).loc main_arg8))) shapeCasts_S20000_S20000x1) :=
  ((W2_arr m ρ c 1).trans (((dat0 (V1 m ρ) c).arrAt_in 1 rfl _).trans (A_eq0 (V1 m ρ) c 1))).trans (at1_v4 m ρ c)

theorem at2_v9 : W2 m ρ c (Proc.devRef .tc main_v9) = (shapeCast S100000x1 (Cert.ReferenceIdeal.Read.val_main_v51 (F := Ideal) (m ((c : Thread nD τ).loc main_arg7))) shapeCasts_S100000_S100000x1) :=
  (W2_of_ne m ρ c main_v9 (by decide)).trans (at1_v9 m ρ c)

theorem at2_v29 : W2 m ρ c (Proc.devRef .tc main_v29) = (Cert.ReferenceIdeal.Read.val_main_v47 (F := Ideal) (m ((c : Thread nD τ).loc main_arg1)) (m ((c : Thread nD τ).loc main_arg7)) (m ((c : Thread nD τ).loc main_arg8))) :=
  (W2_of_ne m ρ c main_v29 (by decide)).trans (at1_v29 m ρ c)

theorem at2_v41 : W2 m ρ c (Proc.devRef .tc main_v41) = (Cert.ReferenceIdeal.Read.val_main_v56 (F := Ideal) (m ((c : Thread nD τ).loc main_arg2))) :=
  (W2_of_ne m ρ c main_v41 (by decide)).trans (at1_v41 m ρ c)

theorem at2_v47 : W2 m ρ c (Proc.devRef .tc main_v47) = (shapeCast S1x128 (Cert.ReferenceIdeal.Read.val_main_v35 (F := Ideal) (m ((c : Thread nD τ).loc main_arg3))) shapeCasts_S128_S1x128) :=
  (W2_of_ne m ρ c main_v47 (by decide)).trans (at1_v47 m ρ c)

theorem at2_v44 : W2 m ρ c (Proc.devRef .tc main_v44) = (Cert.ReferenceIdeal.Read.val_main_v61 (F := Ideal) (m ((c : Thread nD τ).loc main_arg4))) :=
  (W2_of_ne m ρ c main_v44 (by decide)).trans (at1_v44 m ρ c)

theorem at2_v48 : W2 m ρ c (Proc.devRef .tc main_v48) = (Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W2_arr m ρ c 6).trans (Cert.KernelIdeal.SageValue.arr0 (V1 m ρ) c)).trans ?_
  have h0 : V1 m ρ c main_v19 = (Cert.ReferenceIdeal.Read.val_main_v15 (F := Ideal) (m ((c : Thread nD τ).loc main_arg0)) (m ((c : Thread nD τ).loc main_arg7)) (m ((c : Thread nD τ).loc main_arg8))) := at1_v19 m ρ c
  have h1 : V1 m ρ c main_v4 = (shapeCast S20000x1 (Cert.ReferenceIdeal.Read.val_main_v19 (F := Ideal) (m ((c : Thread nD τ).loc main_arg8))) shapeCasts_S20000_S20000x1) := at1_v4 m ρ c
  have h2 : V1 m ρ c main_arg1 = (m ((c : Thread nD τ).loc main_arg1)) := at1_arg1 m ρ c
  have h3 : V1 m ρ c main_v32 = (Cert.ReferenceIdeal.Read.val_main_v24 (F := Ideal) (m ((c : Thread nD τ).loc main_arg2))) := at1_v32 m ρ c
  have h4 : V1 m ρ c main_v38 = (shapeCast S1x128 (Cert.ReferenceIdeal.Read.val_main_v3 (F := Ideal) (m ((c : Thread nD τ).loc main_arg3))) shapeCasts_S128_S1x128) := at1_v38 m ρ c
  have h5 : V1 m ρ c main_v35 = (Cert.ReferenceIdeal.Read.val_main_v29 (F := Ideal) (m ((c : Thread nD τ).loc main_arg4))) := at1_v35 m ρ c
  rw [h0, h1, h2, h3, h4, h5]
  exact (Cert.ReferenceIdeal.LayerRef.layerP_eq _ _ _ _ _ _ _ _).symm.trans (Cert.ReferenceIdeal.LayerRef.stage_v65 _ _ _ _ _ _ _).symm

/-! ## Boundary 3: after region 1 -/

theorem at3_arg2 : W3 m ρ c (Proc.devRef .tc main_arg2) = (m ((c : Thread nD τ).loc main_arg2)) :=
  (W3_of_ne m ρ c main_arg2 (by decide)).trans (at2_arg2 m ρ c)

theorem at3_arg3 : W3 m ρ c (Proc.devRef .tc main_arg3) = (m ((c : Thread nD τ).loc main_arg3)) :=
  (W3_of_ne m ρ c main_arg3 (by decide)).trans (at2_arg3 m ρ c)

theorem at3_arg4 : W3 m ρ c (Proc.devRef .tc main_arg4) = (m ((c : Thread nD τ).loc main_arg4)) :=
  (W3_of_ne m ρ c main_arg4 (by decide)).trans (at2_arg4 m ρ c)

theorem at3_arg5 : W3 m ρ c (Proc.devRef .tc main_arg5) = (m ((c : Thread nD τ).loc main_arg5)) :=
  (W3_of_ne m ρ c main_arg5 (by decide)).trans (at2_arg5 m ρ c)

theorem at3_arg6 : W3 m ρ c (Proc.devRef .tc main_arg6) = (m ((c : Thread nD τ).loc main_arg6)) :=
  (W3_of_ne m ρ c main_arg6 (by decide)).trans (at2_arg6 m ρ c)

theorem at3_arg7 : W3 m ρ c (Proc.devRef .tc main_arg7) = (m ((c : Thread nD τ).loc main_arg7)) :=
  (W3_of_ne m ρ c main_arg7 (by decide)).trans (at2_arg7 m ρ c)

theorem at3_arg8 : W3 m ρ c (Proc.devRef .tc main_arg8) = (m ((c : Thread nD τ).loc main_arg8)) :=
  (W3_of_ne m ρ c main_arg8 (by decide)).trans (at2_arg8 m ρ c)

theorem at3_arg9 : W3 m ρ c (Proc.devRef .tc main_arg9) = (m ((c : Thread nD τ).loc main_arg9)) :=
  (W3_of_ne m ρ c main_arg9 (by decide)).trans (at2_arg9 m ρ c)

theorem at3_arg10 : W3 m ρ c (Proc.devRef .tc main_arg10) = (m ((c : Thread nD τ).loc main_arg10)) :=
  (W3_of_ne m ρ c main_arg10 (by decide)).trans (at2_arg10 m ρ c)

theorem at3_v4 : W3 m ρ c (Proc.devRef .tc main_v4) = (shapeCast S20000x1 (Cert.ReferenceIdeal.Read.val_main_v19 (F := Ideal) (m ((c : Thread nD τ).loc main_arg8))) shapeCasts_S20000_S20000x1) :=
  (W3_of_ne m ρ c main_v4 (by decide)).trans (at2_v4 m ρ c)

theorem at3_v9 : W3 m ρ c (Proc.devRef .tc main_v9) = (shapeCast S100000x1 (Cert.ReferenceIdeal.Read.val_main_v51 (F := Ideal) (m ((c : Thread nD τ).loc main_arg7))) shapeCasts_S100000_S100000x1) :=
  ((W3_arr m ρ c 1).trans (((dat1 (V2 m ρ) c).arrAt_in 1 rfl _).trans (A_eq1 (V2 m ρ) c 1))).trans (at2_v9 m ρ c)

theorem at3_v48 : W3 m ρ c (Proc.devRef .tc main_v48) = (Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W3_of_ne m ρ c main_v48 (by decide)).trans (at2_v48 m ρ c)

theorem at3_v49 : W3 m ρ c (Proc.devRef .tc main_v49) = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W3_arr m ρ c 6).trans (Cert.KernelIdeal.SageValue.arr1 (V2 m ρ) c)).trans ?_
  have h0 : V2 m ρ c main_v29 = (Cert.ReferenceIdeal.Read.val_main_v47 (F := Ideal) (m ((c : Thread nD τ).loc main_arg1)) (m ((c : Thread nD τ).loc main_arg7)) (m ((c : Thread nD τ).loc main_arg8))) := at2_v29 m ρ c
  have h1 : V2 m ρ c main_v9 = (shapeCast S100000x1 (Cert.ReferenceIdeal.Read.val_main_v51 (F := Ideal) (m ((c : Thread nD τ).loc main_arg7))) shapeCasts_S100000_S100000x1) := at2_v9 m ρ c
  have h2 : V2 m ρ c main_arg0 = (m ((c : Thread nD τ).loc main_arg0)) := at2_arg0 m ρ c
  have h3 : V2 m ρ c main_v41 = (Cert.ReferenceIdeal.Read.val_main_v56 (F := Ideal) (m ((c : Thread nD τ).loc main_arg2))) := at2_v41 m ρ c
  have h4 : V2 m ρ c main_v47 = (shapeCast S1x128 (Cert.ReferenceIdeal.Read.val_main_v35 (F := Ideal) (m ((c : Thread nD τ).loc main_arg3))) shapeCasts_S128_S1x128) := at2_v47 m ρ c
  have h5 : V2 m ρ c main_v44 = (Cert.ReferenceIdeal.Read.val_main_v61 (F := Ideal) (m ((c : Thread nD τ).loc main_arg4))) := at2_v44 m ρ c
  rw [h0, h1, h2, h3, h4, h5]
  exact (Cert.ReferenceIdeal.LayerRef.layerC_eq _ _ _ _ _ _ _ _).symm.trans (Cert.ReferenceIdeal.LayerRef.stage_v64 _ _ _ _ _ _ _).symm

end Cert.KernelIdeal.Stages

end
-- ==== Proof.SageArr2.lean ====
/-
  The output of layer region 2, entry by entry.

  The region sweeps 4 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 20000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer of the region's six arrays, as one function on the output's indices. -/
abbrev layer2 (V : (c : Dev nD) → (b : Ref sig .tc) → Buf (Elt Ideal) ((c : Thread nD τ).loc b)) (c : Dev nD) : S20000x128.Idx → EReal :=
  fun i => Cert.Sage.layerAt (n := 20000) (V c main_v59) (V c main_v4) (V c main_v48) (V c main_v72) (V c main_v78) (V c main_v75) (i 0) (i 1)

/-- The layer's entry (r, q) of six blocks is the layer's entry (5000·p + r, q) of the six arrays when the three
    row blocks are rows 5000·p … of their arrays and the two weights and the bias are read whole. -/
theorem entry_of_blocks2 (A : S20000x128.Idx → EReal) (Dg : S20000x1.Idx → EReal) (X : S20000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 4)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S20000x128.Idx) (hi0 : (i 0).val = 5000 * p + (j 0).val) (hi1 : (i 1).val = (j 1).val) :
    Gen.k2_pay1 (F := Ideal) x0 x1 x2 wl wr b j = Cert.Sage.layerAt (n := 20000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 20000) (Q : Fin 128), i = ix2 R Q := ⟨i 0, i 1, eq_ix2 i⟩
  have hb : 5000 * p + r.val < 20000 := by have := r.isLt; omega
  obtain rfl : R = ⟨5000 * p + r.val, hb⟩ := Fin.ext hi0
  obtain rfl : Q = q := Fin.ext hi1
  subst h3 h4 h5
  rw [pay2_at]
  show Cert.Sage.layerAt (n := 5000) x0 x1 x2 wl b wr r Q = Cert.Sage.layerAt (n := 20000) A Dg X wl b wr ⟨5000 * p + r.val, hb⟩ Q
  unfold Cert.Sage.layerAt
  simp only [h0, h1, h2]

/-- The aggregated rows' block at point t is rows 5000·t … 5000·t + 4999 of the array. -/
theorem agg_block2 (V : (c : Dev nD) → (b : Ref sig .tc) → Buf (Elt Ideal) ((c : Thread nD τ).loc b)) (c : Dev nD) (t : Fin cfg2.N) (r : Fin 5000) (k : Fin 128) (h : 5000 * t.val + r.val < 20000) :
    (Gen.iblk2 V c 0 t : Vec Ideal S5000x128 .f32) (ix2 r k) = (V c main_v59 : S20000x128.Idx → EReal) (ix2 ⟨5000 * t.val + r.val, h⟩ k) := by
  obtain ⟨e00, e01, -⟩ := blockIdx2 t
  unfold Gen.iblk2
  show V c main_v59 (((cfg2.win 0).blk t).view.emb (ix2 r k)) = V c main_v59 _
  refine congrArg (V c main_v59) (funext fun a => Fin.ext ?_)
  match a with
  | ⟨0, _⟩ => show win2_0.index t (0 : Fin 2) * 5000 + 1 * r.val = 5000 * t.val + r.val; rw [e00]; omega
  | ⟨1, _⟩ => show win2_0.index t (1 : Fin 2) * 128 + 1 * k.val = k.val; rw [e01]; omega

/-- The degree column's block at point t is entries 5000·t … 5000·t + 4999 of the column. -/
theorem deg_block2 (V : (c : Dev nD) → (b : Ref sig .tc) → Buf (Elt Ideal) ((c : Thread nD τ).loc b)) (c : Dev nD) (t : Fin cfg2.N) (r : Fin 5000) (h : 5000 * t.val + r.val < 20000) :
    (Gen.iblk2 V c 1 t : Vec Ideal S5000x1 .f32) (ix2 r 0) = (V c main_v4 : S20000x1.Idx → EReal) (ix2 ⟨5000 * t.val + r.val, h⟩ 0) := by
  obtain ⟨-, -, e10, e11, -⟩ := blockIdx2 t
  unfold Gen.iblk2
  show V c main_v4 (((cfg2.win 1).blk t).view.emb (ix2 r 0)) = V c main_v4 _
  refine congrArg (V c main_v4) (funext fun a => Fin.ext ?_)
  match a with
  | ⟨0, _⟩ => show win2_1.index t (0 : Fin 2) * 5000 + 1 * r.val = 5000 * t.val + r.val; rw [e10]; omega
  | ⟨1, _⟩ => show win2_1.index t (1 : Fin 2) * 1 + 1 * 0 = 0; rw [e11]

/-- The destination rows' block at point t is rows 5000·t … 5000·t + 4999 of the array. -/
theorem dst_block2 (V : (c : Dev nD) → (b : Ref sig .tc) → Buf (Elt Ideal) ((c : Thread nD τ).loc b)) (c : Dev nD) (t : Fin cfg2.N) (r : Fin 5000) (k : Fin 128) (h : 5000 * t.val + r.val < 20000) :
    (Gen.iblk2 V c 2 t : Vec Ideal S5000x128 .f32) (ix2 r k) = (V c main_v48 : S20000x128.Idx → EReal) (ix2 ⟨5000 * t.val + r.val, h⟩ k) := by
  obtain ⟨-, -, -, -, e20, e21, -⟩ := blockIdx2 t
  unfold Gen.iblk2
  show V c main_v48 (((cfg2.win 2).blk t).view.emb (ix2 r k)) = V c main_v48 _
  refine congrArg (V c main_v48) (funext fun a => Fin.ext ?_)
  match a with
  | ⟨0, _⟩ => show win2_2.index t (0 : Fin 2) * 5000 + 1 * r.val = 5000 * t.val + r.val; rw [e20]; omega
  | ⟨1, _⟩ => show win2_2.index t (1 : Fin 2) * 128 + 1 * k.val = k.val; rw [e21]; omega

/-- The left weight is staged whole at every point. -/
theorem wl_block2 (V : (c : Dev nD) → (b : Ref sig .tc) → Buf (Elt Ideal) ((c : Thread nD τ).loc b)) (c : Dev nD) (t : Fin cfg2.N) :
    (Gen.iblk2 V c 3 t : Vec Ideal S128x128 .f32) = (V c main_v72 : S128x128.Idx → EReal) := by
  obtain ⟨-, -, -, -, -, -, e30, e31, -⟩ := blockIdx2 t
  unfold Gen.iblk2
  funext y
  show V c main_v72 (((cfg2.win 3).blk t).view.emb y) = V c main_v72 y
  refine congrArg (V c main_v72) (funext fun a => Fin.ext ?_)
  match a with
  | ⟨0, _⟩ => show win2_3.index t (0 : Fin 2) * 128 + 1 * (y 0).val = (y 0).val; rw [e30]; omega
  | ⟨1, _⟩ => show win2_3.index t (1 : Fin 2) * 128 + 1 * (y 1).val = (y 1).val; rw [e31]; omega

/-- The bias row is staged whole at every point. -/
theorem bias_block2 (V : (c : Dev nD) → (b : Ref sig .tc) → Buf (Elt Ideal) ((c : Thread nD τ).loc b)) (c : Dev nD) (t : Fin cfg2.N) :
    (Gen.iblk2 V c 4 t : Vec Ideal S1x128 .f32) = (V c main_v78 : S1x128.Idx → EReal) := by
  obtain ⟨-, -, -, -, -, -, -, -, e40, e41, -⟩ := blockIdx2 t
  unfold Gen.iblk2
  funext y
  show V c main_v78 (((cfg2.win 4).blk t).view.emb y) = V c main_v78 y
  refine congrArg (V c main_v78) (funext fun a => Fin.ext ?_)
  match a with
  | ⟨0, _⟩ => show win2_4.index t (0 : Fin 2) * 1 + 1 * (y 0).val = (y 0).val; rw [e40]; omega
  | ⟨1, _⟩ => show win2_4.index t (1 : Fin 2) * 128 + 1 * (y 1).val = (y 1).val; rw [e41]; omega

/-- The right weight is staged whole at every point. -/
theorem wr_block2 (V : (c : Dev nD) → (b : Ref sig .tc) → Buf (Elt Ideal) ((c : Thread nD τ).loc b)) (c : Dev nD) (t : Fin cfg2.N) :
    (Gen.iblk2 V c 5 t : Vec Ideal S128x128 .f32) = (V c main_v75 : S128x128.Idx → EReal) := by
  obtain ⟨-, -, -, -, -, -, -, -, -, -, e50, e51, -⟩ := blockIdx2 t
  unfold Gen.iblk2
  funext y
  show V c main_v75 (((cfg2.win 5).blk t).view.emb y) = V c main_v75 y
  refine congrArg (V c main_v75) (funext fun a => Fin.ext ?_)
  match a with
  | ⟨0, _⟩ => show win2_5.index t (0 : Fin 2) * 128 + 1 * (y 0).val = (y 0).val; rw [e50]; omega
  | ⟨1, _⟩ => show win2_5.index t (1 : Fin 2) * 128 + 1 * (y 1).val = (y 1).val; rw [e51]; omega

/-- What point t writes back is block t of the layer of the six arrays: rows 5000·t … 5000·t + 4999. -/
theorem flushed2 (V : (c : Dev nD) → (b : Ref sig .tc) → Buf (Elt Ideal) ((c : Thread nD τ).loc b)) (c : Dev nD) (t : Fin cfg2.N) :
    (Gen.dat2 (F := Ideal) V c).flushed 6 t = ((cfg2.win 6).blk t).view.read (Elt Ideal) (layer2 V c) := by
  have hz : (![0, 0] : Fin 2 → Nat) = fun _ => 0 := funext fun a => by fin_cases a <;> rfl
  show (cfg2.win 6).cut (grid2.coords t) ((Gen.dat2 (F := Ideal) V c).after 6 t) = _
  rw [Gen.after2_6]
  unfold Gen.out2_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 4 := t.isLt.trans_eq (show cfg2.N = 4 from Gen.N_2)
  obtain ⟨-, -, -, -, -, -, -, -, -, -, -, -, e60, e61⟩ := blockIdx2 t
  funext j
  show Gen.k2_pay1 (F := Ideal) (Gen.iblk2 V c 0 t) (Gen.iblk2 V c 1 t) (Gen.iblk2 V c 2 t) (Gen.iblk2 V c 3 t) (Gen.iblk2 V c 5 t) (Gen.iblk2 V c 4 t) j
    = layer2 V c (((cfg2.win 6).blk t).view.emb j)
  refine entry_of_blocks2 (V c main_v59) (V c main_v4) (V c main_v48) (V c main_v72) (V c main_v78) (V c main_v75)
    (Gen.iblk2 V c 0 t) (Gen.iblk2 V c 1 t) (Gen.iblk2 V c 2 t) (Gen.iblk2 V c 3 t) (Gen.iblk2 V c 5 t) (Gen.iblk2 V c 4 t) t.val ht
    (fun r k => agg_block2 V c t r k _) (fun r => deg_block2 V c t r _) (fun r k => dst_block2 V c t r k _)
    (wl_block2 V c t) (bias_block2 V c t) (wr_block2 V c t) j (((cfg2.win 6).blk t).view.emb j) ?_ ?_
  · show win2_6.index t (0 : Fin 2) * 5000 + 1 * (j 0).val = 5000 * t.val + (j 0).val
    rw [e60]; omega
  · show win2_6.index t (1 : Fin 2) * 128 + 1 * (j 1).val = (j 1).val
    rw [e61]; omega

/-- An index of the output array is in point t's block iff each coordinate is in the block's range on its axis. -/
theorem mem_out2 (t : Fin cfg2.N) (i : S20000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v88).slice (win2_6.rect t)).set ↔ _
  rw [View.set_slice_whole, Rect.mem_set_unit]
  exact Iff.rfl

/-- Every row r of the output lies in the block of point r / 5000, and every point writes its block back. -/
theorem cover2 (i : S20000x128.Idx) :
    ∃ t : Fin cfg2.N, (cfg2.win 6).flush t = true ∧ i ∈ ((cfg2.win 6).blk t).view.set := by
  have h0 : (i 0).val < 20000 := idx2_lt0 i
  have h1 : (i 1).val < 128 := idx2_lt1 i
  have hN : cfg2.N = 4 := Gen.N_2
  have hq : (i 0).val / 5000 < cfg2.N := by rw [hN]; omega
  obtain ⟨-, -, -, -, -, -, -, -, -, -, -, -, e60, e61⟩ := blockIdx2 ⟨(i 0).val / 5000, hq⟩
  refine ⟨⟨(i 0).val / 5000, hq⟩, Gen.flush2_6 _, ?_⟩
  rw [mem_out2]
  intro a
  match a with
  | ⟨0, _⟩ =>
    show win2_6.index ⟨(i 0).val / 5000, hq⟩ (0 : Fin 2) * 5000 ≤ (i 0).val
      ∧ (i 0).val < win2_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, hq⟩ (1 : Fin 2) * 128 ≤ (i 1).val
      ∧ (i 1).val < win2_6.index ⟨(i 0).val / 5000, hq⟩ (1 : Fin 2) * 128 + 128
    rw [e61]; omega

/-- The output array after the region: the layer of the six input arrays, entry by entry. -/
theorem arr2 (V : (c : Dev nD) → (b : Ref sig .tc) → Buf (Elt Ideal) ((c : Thread nD τ).loc b)) (c : Dev nD) :
    (Gen.dat2 (F := Ideal) V c).arrAt 6 cfg2.N
      = fun i : S20000x128.Idx => Cert.Sage.layerAt (n := 20000) (V c main_v59) (V c main_v4) (V c main_v48) (V c main_v72) (V c main_v78) (V c main_v75) (i 0) (i 1) :=
  (Gen.dat2 (F := Ideal) V c).arrAt_eq_of_cover 6 (layer2 V c) (fun t _ => flushed2 V c t) cover2

end Cert.KernelIdeal.SageValue

end
-- ==== Proof.SageArr3.lean ====
/-
  The output of layer region 3, entry by entry.

  The region sweeps 20 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 100000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer of the region's six arrays, as one function on the output's indices. -/
abbrev layer3 (V : (c : Dev nD) → (b : Ref sig .tc) → Buf (Elt Ideal) ((c : Thread nD τ).loc b)) (c : Dev nD) : S100000x128.Idx → EReal :=
  fun i => Cert.Sage.layerAt (n := 100000) (V c main_v69) (V c main_v9) (V c main_v49) (V c main_v81) (V c main_v87) (V c main_v84) (i 0) (i 1)

/-- The layer's entry (r, q) of six blocks is the layer's entry (5000·p + r, q) of the six arrays when the three
    row blocks are rows 5000·p … of their arrays and the two weights and the bias are read whole. -/
theorem entry_of_blocks3 (A : S100000x128.Idx → EReal) (Dg : S100000x1.Idx → EReal) (X : S100000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 20)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S100000x128.Idx) (hi0 : (i 0).val = 5000 * p + (j 0).val) (hi1 : (i 1).val = (j 1).val) :
    Gen.k3_pay1 (F := Ideal) x0 x1 x2 wl wr b j = Cert.Sage.layerAt (n := 100000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 100000) (Q : Fin 128), i = ix2 R Q := ⟨i 0, i 1, eq_ix2 i⟩
  have hb : 5000 * p + r.val < 100000 := by have := r.isLt; omega
  obtain rfl : R = ⟨5000 * p + r.val, hb⟩ := Fin.ext hi0
  obtain rfl : Q = q := Fin.ext hi1
  subst h3 h4 h5
  rw [pay3_at]
  show Cert.Sage.layerAt (n := 5000) x0 x1 x2 wl b wr r Q = Cert.Sage.layerAt (n := 100000) A Dg X wl b wr ⟨5000 * p + r.val, hb⟩ Q
  unfold Cert.Sage.layerAt
  simp only [h0, h1, h2]

/-- The aggregated rows' block at point t is rows 5000·t … 5000·t + 4999 of the array. -/
theorem agg_block3 (V : (c : Dev nD) → (b : Ref sig .tc) → Buf (Elt Ideal) ((c : Thread nD τ).loc b)) (c : Dev nD) (t : Fin cfg3.N) (r : Fin 5000) (k : Fin 128) (h : 5000 * t.val + r.val < 100000) :
    (Gen.iblk3 V c 0 t : Vec Ideal S5000x128 .f32) (ix2 r k) = (V c main_v69 : S100000x128.Idx → EReal) (ix2 ⟨5000 * t.val + r.val, h⟩ k) := by
  obtain ⟨e00, e01, -⟩ := blockIdx3 t
  unfold Gen.iblk3
  show V c main_v69 (((cfg3.win 0).blk t).view.emb (ix2 r k)) = V c main_v69 _
  refine congrArg (V c main_v69) (funext fun a => Fin.ext ?_)
  match a with
  | ⟨0, _⟩ => show win3_0.index t (0 : Fin 2) * 5000 + 1 * r.val = 5000 * t.val + r.val; rw [e00]; omega
  | ⟨1, _⟩ => show win3_0.index t (1 : Fin 2) * 128 + 1 * k.val = k.val; rw [e01]; omega

/-- The degree column's block at point t is entries 5000·t … 5000·t + 4999 of the column. -/
theorem deg_block3 (V : (c : Dev nD) → (b : Ref sig .tc) → Buf (Elt Ideal) ((c : Thread nD τ).loc b)) (c : Dev nD) (t : Fin cfg3.N) (r : Fin 5000) (h : 5000 * t.val + r.val < 100000) :
    (Gen.iblk3 V c 1 t : Vec Ideal S5000x1 .f32) (ix2 r 0) = (V c main_v9 : S100000x1.Idx → EReal) (ix2 ⟨5000 * t.val + r.val, h⟩ 0) := by
  obtain ⟨-, -, e10, e11, -⟩ := blockIdx3 t
  unfold Gen.iblk3
  show V c main_v9 (((cfg3.win 1).blk t).view.emb (ix2 r 0)) = V c main_v9 _
  refine congrArg (V c main_v9) (funext fun a => Fin.ext ?_)
  match a with
  | ⟨0, _⟩ => show win3_1.index t (0 : Fin 2) * 5000 + 1 * r.val = 5000 * t.val + r.val; rw [e10]; omega
  | ⟨1, _⟩ => show win3_1.index t (1 : Fin 2) * 1 + 1 * 0 = 0; rw [e11]

/-- The destination rows' block at point t is rows 5000·t … 5000·t + 4999 of the array. -/
theorem dst_block3 (V : (c : Dev nD) → (b : Ref sig .tc) → Buf (Elt Ideal) ((c : Thread nD τ).loc b)) (c : Dev nD) (t : Fin cfg3.N) (r : Fin 5000) (k : Fin 128) (h : 5000 * t.val + r.val < 100000) :
    (Gen.iblk3 V c 2 t : Vec Ideal S5000x128 .f32) (ix2 r k) = (V c main_v49 : S100000x128.Idx → EReal) (ix2 ⟨5000 * t.val + r.val, h⟩ k) := by
  obtain ⟨-, -, -, -, e20, e21, -⟩ := blockIdx3 t
  unfold Gen.iblk3
  show V c main_v49 (((cfg3.win 2).blk t).view.emb (ix2 r k)) = V c main_v49 _
  refine congrArg (V c main_v49) (funext fun a => Fin.ext ?_)
  match a with
  | ⟨0, _⟩ => show win3_2.index t (0 : Fin 2) * 5000 + 1 * r.val = 5000 * t.val + r.val; rw [e20]; omega
  | ⟨1, _⟩ => show win3_2.index t (1 : Fin 2) * 128 + 1 * k.val = k.val; rw [e21]; omega

/-- The left weight is staged whole at every point. -/
theorem wl_block3 (V : (c : Dev nD) → (b : Ref sig .tc) → Buf (Elt Ideal) ((c : Thread nD τ).loc b)) (c : Dev nD) (t : Fin cfg3.N) :
    (Gen.iblk3 V c 3 t : Vec Ideal S128x128 .f32) = (V c main_v81 : S128x128.Idx → EReal) := by
  obtain ⟨-, -, -, -, -, -, e30, e31, -⟩ := blockIdx3 t
  unfold Gen.iblk3
  funext y
  show V c main_v81 (((cfg3.win 3).blk t).view.emb y) = V c main_v81 y
  refine congrArg (V c main_v81) (funext fun a => Fin.ext ?_)
  match a with
  | ⟨0, _⟩ => show win3_3.index t (0 : Fin 2) * 128 + 1 * (y 0).val = (y 0).val; rw [e30]; omega
  | ⟨1, _⟩ => show win3_3.index t (1 : Fin 2) * 128 + 1 * (y 1).val = (y 1).val; rw [e31]; omega

/-- The bias row is staged whole at every point. -/
theorem bias_block3 (V : (c : Dev nD) → (b : Ref sig .tc) → Buf (Elt Ideal) ((c : Thread nD τ).loc b)) (c : Dev nD) (t : Fin cfg3.N) :
    (Gen.iblk3 V c 4 t : Vec Ideal S1x128 .f32) = (V c main_v87 : S1x128.Idx → EReal) := by
  obtain ⟨-, -, -, -, -, -, -, -, e40, e41, -⟩ := blockIdx3 t
  unfold Gen.iblk3
  funext y
  show V c main_v87 (((cfg3.win 4).blk t).view.emb y) = V c main_v87 y
  refine congrArg (V c main_v87) (funext fun a => Fin.ext ?_)
  match a with
  | ⟨0, _⟩ => show win3_4.index t (0 : Fin 2) * 1 + 1 * (y 0).val = (y 0).val; rw [e40]; omega
  | ⟨1, _⟩ => show win3_4.index t (1 : Fin 2) * 128 + 1 * (y 1).val = (y 1).val; rw [e41]; omega

/-- The right weight is staged whole at every point. -/
theorem wr_block3 (V : (c : Dev nD) → (b : Ref sig .tc) → Buf (Elt Ideal) ((c : Thread nD τ).loc b)) (c : Dev nD) (t : Fin cfg3.N) :
    (Gen.iblk3 V c 5 t : Vec Ideal S128x128 .f32) = (V c main_v84 : S128x128.Idx → EReal) := by
  obtain ⟨-, -, -, -, -, -, -, -, -, -, e50, e51, -⟩ := blockIdx3 t
  unfold Gen.iblk3
  funext y
  show V c main_v84 (((cfg3.win 5).blk t).view.emb y) = V c main_v84 y
  refine congrArg (V c main_v84) (funext fun a => Fin.ext ?_)
  match a with
  | ⟨0, _⟩ => show win3_5.index t (0 : Fin 2) * 128 + 1 * (y 0).val = (y 0).val; rw [e50]; omega
  | ⟨1, _⟩ => show win3_5.index t (1 : Fin 2) * 128 + 1 * (y 1).val = (y 1).val; rw [e51]; omega

/-- What point t writes back is block t of the layer of the six arrays: rows 5000·t … 5000·t + 4999. -/
theorem flushed3 (V : (c : Dev nD) → (b : Ref sig .tc) → Buf (Elt Ideal) ((c : Thread nD τ).loc b)) (c : Dev nD) (t : Fin cfg3.N) :
    (Gen.dat3 (F := Ideal) V c).flushed 6 t = ((cfg3.win 6).blk t).view.read (Elt Ideal) (layer3 V c) := by
  have hz : (![0, 0] : Fin 2 → Nat) = fun _ => 0 := funext fun a => by fin_cases a <;> rfl
  show (cfg3.win 6).cut (grid3.coords t) ((Gen.dat3 (F := Ideal) V c).after 6 t) = _
  rw [Gen.after3_6]
  unfold Gen.out3_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 20 := t.isLt.trans_eq (show cfg3.N = 20 from Gen.N_3)
  obtain ⟨-, -, -, -, -, -, -, -, -, -, -, -, e60, e61⟩ := blockIdx3 t
  funext j
  show Gen.k3_pay1 (F := Ideal) (Gen.iblk3 V c 0 t) (Gen.iblk3 V c 1 t) (Gen.iblk3 V c 2 t) (Gen.iblk3 V c 3 t) (Gen.iblk3 V c 5 t) (Gen.iblk3 V c 4 t) j
    = layer3 V c (((cfg3.win 6).blk t).view.emb j)
  refine entry_of_blocks3 (V c main_v69) (V c main_v9) (V c main_v49) (V c main_v81) (V c main_v87) (V c main_v84)
    (Gen.iblk3 V c 0 t) (Gen.iblk3 V c 1 t) (Gen.iblk3 V c 2 t) (Gen.iblk3 V c 3 t) (Gen.iblk3 V c 5 t) (Gen.iblk3 V c 4 t) t.val ht
    (fun r k => agg_block3 V c t r k _) (fun r => deg_block3 V c t r _) (fun r k => dst_block3 V c t r k _)
    (wl_block3 V c t) (bias_block3 V c t) (wr_block3 V c t) j (((cfg3.win 6).blk t).view.emb j) ?_ ?_
  · show win3_6.index t (0 : Fin 2) * 5000 + 1 * (j 0).val = 5000 * t.val + (j 0).val
    rw [e60]; omega
  · show win3_6.index t (1 : Fin 2) * 128 + 1 * (j 1).val = (j 1).val
    rw [e61]; omega

/-- An index of the output array is in point t's block iff each coordinate is in the block's range on its axis. -/
theorem mem_out3 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v89).slice (win3_6.rect t)).set ↔ _
  rw [View.set_slice_whole, Rect.mem_set_unit]
  exact Iff.rfl

/-- Every row r of the output lies in the block of point r / 5000, and every point writes its block back. -/
theorem cover3 (i : S100000x128.Idx) :
    ∃ t : Fin cfg3.N, (cfg3.win 6).flush t = true ∧ i ∈ ((cfg3.win 6).blk t).view.set := by
  have h0 : (i 0).val < 100000 := idx2_lt0 i
  have h1 : (i 1).val < 128 := idx2_lt1 i
  have hN : cfg3.N = 20 := Gen.N_3
  have hq : (i 0).val / 5000 < cfg3.N := by rw [hN]; omega
  obtain ⟨-, -, -, -, -, -, -, -, -, -, -, -, e60, e61⟩ := blockIdx3 ⟨(i 0).val / 5000, hq⟩
  refine ⟨⟨(i 0).val / 5000, hq⟩, Gen.flush3_6 _, ?_⟩
  rw [mem_out3]
  intro a
  match a with
  | ⟨0, _⟩ =>
    show win3_6.index ⟨(i 0).val / 5000, hq⟩ (0 : Fin 2) * 5000 ≤ (i 0).val
      ∧ (i 0).val < win3_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hq⟩ (1 : Fin 2) * 128 ≤ (i 1).val
      ∧ (i 1).val < win3_6.index ⟨(i 0).val / 5000, hq⟩ (1 : Fin 2) * 128 + 128
    rw [e61]; omega

/-- The output array after the region: the layer of the six input arrays, entry by entry. -/
theorem arr3 (V : (c : Dev nD) → (b : Ref sig .tc) → Buf (Elt Ideal) ((c : Thread nD τ).loc b)) (c : Dev nD) :
    (Gen.dat3 (F := Ideal) V c).arrAt 6 cfg3.N
      = fun i : S100000x128.Idx => Cert.Sage.layerAt (n := 100000) (V c main_v69) (V c main_v9) (V c main_v49) (V c main_v81) (V c main_v87) (V c main_v84) (i 0) (i 1) :=
  (Gen.dat3 (F := Ideal) V c).arrAt_eq_of_cover 6 (layer3 V c) (fun t _ => flushed3 V c t) cover3

end Cert.KernelIdeal.SageValue

end
-- ==== Proof.StagesLayer1.lean ====
/-
  Layer 1 of the kernel program, followed through the memory.

  At the boundary before the layer's two regions the host operations have left, for each node type, the rows
  aggregated over the edges (a gather of the source rows followed by a scatter-add at the destination rows) and
  the layer's transposed weights and bias row: each is the SAME composition of
  operations on the argument arrays and on the previous layer's outputs as the reference's stage of that role, so the two are equal by unfolding.
  The region for the 20000-row node type then leaves in its output array the layer function of its six input
  arrays, entry by entry, and that is the reference's stage at the end of its layer (the reference's layer read
  entry by entry); likewise the region for the 100000-row node type.  Every other buffer is carried across each
  boundary unchanged: a stretch of host operations changes only the buffers its operations write, a region only
  its output array (an input array of a region is staged and left as it was).
-/
import proofs.«167260_j2637109919789_2_alg».proof.Proof.StagesLayer0
import proofs.«167260_j2637109919789_2_alg».proof.Proof.SageArr2
import proofs.«167260_j2637109919789_2_alg».proof.Proof.SageArr3
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- None of a stretch's operations writes the buffer in question: each operation's one written buffer is a
    different buffer. -/
local macro "host_keeps " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))
/-! ## Boundary 4: after the host operations `hostOps2` -/

theorem at4_arg2 : W4 m ρ c (Proc.devRef .tc main_arg2) = (m ((c : Thread nD τ).loc main_arg2)) :=
  (StableHlo.after_of_forall_not_mem (b := (Proc.devRef .tc main_arg2)) _ _ (List.forall_iff_forall_mem.mp (by host_keeps hostOps2))).trans (at3_arg2 m ρ c)

theorem at4_arg3 : W4 m ρ c (Proc.devRef .tc main_arg3) = (m ((c : Thread nD τ).loc main_arg3)) :=
  (StableHlo.after_of_forall_not_mem (b := (Proc.devRef .tc main_arg3)) _ _ (List.forall_iff_forall_mem.mp (by host_keeps hostOps2))).trans (at3_arg3 m ρ c)

theorem at4_arg4 : W4 m ρ c (Proc.devRef .tc main_arg4) = (m ((c : Thread nD τ).loc main_arg4)) :=
  (StableHlo.after_of_forall_not_mem (b := (Proc.devRef .tc main_arg4)) _ _ (List.forall_iff_forall_mem.mp (by host_keeps hostOps2))).trans (at3_arg4 m ρ c)

theorem at4_arg5 : W4 m ρ c (Proc.devRef .tc main_arg5) = (m ((c : Thread nD τ).loc main_arg5)) :=
  (StableHlo.after_of_forall_not_mem (b := (Proc.devRef .tc main_arg5)) _ _ (List.forall_iff_forall_mem.mp (by host_keeps hostOps2))).trans (at3_arg5 m ρ c)

theorem at4_arg6 : W4 m ρ c (Proc.devRef .tc main_arg6) = (m ((c : Thread nD τ).loc main_arg6)) :=
  (StableHlo.after_of_forall_not_mem (b := (Proc.devRef .tc main_arg6)) _ _ (List.forall_iff_forall_mem.mp (by host_keeps hostOps2))).trans (at3_arg6 m ρ c)

theorem at4_arg7 : W4 m ρ c (Proc.devRef .tc main_arg7) = (m ((c : Thread nD τ).loc main_arg7)) :=
  (StableHlo.after_of_forall_not_mem (b := (Proc.devRef .tc main_arg7)) _ _ (List.forall_iff_forall_mem.mp (by host_keeps hostOps2))).trans (at3_arg7 m ρ c)

theorem at4_arg8 : W4 m ρ c (Proc.devRef .tc main_arg8) = (m ((c : Thread nD τ).loc main_arg8)) :=
  (StableHlo.after_of_forall_not_mem (b := (Proc.devRef .tc main_arg8)) _ _ (List.forall_iff_forall_mem.mp (by host_keeps hostOps2))).trans (at3_arg8 m ρ c)

theorem at4_arg9 : W4 m ρ c (Proc.devRef .tc main_arg9) = (m ((c : Thread nD τ).loc main_arg9)) :=
  (StableHlo.after_of_forall_not_mem (b := (Proc.devRef .tc main_arg9)) _ _ (List.forall_iff_forall_mem.mp (by host_keeps hostOps2))).trans (at3_arg9 m ρ c)

theorem at4_arg10 : W4 m ρ c (Proc.devRef .tc main_arg10) = (m ((c : Thread nD τ).loc main_arg10)) :=
  (StableHlo.after_of_forall_not_mem (b := (Proc.devRef .tc main_arg10)) _ _ (List.forall_iff_forall_mem.mp (by host_keeps hostOps2))).trans (at3_arg10 m ρ c)

theorem at4_v4 : W4 m ρ c (Proc.devRef .tc main_v4) = (shapeCast S20000x1 (Cert.ReferenceIdeal.Read.val_main_v19 (F := Ideal) (m ((c : Thread nD τ).loc main_arg8))) shapeCasts_S20000_S20000x1) :=
  (StableHlo.after_of_forall_not_mem (b := (Proc.devRef .tc main_v4)) _ _ (List.forall_iff_forall_mem.mp (by host_keeps hostOps2))).trans (at3_v4 m ρ c)

theorem at4_v9 : W4 m ρ c (Proc.devRef .tc main_v9) = (shapeCast S100000x1 (Cert.ReferenceIdeal.Read.val_main_v51 (F := Ideal) (m ((c : Thread nD τ).loc main_arg7))) shapeCasts_S100000_S100000x1) :=
  (StableHlo.after_of_forall_not_mem (b := (Proc.devRef .tc main_v9)) _ _ (List.forall_iff_forall_mem.mp (by host_keeps hostOps2))).trans (at3_v9 m ρ c)

theorem at4_v48 : W4 m ρ c (Proc.devRef .tc main_v48) = (Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := (Proc.devRef .tc main_v48)) _ _ (List.forall_iff_forall_mem.mp (by host_keeps hostOps2))).trans (at3_v48 m ρ c)

theorem at4_v49 : W4 m ρ c (Proc.devRef .tc main_v49) = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := (Proc.devRef .tc main_v49)) _ _ (List.forall_iff_forall_mem.mp (by host_keeps hostOps2))).trans (at3_v49 m ρ c)

theorem at4_v59 : W4 m ρ c (Proc.devRef .tc main_v59) = (Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  have e0 := at3_v49 m ρ c
  have e1 := at3_arg7 m ρ c
  have e2 := at3_arg8 m ρ c
  dsimp only [W4]
  generalize W3 m ρ c = X at e0 e1 e2 ⊢
  after_results_simp
  simp only [e0, e1, e2]
  rfl

theorem at4_v72 : W4 m ρ c (Proc.devRef .tc main_v72) = (Cert.ReferenceIdeal.Read.val_main_v90 (F := Ideal) (m ((c : Thread nD τ).loc main_arg2))) := by
  have e0 := at3_arg2 m ρ c
  dsimp only [W4]
  generalize W3 m ρ c = X at e0 ⊢
  after_results_simp
  simp only [e0]
  rfl

theorem at4_v78 : W4 m ρ c (Proc.devRef .tc main_v78) = (shapeCast S1x128 (Cert.ReferenceIdeal.Read.val_main_v69 (F := Ideal) (m ((c : Thread nD τ).loc main_arg3))) shapeCasts_S128_S1x128) := by
  have e0 := at3_arg3 m ρ c
  dsimp only [W4]
  generalize W3 m ρ c = X at e0 ⊢
  after_results_simp
  simp only [e0]
  rfl

theorem at4_v75 : W4 m ρ c (Proc.devRef .tc main_v75) = (Cert.ReferenceIdeal.Read.val_main_v95 (F := Ideal) (m ((c : Thread nD τ).loc main_arg4))) := by
  have e0 := at3_arg4 m ρ c
  dsimp only [W4]
  generalize W3 m ρ c = X at e0 ⊢
  after_results_simp
  simp only [e0]
  rfl

theorem at4_v69 : W4 m ρ c (Proc.devRef .tc main_v69) = (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  have e0 := at3_v48 m ρ c
  have e1 := at3_arg7 m ρ c
  have e2 := at3_arg8 m ρ c
  dsimp only [W4]
  generalize W3 m ρ c = X at e0 e1 e2 ⊢
  after_results_simp
  simp only [e0, e1, e2]
  rfl

theorem at4_v81 : W4 m ρ c (Proc.devRef .tc main_v81) = (Cert.ReferenceIdeal.Read.val_main_v122 (F := Ideal) (m ((c : Thread nD τ).loc main_arg2))) := by
  have e0 := at3_arg2 m ρ c
  dsimp only [W4]
  generalize W3 m ρ c = X at e0 ⊢
  after_results_simp
  simp only [e0]
  rfl

theorem at4_v87 : W4 m ρ c (Proc.devRef .tc main_v87) = (shapeCast S1x128 (Cert.ReferenceIdeal.Read.val_main_v101 (F := Ideal) (m ((c : Thread nD τ).loc main_arg3))) shapeCasts_S128_S1x128) := by
  have e0 := at3_arg3 m ρ c
  dsimp only [W4]
  generalize W3 m ρ c = X at e0 ⊢
  after_results_simp
  simp only [e0]
  rfl

theorem at4_v84 : W4 m ρ c (Proc.devRef .tc main_v84) = (Cert.ReferenceIdeal.Read.val_main_v127 (F := Ideal) (m ((c : Thread nD τ).loc main_arg4))) := by
  have e0 := at3_arg4 m ρ c
  dsimp only [W4]
  generalize W3 m ρ c = X at e0 ⊢
  after_results_simp
  simp only [e0]
  rfl

/-! ## Boundary 5: after region 2 -/

theorem at5_arg2 : W5 m ρ c (Proc.devRef .tc main_arg2) = (m ((c : Thread nD τ).loc main_arg2)) :=
  (W5_of_ne m ρ c main_arg2 (by decide)).trans (at4_arg2 m ρ c)

theorem at5_arg3 : W5 m ρ c (Proc.devRef .tc main_arg3) = (m ((c : Thread nD τ).loc main_arg3)) :=
  (W5_of_ne m ρ c main_arg3 (by decide)).trans (at4_arg3 m ρ c)

theorem at5_arg4 : W5 m ρ c (Proc.devRef .tc main_arg4) = (m ((c : Thread nD τ).loc main_arg4)) :=
  (W5_of_ne m ρ c main_arg4 (by decide)).trans (at4_arg4 m ρ c)

theorem at5_arg5 : W5 m ρ c (Proc.devRef .tc main_arg5) = (m ((c : Thread nD τ).loc main_arg5)) :=
  (W5_of_ne m ρ c main_arg5 (by decide)).trans (at4_arg5 m ρ c)

theorem at5_arg6 : W5 m ρ c (Proc.devRef .tc main_arg6) = (m ((c : Thread nD τ).loc main_arg6)) :=
  (W5_of_ne m ρ c main_arg6 (by decide)).trans (at4_arg6 m ρ c)

theorem at5_arg7 : W5 m ρ c (Proc.devRef .tc main_arg7) = (m ((c : Thread nD τ).loc main_arg7)) :=
  (W5_of_ne m ρ c main_arg7 (by decide)).trans (at4_arg7 m ρ c)

theorem at5_arg8 : W5 m ρ c (Proc.devRef .tc main_arg8) = (m ((c : Thread nD τ).loc main_arg8)) :=
  (W5_of_ne m ρ c main_arg8 (by decide)).trans (at4_arg8 m ρ c)

theorem at5_arg9 : W5 m ρ c (Proc.devRef .tc main_arg9) = (m ((c : Thread nD τ).loc main_arg9)) :=
  (W5_of_ne m ρ c main_arg9 (by decide)).trans (at4_arg9 m ρ c)

theorem at5_arg10 : W5 m ρ c (Proc.devRef .tc main_arg10) = (m ((c : Thread nD τ).loc main_arg10)) :=
  (W5_of_ne m ρ c main_arg10 (by decide)).trans (at4_arg10 m ρ c)

theorem at5_v4 : W5 m ρ c (Proc.devRef .tc main_v4) = (shapeCast S20000x1 (Cert.ReferenceIdeal.Read.val_main_v19 (F := Ideal) (m ((c : Thread nD τ).loc main_arg8))) shapeCasts_S20000_S20000x1) :=
  ((W5_arr m ρ c 1).trans (((dat2 (V4 m ρ) c).arrAt_in 1 rfl _).trans (A_eq2 (V4 m ρ) c 1))).trans (at4_v4 m ρ c)

theorem at5_v9 : W5 m ρ c (Proc.devRef .tc main_v9) = (shapeCast S100000x1 (Cert.ReferenceIdeal.Read.val_main_v51 (F := Ideal) (m ((c : Thread nD τ).loc main_arg7))) shapeCasts_S100000_S100000x1) :=
  (W5_of_ne m ρ c main_v9 (by decide)).trans (at4_v9 m ρ c)

theorem at5_v49 : W5 m ρ c (Proc.devRef .tc main_v49) = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W5_of_ne m ρ c main_v49 (by decide)).trans (at4_v49 m ρ c)

theorem at5_v69 : W5 m ρ c (Proc.devRef .tc main_v69) = (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W5_of_ne m ρ c main_v69 (by decide)).trans (at4_v69 m ρ c)

theorem at5_v81 : W5 m ρ c (Proc.devRef .tc main_v81) = (Cert.ReferenceIdeal.Read.val_main_v122 (F := Ideal) (m ((c : Thread nD τ).loc main_arg2))) :=
  (W5_of_ne m ρ c main_v81 (by decide)).trans (at4_v81 m ρ c)

theorem at5_v87 : W5 m ρ c (Proc.devRef .tc main_v87) = (shapeCast S1x128 (Cert.ReferenceIdeal.Read.val_main_v101 (F := Ideal) (m ((c : Thread nD τ).loc main_arg3))) shapeCasts_S128_S1x128) :=
  (W5_of_ne m ρ c main_v87 (by decide)).trans (at4_v87 m ρ c)

theorem at5_v84 : W5 m ρ c (Proc.devRef .tc main_v84) = (Cert.ReferenceIdeal.Read.val_main_v127 (F := Ideal) (m ((c : Thread nD τ).loc main_arg4))) :=
  (W5_of_ne m ρ c main_v84 (by decide)).trans (at4_v84 m ρ c)

theorem at5_v88 : W5 m ρ c (Proc.devRef .tc main_v88) = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W5_arr m ρ c 6).trans (Cert.KernelIdeal.SageValue.arr2 (V4 m ρ) c)).trans ?_
  have h0 : V4 m ρ c main_v59 = (Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at4_v59 m ρ c
  have h1 : V4 m ρ c main_v4 = (shapeCast S20000x1 (Cert.ReferenceIdeal.Read.val_main_v19 (F := Ideal) (m ((c : Thread nD τ).loc main_arg8))) shapeCasts_S20000_S20000x1) := at4_v4 m ρ c
  have h2 : V4 m ρ c main_v48 = (Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at4_v48 m ρ c
  have h3 : V4 m ρ c main_v72 = (Cert.ReferenceIdeal.Read.val_main_v90 (F := Ideal) (m ((c : Thread nD τ).loc main_arg2))) := at4_v72 m ρ c
  have h4 : V4 m ρ c main_v78 = (shapeCast S1x128 (Cert.ReferenceIdeal.Read.val_main_v69 (F := Ideal) (m ((c : Thread nD τ).loc main_arg3))) shapeCasts_S128_S1x128) := at4_v78 m ρ c
  have h5 : V4 m ρ c main_v75 = (Cert.ReferenceIdeal.Read.val_main_v95 (F := Ideal) (m ((c : Thread nD τ).loc main_arg4))) := at4_v75 m ρ c
  rw [h0, h1, h2, h3, h4, h5]
  exact (Cert.ReferenceIdeal.LayerRef.layerP_eq _ _ _ _ _ _ _ _).symm.trans (Cert.ReferenceIdeal.LayerRef.stage_v131 _ _ _ _ _ _ _).symm

/-! ## Boundary 6: after region 3 -/

theorem at6_arg2 : W6 m ρ c (Proc.devRef .tc main_arg2) = (m ((c : Thread nD τ).loc main_arg2)) :=
  (W6_of_ne m ρ c main_arg2 (by decide)).trans (at5_arg2 m ρ c)

theorem at6_arg3 : W6 m ρ c (Proc.devRef .tc main_arg3) = (m ((c : Thread nD τ).loc main_arg3)) :=
  (W6_of_ne m ρ c main_arg3 (by decide)).trans (at5_arg3 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

theorem at6_arg9 : W6 m ρ c (Proc.devRef .tc main_arg9) = (m ((c : Thread nD τ).loc main_arg9)) :=
  (W6_of_ne m ρ c main_arg9 (by decide)).trans (at5_arg9 m ρ c)

theorem at6_arg10 : W6 m ρ c (Proc.devRef .tc main_arg10) = (m ((c : Thread nD τ).loc main_arg10)) :=
  (W6_of_ne m ρ c main_arg10 (by decide)).trans (at5_arg10 m ρ c)

theorem at6_v4 : W6 m ρ c (Proc.devRef .tc main_v4) = (shapeCast S20000x1 (Cert.ReferenceIdeal.Read.val_main_v19 (F := Ideal) (m ((c : Thread nD τ).loc main_arg8))) shapeCasts_S20000_S20000x1) :=
  (W6_of_ne m ρ c main_v4 (by decide)).trans (at5_v4 m ρ c)

theorem at6_v9 : W6 m ρ c (Proc.devRef .tc main_v9) = (shapeCast S100000x1 (Cert.ReferenceIdeal.Read.val_main_v51 (F := Ideal) (m ((c : Thread nD τ).loc main_arg7))) shapeCasts_S100000_S100000x1) :=
  ((W6_arr m ρ c 1).trans (((dat3 (V5 m ρ) c).arrAt_in 1 rfl _).trans (A_eq3 (V5 m ρ) c 1))).trans (at5_v9 m ρ c)

theorem at6_v88 : W6 m ρ c (Proc.devRef .tc main_v88) = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W6_of_ne m ρ c main_v88 (by decide)).trans (at5_v88 m ρ c)

theorem at6_v89 : W6 m ρ c (Proc.devRef .tc main_v89) = (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W6_arr m ρ c 6).trans (Cert.KernelIdeal.SageValue.arr3 (V5 m ρ) c)).trans ?_
  have h0 : V5 m ρ c main_v69 = (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at5_v69 m ρ c
  have h1 : V5 m ρ c main_v9 = (shapeCast S100000x1 (Cert.ReferenceIdeal.Read.val_main_v51 (F := Ideal) (m ((c : Thread nD τ).loc main_arg7))) shapeCasts_S100000_S100000x1) := at5_v9 m ρ c
  have h2 : V5 m ρ c main_v49 = (Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at5_v49 m ρ c
  have h3 : V5 m ρ c main_v81 = (Cert.ReferenceIdeal.Read.val_main_v122 (F := Ideal) (m ((c : Thread nD τ).loc main_arg2))) := at5_v81 m ρ c
  have h4 : V5 m ρ c main_v87 = (shapeCast S1x128 (Cert.ReferenceIdeal.Read.val_main_v101 (F := Ideal) (m ((c : Thread nD τ).loc main_arg3))) shapeCasts_S128_S1x128) := at5_v87 m ρ c
  have h5 : V5 m ρ c main_v84 = (Cert.ReferenceIdeal.Read.val_main_v127 (F := Ideal) (m ((c : Thread nD τ).loc main_arg4))) := at5_v84 m ρ c
  rw [h0, h1, h2, h3, h4, h5]
  exact (Cert.ReferenceIdeal.LayerRef.layerC_eq _ _ _ _ _ _ _ _).symm.trans (Cert.ReferenceIdeal.LayerRef.stage_v130 _ _ _ _ _ _ _).symm

end Cert.KernelIdeal.Stages

end
-- ==== Proof.SageArr4.lean ====
/-
  The output of layer region 4, entry by entry.

  The region sweeps 4 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 20000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The layer of the region's six arrays, as one function on the output's indices. -/
abbrev layer4 (V : (c : Dev nD) → (b : Ref sig .tc) → Buf (Elt Ideal) ((c : Thread nD τ).loc b)) (c : Dev nD) : S20000x128.Idx → EReal :=
  fun i => Cert.Sage.layerAt (n := 20000) (V c main_v99) (V c main_v4) (V c main_v88) (V c main_v112) (V c main_v118) (V c main_v115) (i 0) (i 1)

/-- The layer's entry (r, q) of six blocks is the layer's entry (5000·p + r, q) of the six arrays when the three
    row blocks are rows 5000·p … of their arrays and the two weights and the bias are read whole. -/
theorem entry_of_blocks4 (A : S20000x128.Idx → EReal) (Dg : S20000x1.Idx → EReal) (X : S20000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 4)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S20000x128.Idx) (hi0 : (i 0).val = 5000 * p + (j 0).val) (hi1 : (i 1).val = (j 1).val) :
    Gen.k4_pay1 (F := Ideal) x0 x1 x2 wl wr b j = Cert.Sage.layerAt (n := 20000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 20000) (Q : Fin 128), i = ix2 R Q := ⟨i 0, i 1, eq_ix2 i⟩
  have hb : 5000 * p + r.val < 20000 := by have := r.isLt; omega
  obtain rfl : R = ⟨5000 * p + r.val, hb⟩ := Fin.ext hi0
  obtain rfl : Q = q := Fin.ext hi1
  subst h3 h4 h5
  rw [pay4_at]
  show Cert.Sage.layerAt (n := 5000) x0 x1 x2 wl b wr r Q = Cert.Sage.layerAt (n := 20000) A Dg X wl b wr ⟨5000 * p + r.val, hb⟩ Q
  unfold Cert.Sage.layerAt
  simp only [h0, h1, h2]

/-- The aggregated rows' block at point t is rows 5000·t … 5000·t + 4999 of the array. -/
theorem agg_block4 (V : (c : Dev nD) → (b : Ref sig .tc) → Buf (Elt Ideal) ((c : Thread nD τ).loc b)) (c : Dev nD) (t : Fin cfg4.N) (r : Fin 5000) (k : Fin 128) (h : 5000 * t.val + r.val < 20000) :
    (Gen.iblk4 V c 0 t : Vec Ideal S5000x128 .f32) (ix2 r k) = (V c main_v99 : S20000x128.Idx → EReal) (ix2 ⟨5000 * t.val + r.val, h⟩ k) := by
  obtain ⟨e00, e01, -⟩ := blockIdx4 t
  unfold Gen.iblk4
  show V c main_v99 (((cfg4.win 0).blk t).view.emb (ix2 r k)) = V c main_v99 _
  refine congrArg (V c main_v99) (funext fun a => Fin.ext ?_)
  match a with
  | ⟨0, _⟩ => show win4_0.index t (0 : Fin 2) * 5000 + 1 * r.val = 5000 * t.val + r.val; rw [e00]; omega
  | ⟨1, _⟩ => show win4_0.index t (1 : Fin 2) * 128 + 1 * k.val = k.val; rw [e01]; omega

/-- The degree column's block at point t is entries 5000·t … 5000·t + 4999 of the column. -/
theorem deg_block4 (V : (c : Dev nD) → (b : Ref sig .tc) → Buf (Elt Ideal) ((c : Thread nD τ).loc b)) (c : Dev nD) (t : Fin cfg4.N) (r : Fin 5000) (h : 5000 * t.val + r.val < 20000) :
    (Gen.iblk4 V c 1 t : Vec Ideal S5000x1 .f32) (ix2 r 0) = (V c main_v4 : S20000x1.Idx → EReal) (ix2 ⟨5000 * t.val + r.val, h⟩ 0) := by
  obtain ⟨-, -, e10, e11, -⟩ := blockIdx4 t
  unfold Gen.iblk4
  show V c main_v4 (((cfg4.win 1).blk t).view.emb (ix2 r 0)) = V c main_v4 _
  refine congrArg (V c main_v4) (funext fun a => Fin.ext ?_)
  match a with
  | ⟨0, _⟩ => show win4_1.index t (0 : Fin 2) * 5000 + 1 * r.val = 5000 * t.val + r.val; rw [e10]; omega
  | ⟨1, _⟩ => show win4_1.index t (1 : Fin 2) * 1 + 1 * 0 = 0; rw [e11]

/-- The destination rows' block at point t is rows 5000·t … 5000·t + 4999 of the array. -/
theorem dst_block4 (V : (c : Dev nD) → (b : Ref sig .tc) → Buf (Elt Ideal) ((c : Thread nD τ).loc b)) (c : Dev nD) (t : Fin cfg4.N) (r : Fin 5000) (k : Fin 128) (h : 5000 * t.val + r.val < 20000) :
    (Gen.iblk4 V c 2 t : Vec Ideal S5000x128 .f32) (ix2 r k) = (V c main_v88 : S20000x128.Idx → EReal) (ix2 ⟨5000 * t.val + r.val, h⟩ k) := by
  obtain ⟨-, -, -, -, e20, e21, -⟩ := blockIdx4 t
  unfold Gen.iblk4
  show V c main_v88 (((cfg4.win 2).blk t).view.emb (ix2 r k)) = V c main_v88 _
  refine congrArg (V c main_v88) (funext fun a => Fin.ext ?_)
  match a with
  | ⟨0, _⟩ => show win4_2.index t (0 : Fin 2) * 5000 + 1 * r.val = 5000 * t.val + r.val; rw [e20]; omega
  | ⟨1, _⟩ => show win4_2.index t (1 : Fin 2) * 128 + 1 * k.val = k.val; rw [e21]; omega

/-- The left weight is staged whole at every point. -/
theorem wl_block4 (V : (c : Dev nD) → (b : Ref sig .tc) → Buf (Elt Ideal) ((c : Thread nD τ).loc b)) (c : Dev nD) (t : Fin cfg4.N) :
    (Gen.iblk4 V c 3 t : Vec Ideal S128x128 .f32) = (V c main_v112 : S128x128.Idx → EReal) := by
  obtain ⟨-, -, -, -, -, -, e30, e31, -⟩ := blockIdx4 t
  unfold Gen.iblk4
  funext y
  show V c main_v112 (((cfg4.win 3).blk t).view.emb y) = V c main_v112 y
  refine congrArg (V c main_v112) (funext fun a => Fin.ext ?_)
  match a with
  | ⟨0, _⟩ => show win4_3.index t (0 : Fin 2) * 128 + 1 * (y 0).val = (y 0).val; rw [e30]; omega
  | ⟨1, _⟩ => show win4_3.index t (1 : Fin 2) * 128 + 1 * (y 1).val = (y 1).val; rw [e31]; omega

/-- The bias row is staged whole at every point. -/
theorem bias_block4 (V : (c : Dev nD) → (b : Ref sig .tc) → Buf (Elt Ideal) ((c : Thread nD τ).loc b)) (c : Dev nD) (t : Fin cfg4.N) :
    (Gen.iblk4 V c 4 t : Vec Ideal S1x128 .f32) = (V c main_v118 : S1x128.Idx → EReal) := by
  obtain ⟨-, -, -, -, -, -, -, -, e40, e41, -⟩ := blockIdx4 t
  unfold Gen.iblk4
  funext y
  show V c main_v118 (((cfg4.win 4).blk t).view.emb y) = V c main_v118 y
  refine congrArg (V c main_v118) (funext fun a => Fin.ext ?_)
  match a with
  | ⟨0, _⟩ => show win4_4.index t (0 : Fin 2) * 1 + 1 * (y 0).val = (y 0).val; rw [e40]; omega
  | ⟨1, _⟩ => show win4_4.index t (1 : Fin 2) * 128 + 1 * (y 1).val = (y 1).val; rw [e41]; omega

/-- The right weight is staged whole at every point. -/
theorem wr_block4 (V : (c : Dev nD) → (b : Ref sig .tc) → Buf (Elt Ideal) ((c : Thread nD τ).loc b)) (c : Dev nD) (t : Fin cfg4.N) :
    (Gen.iblk4 V c 5 t : Vec Ideal S128x128 .f32) = (V c main_v115 : S128x128.Idx → EReal) := by
  obtain ⟨-, -, -, -, -, -, -, -, -, -, e50, e51, -⟩ := blockIdx4 t
  unfold Gen.iblk4
  funext y
  show V c main_v115 (((cfg4.win 5).blk t).view.emb y) = V c main_v115 y
  refine congrArg (V c main_v115) (funext fun a => Fin.ext ?_)
  match a with
  | ⟨0, _⟩ => show win4_5.index t (0 : Fin 2) * 128 + 1 * (y 0).val = (y 0).val; rw [e50]; omega
  | ⟨1, _⟩ => show win4_5.index t (1 : Fin 2) * 128 + 1 * (y 1).val = (y 1).val; rw [e51]; omega

/-- What point t writes back is block t of the layer of the six arrays: rows 5000·t … 5000·t + 4999. -/
theorem flushed4 (V : (c : Dev nD) → (b : Ref sig .tc) → Buf (Elt Ideal) ((c : Thread nD τ).loc b)) (c : Dev nD) (t : Fin cfg4.N) :
    (Gen.dat4 (F := Ideal) V c).flushed 6 t = ((cfg4.win 6).blk t).view.read (Elt Ideal) (layer4 V c) := by
  have hz : (![0, 0] : Fin 2 → Nat) = fun _ => 0 := funext fun a => by fin_cases a <;> rfl
  show (cfg4.win 6).cut (grid4.coords t) ((Gen.dat4 (F := Ideal) V c).after 6 t) = _
  rw [Gen.after4_6]
  unfold Gen.out4_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 4 := t.isLt.trans_eq (show cfg4.N = 4 from Gen.N_4)
  obtain ⟨-, -, -, -, -, -, -, -, -, -, -, -, e60, e61⟩ := blockIdx4 t
  funext j
  show Gen.k4_pay1 (F := Ideal) (Gen.iblk4 V c 0 t) (Gen.iblk4 V c 1 t) (Gen.iblk4 V c 2 t) (Gen.iblk4 V c 3 t) (Gen.iblk4 V c 5 t) (Gen.iblk4 V c 4 t) j
    = layer4 V c (((cfg4.win 6).blk t).view.emb j)
  refine entry_of_blocks4 (V c main_v99) (V c main_v4) (V c main_v88) (V c main_v112) (V c main_v118) (V c main_v115)
    (Gen.iblk4 V c 0 t) (Gen.iblk4 V c 1 t) (Gen.iblk4 V c 2 t) (Gen.iblk4 V c 3 t) (Gen.iblk4 V c 5 t) (Gen.iblk4 V c 4 t) t.val ht
    (fun r k => agg_block4 V c t r k _) (fun r => deg_block4 V c t r _) (fun r k => dst_block4 V c t r k _)
    (wl_block4 V c t) (bias_block4 V c t) (wr_block4 V c t) j (((cfg4.win 6).blk t).view.emb j) ?_ ?_
  · show win4_6.index t (0 : Fin 2) * 5000 + 1 * (j 0).val = 5000 * t.val + (j 0).val
    rw [e60]; omega
  · show win4_6.index t (1 : Fin 2) * 128 + 1 * (j 1).val = (j 1).val
    rw [e61]; omega

/-- An index of the output array is in point t's block iff each coordinate is in the block's range on its axis. -/
theorem mem_out4 (t : Fin cfg4.N) (i : S20000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v128).slice (win4_6.rect t)).set ↔ _
  rw [View.set_slice_whole, Rect.mem_set_unit]
  exact Iff.rfl

/-- Every row r of the output lies in the block of point r / 5000, and every point writes its block back. -/
theorem cover4 (i : S20000x128.Idx) :
    ∃ t : Fin cfg4.N, (cfg4.win 6).flush t = true ∧ i ∈ ((cfg4.win 6).blk t).view.set := by
  have h0 : (i 0).val < 20000 := idx2_lt0 i
  have h1 : (i 1).val < 128 := idx2_lt1 i
  have hN : cfg4.N = 4 := Gen.N_4
  have hq : (i 0).val / 5000 < cfg4.N := by rw [hN]; omega
  obtain ⟨-, -, -, -, -, -, -, -, -, -, -, -, e60, e61⟩ := blockIdx4 ⟨(i 0).val / 5000, hq⟩
  refine ⟨⟨(i 0).val / 5000, hq⟩, Gen.flush4_6 _, ?_⟩
  rw [mem_out4]
  intro a
  match a with
  | ⟨0, _⟩ =>
    show win4_6.index ⟨(i 0).val / 5000, hq⟩ (0 : Fin 2) * 5000 ≤ (i 0).val
      ∧ (i 0).val < win4_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win4_6.index ⟨(i 0).val / 5000, hq⟩ (1 : Fin 2) * 128 ≤ (i 1).val
      ∧ (i 1).val < win4_6.index ⟨(i 0).val / 5000, hq⟩ (1 : Fin 2) * 128 + 128
    rw [e61]; omega

/-- The output array after the region: the layer of the six input arrays, entry by entry. -/
theorem arr4 (V : (c : Dev nD) → (b : Ref sig .tc) → Buf (Elt Ideal) ((c : Thread nD τ).loc b)) (c : Dev nD) :
    (Gen.dat4 (F := Ideal) V c).arrAt 6 cfg4.N
      = fun i : S20000x128.Idx => Cert.Sage.layerAt (n := 20000) (V c main_v99) (V c main_v4) (V c main_v88) (V c main_v112) (V c main_v118) (V c main_v115) (i 0) (i 1) :=
  (Gen.dat4 (F := Ideal) V c).arrAt_eq_of_cover 6 (layer4 V c) (fun t _ => flushed4 V c t) cover4

end Cert.KernelIdeal.SageValue

end
-- ==== Proof.SageArr5.lean ====
/-
  The output of layer region 5, entry by entry.

  The region sweeps 20 points; point t stages rows 5000·t … 5000·t + 4999 of the aggregated rows, of the degree
  column and of the destination rows, stages the two weights and the bias row whole, and writes back rows
  5000·t … 5000·t + 4999 of the output.  Entry (r, q) of the stored block is the layer's entry (r, q) of the six
  staged blocks, hence the layer's entry (5000·t + r, q) of the six arrays.  Row r of the output lies in the block
  of point r / 5000 and every point writes its block back, so the blocks cover the 100000 rows and the array ends
  holding the layer of the six arrays everywhere.
-/
import proofs.«167260_j2637109919789_2_alg».proof.Proof.Gen.KernelIdeal.Frame
import proofs.«167260_j2637109919789_2_alg».proof.Proof.SagePayload
import Idealize.ShloMosaic.Lib.Pipeline.Value
import Idealize.ShloMosaic.Lib.Tactic

noncomputable section

namespace Cert.KernelIdeal.SageValue

open Idealize.ShloMosaic Idealize.ShloMosaic.TcCoe Idealize.ShloMosaic.ValueIdx Idealize.SL.Sem
open Idealize.ShloMosaic.Pipeline (Dat)

/-- The block each window stages at point t: the three row windows and the output move with t along the rows,
    the two weights and the bias stay at their one block. -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The layer of the region's six arrays, as one function on the output's indices. -/
abbrev layer5 (V : (c : Dev nD) → (b : Ref sig .tc) → Buf (Elt Ideal) ((c : Thread nD τ).loc b)) (c : Dev nD) : S100000x128.Idx → EReal :=
  fun i => Cert.Sage.layerAt (n := 100000) (V c main_v109) (V c main_v9) (V c main_v89) (V c main_v121) (V c main_v127) (V c main_v124) (i 0) (i 1)

/-- The layer's entry (r, q) of six blocks is the layer's entry (5000·p + r, q) of the six arrays when the three
    row blocks are rows 5000·p … of their arrays and the two weights and the bias are read whole. -/
theorem entry_of_blocks5 (A : S100000x128.Idx → EReal) (Dg : S100000x1.Idx → EReal) (X : S100000x128.Idx → EReal)
    (Wl : S128x128.Idx → EReal) (B : S1x128.Idx → EReal) (Wr : S128x128.Idx → EReal)
    (x0 : Vec Ideal S5000x128 .f32) (x1 : Vec Ideal S5000x1 .f32) (x2 : Vec Ideal S5000x128 .f32)
    (wl wr : Vec Ideal S128x128 .f32) (b : Vec Ideal S1x128 .f32) (p : ℕ) (hp : p < 20)
    (h0 : ∀ (r : Fin 5000) (k : Fin 128), x0 (ix2 r k) = A (ix2 ⟨5000 * p + r.val, by omega⟩ k))
    (h1 : ∀ r : Fin 5000, x1 (ix2 r 0) = Dg (ix2 ⟨5000 * p + r.val, by omega⟩ 0))
    (h2 : ∀ (r : Fin 5000) (k : Fin 128), x2 (ix2 r k) = X (ix2 ⟨5000 * p + r.val, by omega⟩ k))
    (h3 : wl = Wl) (h4 : b = B) (h5 : wr = Wr)
    (j : S5000x128.Idx) (i : S100000x128.Idx) (hi0 : (i 0).val = 5000 * p + (j 0).val) (hi1 : (i 1).val = (j 1).val) :
    Gen.k5_pay1 (F := Ideal) x0 x1 x2 wl wr b j = Cert.Sage.layerAt (n := 100000) A Dg X Wl B Wr (i 0) (i 1) := by
  obtain ⟨r, q, rfl⟩ : ∃ (r : Fin 5000) (q : Fin 128), j = ix2 r q := ⟨j 0, j 1, eq_ix2 j⟩
  obtain ⟨R, Q, rfl⟩ : ∃ (R : Fin 100000) (Q : Fin 128), i = ix2 R Q := ⟨i 0, i 1, eq_ix2 i⟩
  have hb : 5000 * p + r.val < 100000 := by have := r.isLt; omega
  obtain rfl : R = ⟨5000 * p + r.val, hb⟩ := Fin.ext hi0
  obtain rfl : Q = q := Fin.ext hi1
  subst h3 h4 h5
  rw [pay5_at]
  show Cert.Sage.layerAt (n := 5000) x0 x1 x2 wl b wr r Q = Cert.Sage.layerAt (n := 100000) A Dg X wl b wr ⟨5000 * p + r.val, hb⟩ Q
  unfold Cert.Sage.layerAt
  simp only [h0, h1, h2]

/-- The aggregated rows' block at point t is rows 5000·t … 5000·t + 4999 of the array. -/
theorem agg_block5 (V : (c : Dev nD) → (b : Ref sig .tc) → Buf (Elt Ideal) ((c : Thread nD τ).loc b)) (c : Dev nD) (t : Fin cfg5.N) (r : Fin 5000) (k : Fin 128) (h : 5000 * t.val + r.val < 100000) :
    (Gen.iblk5 V c 0 t : Vec Ideal S5000x128 .f32) (ix2 r k) = (V c main_v109 : S100000x128.Idx → EReal) (ix2 ⟨5000 * t.val + r.val, h⟩ k) := by
  obtain ⟨e00, e01, -⟩ := blockIdx5 t
  unfold Gen.iblk5
  show V c main_v109 (((cfg5.win 0).blk t).view.emb (ix2 r k)) = V c main_v109 _
  refine congrArg (V c main_v109) (funext fun a => Fin.ext ?_)
  match a with
  | ⟨0, _⟩ => show win5_0.index t (0 : Fin 2) * 5000 + 1 * r.val = 5000 * t.val + r.val; rw [e00]; omega
  | ⟨1, _⟩ => show win5_0.index t (1 : Fin 2) * 128 + 1 * k.val = k.val; rw [e01]; omega

/-- The degree column's block at point t is entries 5000·t … 5000·t + 4999 of the column. -/
theorem deg_block5 (V : (c : Dev nD) → (b : Ref sig .tc) → Buf (Elt Ideal) ((c : Thread nD τ).loc b)) (c : Dev nD) (t : Fin cfg5.N) (r : Fin 5000) (h : 5000 * t.val + r.val < 100000) :
    (Gen.iblk5 V c 1 t : Vec Ideal S5000x1 .f32) (ix2 r 0) = (V c main_v9 : S100000x1.Idx → EReal) (ix2 ⟨5000 * t.val + r.val, h⟩ 0) := by
  obtain ⟨-, -, e10, e11, -⟩ := blockIdx5 t
  unfold Gen.iblk5
  show V c main_v9 (((cfg5.win 1).blk t).view.emb (ix2 r 0)) = V c main_v9 _
  refine congrArg (V c main_v9) (funext fun a => Fin.ext ?_)
  match a with
  | ⟨0, _⟩ => show win5_1.index t (0 : Fin 2) * 5000 + 1 * r.val = 5000 * t.val + r.val; rw [e10]; omega
  | ⟨1, _⟩ => show win5_1.index t (1 : Fin 2) * 1 + 1 * 0 = 0; rw [e11]

/-- The destination rows' block at point t is rows 5000·t … 5000·t + 4999 of the array. -/
theorem dst_block5 (V : (c : Dev nD) → (b : Ref sig .tc) → Buf (Elt Ideal) ((c : Thread nD τ).loc b)) (c : Dev nD) (t : Fin cfg5.N) (r : Fin 5000) (k : Fin 128) (h : 5000 * t.val + r.val < 100000) :
    (Gen.iblk5 V c 2 t : Vec Ideal S5000x128 .f32) (ix2 r k) = (V c main_v89 : S100000x128.Idx → EReal) (ix2 ⟨5000 * t.val + r.val, h⟩ k) := by
  obtain ⟨-, -, -, -, e20, e21, -⟩ := blockIdx5 t
  unfold Gen.iblk5
  show V c main_v89 (((cfg5.win 2).blk t).view.emb (ix2 r k)) = V c main_v89 _
  refine congrArg (V c main_v89) (funext fun a => Fin.ext ?_)
  match a with
  | ⟨0, _⟩ => show win5_2.index t (0 : Fin 2) * 5000 + 1 * r.val = 5000 * t.val + r.val; rw [e20]; omega
  | ⟨1, _⟩ => show win5_2.index t (1 : Fin 2) * 128 + 1 * k.val = k.val; rw [e21]; omega

/-- The left weight is staged whole at every point. -/
theorem wl_block5 (V : (c : Dev nD) → (b : Ref sig .tc) → Buf (Elt Ideal) ((c : Thread nD τ).loc b)) (c : Dev nD) (t : Fin cfg5.N) :
    (Gen.iblk5 V c 3 t : Vec Ideal S128x128 .f32) = (V c main_v121 : S128x128.Idx → EReal) := by
  obtain ⟨-, -, -, -, -, -, e30, e31, -⟩ := blockIdx5 t
  unfold Gen.iblk5
  funext y
  show V c main_v121 (((cfg5.win 3).blk t).view.emb y) = V c main_v121 y
  refine congrArg (V c main_v121) (funext fun a => Fin.ext ?_)
  match a with
  | ⟨0, _⟩ => show win5_3.index t (0 : Fin 2) * 128 + 1 * (y 0).val = (y 0).val; rw [e30]; omega
  | ⟨1, _⟩ => show win5_3.index t (1 : Fin 2) * 128 + 1 * (y 1).val = (y 1).val; rw [e31]; omega

/-- The bias row is staged whole at every point. -/
theorem bias_block5 (V : (c : Dev nD) → (b : Ref sig .tc) → Buf (Elt Ideal) ((c : Thread nD τ).loc b)) (c : Dev nD) (t : Fin cfg5.N) :
    (Gen.iblk5 V c 4 t : Vec Ideal S1x128 .f32) = (V c main_v127 : S1x128.Idx → EReal) := by
  obtain ⟨-, -, -, -, -, -, -, -, e40, e41, -⟩ := blockIdx5 t
  unfold Gen.iblk5
  funext y
  show V c main_v127 (((cfg5.win 4).blk t).view.emb y) = V c main_v127 y
  refine congrArg (V c main_v127) (funext fun a => Fin.ext ?_)
  match a with
  | ⟨0, _⟩ => show win5_4.index t (0 : Fin 2) * 1 + 1 * (y 0).val = (y 0).val; rw [e40]; omega
  | ⟨1, _⟩ => show win5_4.index t (1 : Fin 2) * 128 + 1 * (y 1).val = (y 1).val; rw [e41]; omega

/-- The right weight is staged whole at every point. -/
theorem wr_block5 (V : (c : Dev nD) → (b : Ref sig .tc) → Buf (Elt Ideal) ((c : Thread nD τ).loc b)) (c : Dev nD) (t : Fin cfg5.N) :
    (Gen.iblk5 V c 5 t : Vec Ideal S128x128 .f32) = (V c main_v124 : S128x128.Idx → EReal) := by
  obtain ⟨-, -, -, -, -, -, -, -, -, -, e50, e51, -⟩ := blockIdx5 t
  unfold Gen.iblk5
  funext y
  show V c main_v124 (((cfg5.win 5).blk t).view.emb y) = V c main_v124 y
  refine congrArg (V c main_v124) (funext fun a => Fin.ext ?_)
  match a with
  | ⟨0, _⟩ => show win5_5.index t (0 : Fin 2) * 128 + 1 * (y 0).val = (y 0).val; rw [e50]; omega
  | ⟨1, _⟩ => show win5_5.index t (1 : Fin 2) * 128 + 1 * (y 1).val = (y 1).val; rw [e51]; omega

/-- What point t writes back is block t of the layer of the six arrays: rows 5000·t … 5000·t + 4999. -/
theorem flushed5 (V : (c : Dev nD) → (b : Ref sig .tc) → Buf (Elt Ideal) ((c : Thread nD τ).loc b)) (c : Dev nD) (t : Fin cfg5.N) :
    (Gen.dat5 (F := Ideal) V c).flushed 6 t = ((cfg5.win 6).blk t).view.read (Elt Ideal) (layer5 V c) := by
  have hz : (![0, 0] : Fin 2 → Nat) = fun _ => 0 := funext fun a => by fin_cases a <;> rfl
  show (cfg5.win 6).cut (grid5.coords t) ((Gen.dat5 (F := Ideal) V c).after 6 t) = _
  rw [Gen.after5_6]
  unfold Gen.out5_6
  rw [View.canon_unit_zero hz]
  simp only [View.ld_unit_zero (S := S5000x128) hz, View.ld_unit_zero (S := S5000x1) hz,
    View.ld_unit_zero (S := S128x128) hz, View.ld_unit_zero (S := S1x128) hz]
  have ht : t.val < 20 := t.isLt.trans_eq (show cfg5.N = 20 from Gen.N_5)
  obtain ⟨-, -, -, -, -, -, -, -, -, -, -, -, e60, e61⟩ := blockIdx5 t
  funext j
  show Gen.k5_pay1 (F := Ideal) (Gen.iblk5 V c 0 t) (Gen.iblk5 V c 1 t) (Gen.iblk5 V c 2 t) (Gen.iblk5 V c 3 t) (Gen.iblk5 V c 5 t) (Gen.iblk5 V c 4 t) j
    = layer5 V c (((cfg5.win 6).blk t).view.emb j)
  refine entry_of_blocks5 (V c main_v109) (V c main_v9) (V c main_v89) (V c main_v121) (V c main_v127) (V c main_v124)
    (Gen.iblk5 V c 0 t) (Gen.iblk5 V c 1 t) (Gen.iblk5 V c 2 t) (Gen.iblk5 V c 3 t) (Gen.iblk5 V c 5 t) (Gen.iblk5 V c 4 t) t.val ht
    (fun r k => agg_block5 V c t r k _) (fun r => deg_block5 V c t r _) (fun r k => dst_block5 V c t r k _)
    (wl_block5 V c t) (bias_block5 V c t) (wr_block5 V c t) j (((cfg5.win 6).blk t).view.emb j) ?_ ?_
  · show win5_6.index t (0 : Fin 2) * 5000 + 1 * (j 0).val = 5000 * t.val + (j 0).val
    rw [e60]; omega
  · show win5_6.index t (1 : Fin 2) * 128 + 1 * (j 1).val = (j 1).val
    rw [e61]; omega

/-- An index of the output array is in point t's block iff each coordinate is in the block's range on its axis. -/
theorem mem_out5 (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v129).slice (win5_6.rect t)).set ↔ _
  rw [View.set_slice_whole, Rect.mem_set_unit]
  exact Iff.rfl

/-- Every row r of the output lies in the block of point r / 5000, and every point writes its block back. -/
theorem cover5 (i : S100000x128.Idx) :
    ∃ t : Fin cfg5.N, (cfg5.win 6).flush t = true ∧ i ∈ ((cfg5.win 6).blk t).view.set := by
  have h0 : (i 0).val < 100000 := idx2_lt0 i
  have h1 : (i 1).val < 128 := idx2_lt1 i
  have hN : cfg5.N = 20 := Gen.N_5
  have hq : (i 0).val / 5000 < cfg5.N := by rw [hN]; omega
  obtain ⟨-, -, -, -, -, -, -, -, -, -, -, -, e60, e61⟩ := blockIdx5 ⟨(i 0).val / 5000, hq⟩
  refine ⟨⟨(i 0).val / 5000, hq⟩, Gen.flush5_6 _, ?_⟩
  rw [mem_out5]
  intro a
  match a with
  | ⟨0, _⟩ =>
    show win5_6.index ⟨(i 0).val / 5000, hq⟩ (0 : Fin 2) * 5000 ≤ (i 0).val
      ∧ (i 0).val < win5_6.index ⟨(i 0).val / 5000, hq⟩ (0 : Fin 2) * 5000 + 5000
    rw [e60]; show (i 0).val / 5000 * 5000 ≤ (i 0).val ∧ (i 0).val < (i 0).val / 5000 * 5000 + 5000; omega
  | ⟨1, _⟩ =>
    show win5_6.index ⟨(i 0).val / 5000, hq⟩ (1 : Fin 2) * 128 ≤ (i 1).val
      ∧ (i 1).val < win5_6.index ⟨(i 0).val / 5000, hq⟩ (1 : Fin 2) * 128 + 128
    rw [e61]; omega

/-- The output array after the region: the layer of the six input arrays, entry by entry. -/
theorem arr5 (V : (c : Dev nD) → (b : Ref sig .tc) → Buf (Elt Ideal) ((c : Thread nD τ).loc b)) (c : Dev nD) :
    (Gen.dat5 (F := Ideal) V c).arrAt 6 cfg5.N
      = fun i : S100000x128.Idx => Cert.Sage.layerAt (n := 100000) (V c main_v109) (V c main_v9) (V c main_v89) (V c main_v121) (V c main_v127) (V c main_v124) (i 0) (i 1) :=
  (Gen.dat5 (F := Ideal) V c).arrAt_eq_of_cover 6 (layer5 V c) (fun t _ => flushed5 V c t) cover5

end Cert.KernelIdeal.SageValue

end
-- ==== Proof.StagesLayer2.lean ====
/-
  Layer 2 of the kernel program, followed through the memory.

  At the boundary before the layer's two regions the host operations have left, for each node type, the rows
  aggregated over the edges (a gather of the source rows followed by a scatter-add at the destination rows) and
  the layer's transposed weights and bias row: each is the SAME composition of
  operations on the argument arrays and on the previous layer's outputs as the reference's stage of that role, so the two are equal by unfolding.
  The region for the 20000-row node type then leaves in its output array the layer function of its six input
  arrays, entry by entry, and that is the reference's stage at the end of its layer (the reference's layer read
  entry by entry); likewise the region for the 100000-row node type.  Every other buffer is carried across each
  boundary unchanged: a stretch of host operations changes only the buffers its operations write, a region only
  its output array (an input array of a region is staged and left as it was).
-/
import proofs.«167260_j2637109919789_2_alg».proof.Proof.StagesLayer1
import proofs.«167260_j2637109919789_2_alg».proof.Proof.SageArr4
import proofs.«167260_j2637109919789_2_alg».proof.Proof.SageArr5
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- None of a stretch's operations writes the buffer in question: each operation's one written buffer is a
    different buffer. -/
local macro "host_keeps " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))
/-! ## Boundary 7: after the host operations `hostOps4` -/

theorem at7_arg5 : W7 m ρ c (Proc.devRef .tc main_arg5) = (m ((c : Thread nD τ).loc main_arg5)) :=
  (StableHlo.after_of_forall_not_mem (b := (Proc.devRef .tc main_arg5)) _ _ (List.forall_iff_forall_mem.mp (by host_keeps hostOps4))).trans (at6_arg5 m ρ c)

theorem at7_arg6 : W7 m ρ c (Proc.devRef .tc main_arg6) = (m ((c : Thread nD τ).loc main_arg6)) :=
  (StableHlo.after_of_forall_not_mem (b := (Proc.devRef .tc main_arg6)) _ _ (List.forall_iff_forall_mem.mp (by host_keeps hostOps4))).trans (at6_arg6 m ρ c)

theorem at7_arg9 : W7 m ρ c (Proc.devRef .tc main_arg9) = (m ((c : Thread nD τ).loc main_arg9)) :=
  (StableHlo.after_of_forall_not_mem (b := (Proc.devRef .tc main_arg9)) _ _ (List.forall_iff_forall_mem.mp (by host_keeps hostOps4))).trans (at6_arg9 m ρ c)

theorem at7_arg10 : W7 m ρ c (Proc.devRef .tc main_arg10) = (m ((c : Thread nD τ).loc main_arg10)) :=
  (StableHlo.after_of_forall_not_mem (b := (Proc.devRef .tc main_arg10)) _ _ (List.forall_iff_forall_mem.mp (by host_keeps hostOps4))).trans (at6_arg10 m ρ c)

theorem at7_v4 : W7 m ρ c (Proc.devRef .tc main_v4) = (shapeCast S20000x1 (Cert.ReferenceIdeal.Read.val_main_v19 (F := Ideal) (m ((c : Thread nD τ).loc main_arg8))) shapeCasts_S20000_S20000x1) :=
  (StableHlo.after_of_forall_not_mem (b := (Proc.devRef .tc main_v4)) _ _ (List.forall_iff_forall_mem.mp (by host_keeps hostOps4))).trans (at6_v4 m ρ c)

theorem at7_v9 : W7 m ρ c (Proc.devRef .tc main_v9) = (shapeCast S100000x1 (Cert.ReferenceIdeal.Read.val_main_v51 (F := Ideal) (m ((c : Thread nD τ).loc main_arg7))) shapeCasts_S100000_S100000x1) :=
  (StableHlo.after_of_forall_not_mem (b := (Proc.devRef .tc main_v9)) _ _ (List.forall_iff_forall_mem.mp (by host_keeps hostOps4))).trans (at6_v9 m ρ c)

theorem at7_v88 : W7 m ρ c (Proc.devRef .tc main_v88) = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := (Proc.devRef .tc main_v88)) _ _ (List.forall_iff_forall_mem.mp (by host_keeps hostOps4))).trans (at6_v88 m ρ c)

theorem at7_v89 : W7 m ρ c (Proc.devRef .tc main_v89) = (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := (Proc.devRef .tc main_v89)) _ _ (List.forall_iff_forall_mem.mp (by host_keeps hostOps4))).trans (at6_v89 m ρ c)

theorem at7_v99 : W7 m ρ c (Proc.devRef .tc main_v99) = (Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  have e0 := at6_v89 m ρ c
  have e1 := at6_arg7 m ρ c
  have e2 := at6_arg8 m ρ c
  dsimp only [W7]
  generalize W6 m ρ c = X at e0 e1 e2 ⊢
  after_results_simp
  simp only [e0, e1, e2]
  rfl

theorem at7_v112 : W7 m ρ c (Proc.devRef .tc main_v112) = (Cert.ReferenceIdeal.Read.val_main_v156 (F := Ideal) (m ((c : Thread nD τ).loc main_arg2))) := by
  have e0 := at6_arg2 m ρ c
  dsimp only [W7]
  generalize W6 m ρ c = X at e0 ⊢
  after_results_simp
  simp only [e0]
  rfl

theorem at7_v118 : W7 m ρ c (Proc.devRef .tc main_v118) = (shapeCast S1x128 (Cert.ReferenceIdeal.Read.val_main_v135 (F := Ideal) (m ((c : Thread nD τ).loc main_arg3))) shapeCasts_S128_S1x128) := by
  have e0 := at6_arg3 m ρ c
  dsimp only [W7]
  generalize W6 m ρ c = X at e0 ⊢
  after_results_simp
  simp only [e0]
  rfl

theorem at7_v115 : W7 m ρ c (Proc.devRef .tc main_v115) = (Cert.ReferenceIdeal.Read.val_main_v161 (F := Ideal) (m ((c : Thread nD τ).loc main_arg4))) := by
  have e0 := at6_arg4 m ρ c
  dsimp only [W7]
  generalize W6 m ρ c = X at e0 ⊢
  after_results_simp
  simp only [e0]
  rfl

theorem at7_v109 : W7 m ρ c (Proc.devRef .tc main_v109) = (Cert.ReferenceIdeal.Read.val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  have e0 := at6_v88 m ρ c
  have e1 := at6_arg7 m ρ c
  have e2 := at6_arg8 m ρ c
  dsimp only [W7]
  generalize W6 m ρ c = X at e0 e1 e2 ⊢
  after_results_simp
  simp only [e0, e1, e2]
  rfl

theorem at7_v121 : W7 m ρ c (Proc.devRef .tc main_v121) = (Cert.ReferenceIdeal.Read.val_main_v188 (F := Ideal) (m ((c : Thread nD τ).loc main_arg2))) := by
  have e0 := at6_arg2 m ρ c
  dsimp only [W7]
  generalize W6 m ρ c = X at e0 ⊢
  after_results_simp
  simp only [e0]
  rfl

theorem at7_v127 : W7 m ρ c (Proc.devRef .tc main_v127) = (shapeCast S1x128 (Cert.ReferenceIdeal.Read.val_main_v167 (F := Ideal) (m ((c : Thread nD τ).loc main_arg3))) shapeCasts_S128_S1x128) := by
  have e0 := at6_arg3 m ρ c
  dsimp only [W7]
  generalize W6 m ρ c = X at e0 ⊢
  after_results_simp
  simp only [e0]
  rfl

theorem at7_v124 : W7 m ρ c (Proc.devRef .tc main_v124) = (Cert.ReferenceIdeal.Read.val_main_v193 (F := Ideal) (m ((c : Thread nD τ).loc main_arg4))) := by
  have e0 := at6_arg4 m ρ c
  dsimp only [W7]
  generalize W6 m ρ c = X at e0 ⊢
  after_results_simp
  simp only [e0]
  rfl

/-! ## Boundary 8: after region 4 -/

theorem at8_arg5 : W8 m ρ c (Proc.devRef .tc main_arg5) = (m ((c : Thread nD τ).loc main_arg5)) :=
  (W8_of_ne m ρ c main_arg5 (by decide)).trans (at7_arg5 m ρ c)

theorem at8_arg6 : W8 m ρ c (Proc.devRef .tc main_arg6) = (m ((c : Thread nD τ).loc main_arg6)) :=
  (W8_of_ne m ρ c main_arg6 (by decide)).trans (at7_arg6 m ρ c)

theorem at8_arg9 : W8 m ρ c (Proc.devRef .tc main_arg9) = (m ((c : Thread nD τ).loc main_arg9)) :=
  (W8_of_ne m ρ c main_arg9 (by decide)).trans (at7_arg9 m ρ c)

theorem at8_arg10 : W8 m ρ c (Proc.devRef .tc main_arg10) = (m ((c : Thread nD τ).loc main_arg10)) :=
  (W8_of_ne m ρ c main_arg10 (by decide)).trans (at7_arg10 m ρ c)

theorem at8_v9 : W8 m ρ c (Proc.devRef .tc main_v9) = (shapeCast S100000x1 (Cert.ReferenceIdeal.Read.val_main_v51 (F := Ideal) (m ((c : Thread nD τ).loc main_arg7))) shapeCasts_S100000_S100000x1) :=
  (W8_of_ne m ρ c main_v9 (by decide)).trans (at7_v9 m ρ c)

theorem at8_v89 : W8 m ρ c (Proc.devRef .tc main_v89) = (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W8_of_ne m ρ c main_v89 (by decide)).trans (at7_v89 m ρ c)

theorem at8_v109 : W8 m ρ c (Proc.devRef .tc main_v109) = (Cert.ReferenceIdeal.Read.val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W8_of_ne m ρ c main_v109 (by decide)).trans (at7_v109 m ρ c)

theorem at8_v121 : W8 m ρ c (Proc.devRef .tc main_v121) = (Cert.ReferenceIdeal.Read.val_main_v188 (F := Ideal) (m ((c : Thread nD τ).loc main_arg2))) :=
  (W8_of_ne m ρ c main_v121 (by decide)).trans (at7_v121 m ρ c)

theorem at8_v127 : W8 m ρ c (Proc.devRef .tc main_v127) = (shapeCast S1x128 (Cert.ReferenceIdeal.Read.val_main_v167 (F := Ideal) (m ((c : Thread nD τ).loc main_arg3))) shapeCasts_S128_S1x128) :=
  (W8_of_ne m ρ c main_v127 (by decide)).trans (at7_v127 m ρ c)

theorem at8_v124 : W8 m ρ c (Proc.devRef .tc main_v124) = (Cert.ReferenceIdeal.Read.val_main_v193 (F := Ideal) (m ((c : Thread nD τ).loc main_arg4))) :=
  (W8_of_ne m ρ c main_v124 (by decide)).trans (at7_v124 m ρ c)

theorem at8_v128 : W8 m ρ c (Proc.devRef .tc main_v128) = (Cert.ReferenceIdeal.Read.val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W8_arr m ρ c 6).trans (Cert.KernelIdeal.SageValue.arr4 (V7 m ρ) c)).trans ?_
  have h0 : V7 m ρ c main_v99 = (Cert.ReferenceIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at7_v99 m ρ c
  have h1 : V7 m ρ c main_v4 = (shapeCast S20000x1 (Cert.ReferenceIdeal.Read.val_main_v19 (F := Ideal) (m ((c : Thread nD τ).loc main_arg8))) shapeCasts_S20000_S20000x1) := at7_v4 m ρ c
  have h2 : V7 m ρ c main_v88 = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at7_v88 m ρ c
  have h3 : V7 m ρ c main_v112 = (Cert.ReferenceIdeal.Read.val_main_v156 (F := Ideal) (m ((c : Thread nD τ).loc main_arg2))) := at7_v112 m ρ c
  have h4 : V7 m ρ c main_v118 = (shapeCast S1x128 (Cert.ReferenceIdeal.Read.val_main_v135 (F := Ideal) (m ((c : Thread nD τ).loc main_arg3))) shapeCasts_S128_S1x128) := at7_v118 m ρ c
  have h5 : V7 m ρ c main_v115 = (Cert.ReferenceIdeal.Read.val_main_v161 (F := Ideal) (m ((c : Thread nD τ).loc main_arg4))) := at7_v115 m ρ c
  rw [h0, h1, h2, h3, h4, h5]
  exact (Cert.ReferenceIdeal.LayerRef.layerP_eq _ _ _ _ _ _ _ _).symm.trans (Cert.ReferenceIdeal.LayerRef.stage_v197 _ _ _ _ _ _ _).symm

/-! ## Boundary 9: after region 5 -/

theorem at9_arg5 : W9 m ρ c (Proc.devRef .tc main_arg5) = (m ((c : Thread nD τ).loc main_arg5)) :=
  (W9_of_ne m ρ c main_arg5 (by decide)).trans (at8_arg5 m ρ c)

theorem at9_arg6 : W9 m ρ c (Proc.devRef .tc main_arg6) = (m ((c : Thread nD τ).loc main_arg6)) :=
  (W9_of_ne m ρ c main_arg6 (by decide)).trans (at8_arg6 m ρ c)

theorem at9_arg9 : W9 m ρ c (Proc.devRef .tc main_arg9) = (m ((c : Thread nD τ).loc main_arg9)) :=
  (W9_of_ne m ρ c main_arg9 (by decide)).trans (at8_arg9 m ρ c)

theorem at9_arg10 : W9 m ρ c (Proc.devRef .tc main_arg10) = (m ((c : Thread nD τ).loc main_arg10)) :=
  (W9_of_ne m ρ c main_arg10 (by decide)).trans (at8_arg10 m ρ c)

theorem at9_v128 : W9 m ρ c (Proc.devRef .tc main_v128) = (Cert.ReferenceIdeal.Read.val_main_v197 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W9_of_ne m ρ c main_v128 (by decide)).trans (at8_v128 m ρ c)

theorem at9_v129 : W9 m ρ c (Proc.devRef .tc main_v129) = (Cert.ReferenceIdeal.Read.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine ((W9_arr m ρ c 6).trans (Cert.KernelIdeal.SageValue.arr5 (V8 m ρ) c)).trans ?_
  have h0 : V8 m ρ c main_v109 = (Cert.ReferenceIdeal.Read.val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at8_v109 m ρ c
  have h1 : V8 m ρ c main_v9 = (shapeCast S100000x1 (Cert.ReferenceIdeal.Read.val_main_v51 (F := Ideal) (m ((c : Thread nD τ).loc main_arg7))) shapeCasts_S100000_S100000x1) := at8_v9 m ρ c
  have h2 : V8 m ρ c main_v89 = (Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := at8_v89 m ρ c
  have h3 : V8 m ρ c main_v121 = (Cert.ReferenceIdeal.Read.val_main_v188 (F := Ideal) (m ((c : Thread nD τ).loc main_arg2))) := at8_v121 m ρ c
  have h4 : V8 m ρ c main_v127 = (shapeCast S1x128 (Cert.ReferenceIdeal.Read.val_main_v167 (F := Ideal) (m ((c : Thread nD τ).loc main_arg3))) shapeCasts_S128_S1x128) := at8_v127 m ρ c
  have h5 : V8 m ρ c main_v124 = (Cert.ReferenceIdeal.Read.val_main_v193 (F := Ideal) (m ((c : Thread nD τ).loc main_arg4))) := at8_v124 m ρ c
  rw [h0, h1, h2, h3, h4, h5]
  exact (Cert.ReferenceIdeal.LayerRef.layerC_eq _ _ _ _ _ _ _ _).symm.trans (Cert.ReferenceIdeal.LayerRef.stage_v196 _ _ _ _ _ _ _).symm

end Cert.KernelIdeal.Stages

end
-- ==== Proof.DecoderPayload.lean ====
/-
  The decoder's block, entry by entry.

  Over the extended reals a narrowing of the float format changes nothing, so the block of scores the
  decoder computes from 4000 gathered row-side rows `x0`, 4000 gathered column-side rows `x1`, the two
  halves `w1`, `w2` of the decoder weight (each a column of 128 entries) and the decoder bias `bd` is, at
  row `r`,
      (∑ₖ x0[r,k] · w1[k,0]) + (∑ₖ x1[r,k] · w2[k,0]) + bd[0,0],
  and the two halves of the block of features it writes are the two gathered blocks themselves.
-/
import proofs.«167260_j2637109919789_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.DecoderValue

open Cert.KernelIdeal Cert.KernelIdeal.Gen
open Idealize.ShloMosaic Idealize.ShloMosaic.ValueIdx

/-! ## A block of rows against a column -/

/-- The contraction of a [4000,128] block with a [128,1] column pairs, at output entry `j`, the block's row
    `j 0` … -/
theorem rowIdx_row (j : S4000x1.Idx) (q : dot_S4000x128_S128x1_S4000x1_1_0_0_1_n_n.contr.Idx) :
    (dot_S4000x128_S128x1_S4000x1_1_0_0_1_n_n.lhsIdx j q 0).val = (j 0).val := by
  unfold DotDims.lhsIdx
  rw [dif_neg (show ¬(0 : Fin S4000x128.rank) ∈ dot_S4000x128_S128x1_S4000x1_1_0_0_1_n_n.lhsBatch by decide),
    dif_pos (show (0 : Fin S4000x128.rank) ∈ dot_S4000x128_S128x1_S4000x1_1_0_0_1_n_n.lhsNonContracting by decide)]
  rfl

/-- … at the summation index, -/
theorem rowIdx_col (j : S4000x1.Idx) (q : dot_S4000x128_S128x1_S4000x1_1_0_0_1_n_n.contr.Idx) :
    (dot_S4000x128_S128x1_S4000x1_1_0_0_1_n_n.lhsIdx j q 1).val = (q ⟨0, by decide⟩).val :=
  dot_S4000x128_S128x1_S4000x1_1_0_0_1_n_n.lhsIdx_val_of_single rfl j q

/-- with the column's entry at the summation index … -/
theorem colIdx_row (j : S4000x1.Idx) (q : dot_S4000x128_S128x1_S4000x1_1_0_0_1_n_n.contr.Idx) :
    (dot_S4000x128_S128x1_S4000x1_1_0_0_1_n_n.rhsIdx j q 0).val = (q ⟨0, by decide⟩).val :=
  dot_S4000x128_S128x1_S4000x1_1_0_0_1_n_n.rhsIdx_val_of_single rfl j q

/-- … in the column `j 1` (there is only one). -/
theorem colIdx_col (j : S4000x1.Idx) (q : dot_S4000x128_S128x1_S4000x1_1_0_0_1_n_n.contr.Idx) :
    (dot_S4000x128_S128x1_S4000x1_1_0_0_1_n_n.rhsIdx j q 1).val = (j 1).val := by
  unfold DotDims.rhsIdx
  rw [dif_neg (show ¬(1 : Fin S128x1.rank) ∈ dot_S4000x128_S128x1_S4000x1_1_0_0_1_n_n.rhsBatch by decide),
    dif_pos (show (1 : Fin S128x1.rank) ∈ dot_S4000x128_S128x1_S4000x1_1_0_0_1_n_n.rhsNonContracting by decide)]
  rfl

/-- A block of 4000 rows times a column of 128 weights, accumulated from zero: at row `r` the sum over
    the 128 columns of the row's entry times the weight. -/
theorem rows_times_column (x : S4000x128.Idx → EReal) (w : S128x1.Idx → EReal) (r : Fin 4000) :
    FloatOps.matmul (F := Ideal) (φ₁ := .bf16) (φ₂ := .bf16) dot_S4000x128_S128x1_S4000x1_1_0_0_1_n_n none x w
        (constant (F := Ideal) S4000x1 .f32 0x00000000#32) (ix2 r 0)
      = ∑ k : Fin 128, x (ix2 r k) * w (ix2 k 0) := by
  rw [Ideal.matmul_constant_zero_apply,
    ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 r 0)
      ((contrEquiv1 dot_S4000x128_S128x1_S4000x1_1_0_0_1_n_n 128 rfl rfl).symm k) = ix2 r k :=
    funext fun a => Fin.ext (by
      match a with
      | ⟨0, _⟩ => exact rowIdx_row _ _
      | ⟨1, _⟩ => exact (rowIdx_col _ _).trans hk)
  have er : dot_S4000x128_S128x1_S4000x1_1_0_0_1_n_n.rhsIdx (ix2 r 0)
      ((contrEquiv1 dot_S4000x128_S128x1_S4000x1_1_0_0_1_n_n 128 rfl rfl).symm k) = ix2 k 0 :=
    funext fun a => Fin.ext (by
      match a with
      | ⟨0, _⟩ => exact (colIdx_row _ _).trans hk
      | ⟨1, _⟩ => exact colIdx_col _ _)
  rw [el, er]

/-! ## The three payloads -/

/-- The first half of the feature block is the row-side block. -/
theorem pay_row_side (x0 : Vec Ideal S4000x128 .f32) : k6_pay1 x0 = x0 := by
  unfold k6_pay1
  exact shapeCast_self x0 _

/-- The second half of the feature block is the column-side block. -/
theorem pay_col_side (x1 : Vec Ideal S4000x128 .f32) : k6_pay2 x1 = x1 := by
  unfold k6_pay2
  exact shapeCast_self x1 _

/-- The bias, one entry, spread down the block's 4000 rows. -/
theorem bias_down_rows (bd : S1x1.Idx → EReal) (r : Fin 4000) :
    broadcastTo S4000x1 bd broadcasts_S1x1_S4000x1 (ix2 r 0) = bd (ix2 0 0) :=
  broadcastTo_apply bd broadcasts_S1x1_S4000x1 (ix2 r 0) (ix2 0 0) fun a => by
    match a with
    | ⟨0, _⟩ => show (0 : Nat) = if (1 : Nat) = 1 then 0 else _; rw [if_pos rfl]
    | ⟨1, _⟩ => show (0 : Nat) = if (1 : Nat) = 1 then 0 else _; rw [if_pos rfl]

/-- The block of scores at row `r`. -/
theorem pay_score (x0 x1 : Vec Ideal S4000x128 .f32) (w1 w2 : Vec Ideal S128x1 .f32) (bd : Vec Ideal S1x1 .f32)
    (r : Fin 4000) :
    k6_pay3 x0 x1 w1 w2 bd (ix2 r 0)
      = ((∑ k : Fin 128, x0 (ix2 r k) * w1 (ix2 k 0)) + ∑ k : Fin 128, x1 (ix2 r k) * w2 (ix2 k 0))
        + bd (ix2 0 0) := by
  unfold k6_pay3
  rw [pay_row_side, pay_col_side]
  simp only [shapeCast_self]
  refine congrArg₂ (· + ·) (congrArg₂ (· + ·) ?_ ?_) ?_
  · exact rows_times_column x0 w1 r
  · exact rows_times_column x1 w2 r
  · exact bias_down_rows bd r

end Cert.KernelIdeal.DecoderValue

end
-- ==== Proof.DecoderBlocks.lean ====
/-
  Where the decoder's blocks sit in their arrays.

  The decoder runs over 50 grid points.  At point `t` it is handed rows `4000 t … 4000 t + 3999` of each of
  the two gathered arrays, the two weight columns and the bias whole, and it writes rows
  `4000 t … 4000 t + 3999` of the scores and of the features.  The lemmas below read each input block,
  entry by entry, as an entry of the array the region finds.
-/
import proofs.«167260_j2637109919789_2_alg».proof.Proof.Gen.KernelIdeal.Frame
import Idealize.ShloMosaic.Lib.Pipeline.Value
import Idealize.ShloMosaic.Lib.ValueIdx

set_option maxRecDepth 16384

noncomputable section

namespace Cert.KernelIdeal.DecoderValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The two offsets of a whole-buffer access are zero. -/
theorem zero_offsets : (![0, 0] : Fin 2 → Nat) = fun _ => 0 := funext fun a => by fin_cases a <;> rfl

/-! ## Where the blocks sit -/

/-- The block indices of the seven windows at grid point `t`: the two gathered arrays, the scores and the
    features move down by one block of 4000 rows per point; the weights and the bias stay. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Row `r` of the row-side block at point `t` is row `4000 t + r` of the row-side gather. -/
theorem row_side_block (c : Dev nD) (t : Fin cfg6.N) (r : Fin 4000) (k : Fin 128) (R : Fin 200000)
    (hR : R.val = t.val * 4000 + r.val) :
    (iblk6 V c 0 t : Vec Ideal S4000x128 .f32) (ix2 r k) = (V c main_v136 : S200000x128.Idx → EReal) (ix2 R k) := by
  obtain ⟨e0, e1, -⟩ := block_index t
  unfold iblk6
  rw [View.read_apply]
  show V c main_v136 _ = V c main_v136 _
  congr 1
  funext a
  apply Fin.ext
  match a with
  | ⟨0, _⟩ => show win6_0.index t (0 : Fin 2) * 4000 + 1 * r.val = R.val; rw [e0, hR]; omega
  | ⟨1, _⟩ => show win6_0.index t (1 : Fin 2) * 128 + 1 * k.val = k.val; rw [e1]; omega

/-- Row `r` of the column-side block at point `t` is row `4000 t + r` of the column-side gather. -/
theorem col_side_block (c : Dev nD) (t : Fin cfg6.N) (r : Fin 4000) (k : Fin 128) (R : Fin 200000)
    (hR : R.val = t.val * 4000 + r.val) :
    (iblk6 V c 1 t : Vec Ideal S4000x128 .f32) (ix2 r k) = (V c main_v143 : S200000x128.Idx → EReal) (ix2 R k) := by
  obtain ⟨-, -, e0, e1, -⟩ := block_index t
  unfold iblk6
  rw [View.read_apply]
  show V c main_v143 _ = V c main_v143 _
  congr 1
  funext a
  apply Fin.ext
  match a with
  | ⟨0, _⟩ => show win6_1.index t (0 : Fin 2) * 4000 + 1 * r.val = R.val; rw [e0, hR]; omega
  | ⟨1, _⟩ => show win6_1.index t (1 : Fin 2) * 128 + 1 * k.val = k.val; rw [e1]; omega

/-- The block of the first weight column is the whole column, at every point. -/
theorem first_weight_block (c : Dev nD) (t : Fin cfg6.N) (k : Fin 128) :
    (iblk6 V c 2 t : Vec Ideal S128x1 .f32) (ix2 k 0) = (V c main_v145 : S128x1.Idx → EReal) (ix2 k 0) := by
  obtain ⟨-, -, -, -, e0, e1, -⟩ := block_index t
  unfold iblk6
  rw [View.read_apply]
  show V c main_v145 _ = V c main_v145 _
  congr 1
  funext a
  apply Fin.ext
  match a with
  | ⟨0, _⟩ => show win6_2.index t (0 : Fin 2) * 128 + 1 * k.val = k.val; rw [e0]; omega
  | ⟨1, _⟩ => show win6_2.index t (1 : Fin 2) * 1 + 1 * 0 = 0; rw [e1]

/-- The block of the second weight column is the whole column, at every point. -/
theorem second_weight_block (c : Dev nD) (t : Fin cfg6.N) (k : Fin 128) :
    (iblk6 V c 3 t : Vec Ideal S128x1 .f32) (ix2 k 0) = (V c main_v147 : S128x1.Idx → EReal) (ix2 k 0) := by
  obtain ⟨-, -, -, -, -, -, e0, e1, -⟩ := block_index t
  unfold iblk6
  rw [View.read_apply]
  show V c main_v147 _ = V c main_v147 _
  congr 1
  funext a
  apply Fin.ext
  match a with
  | ⟨0, _⟩ => show win6_3.index t (0 : Fin 2) * 128 + 1 * k.val = k.val; rw [e0]; omega
  | ⟨1, _⟩ => show win6_3.index t (1 : Fin 2) * 1 + 1 * 0 = 0; rw [e1]

/-- The block of the bias is the bias, at every point. -/
theorem bias_block (c : Dev nD) (t : Fin cfg6.N) :
    (iblk6 V c 4 t : Vec Ideal S1x1 .f32) (ix2 0 0) = (V c main_v148 : S1x1.Idx → EReal) (ix2 0 0) := by
  obtain ⟨-, -, -, -, -, -, -, -, e0, e1, -⟩ := block_index t
  unfold iblk6
  rw [View.read_apply]
  show V c main_v148 _ = V c main_v148 _
  congr 1
  funext a
  apply Fin.ext
  match a with
  | ⟨0, _⟩ => show win6_4.index t (0 : Fin 2) * 1 + 1 * 0 = 0; rw [e0]
  | ⟨1, _⟩ => show win6_4.index t (1 : Fin 2) * 1 + 1 * 0 = 0; rw [e1]

end Cert.KernelIdeal.DecoderValue

end
-- ==== Proof.DecoderScores.lean ====
/-
  The array of scores the decoder leaves.

  Each grid point writes one block of 4000 scores, computed from its blocks of the two gathered arrays, the
  two weight columns and the bias.  Row `y` of the block at point `t` is the score of label edge
  `4000 t + y`, and the 50 blocks tile the 200000 label edges, so after the region entry `r` of the array
  is the score of label edge `r`:
      (∑ₖ g_row[r,k] · w₁[k]) + (∑ₖ g_col[r,k] · w₂[k]) + b_d.
-/
import proofs.«167260_j2637109919789_2_alg».proof.Proof.Gen.KernelIdeal.Frame
import proofs.«167260_j2637109919789_2_alg».proof.Proof.SageSpec
import proofs.«167260_j2637109919789_2_alg».proof.Proof.DecoderPayload
import proofs.«167260_j2637109919789_2_alg».proof.Proof.DecoderBlocks
import Idealize.ShloMosaic.Lib.Pipeline.Value

set_option maxRecDepth 16384

noncomputable section

namespace Cert.KernelIdeal.DecoderValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One block of scores -/

/-- What one grid point leaves in the score window's buffer, from the five input blocks: at row `y 0` the
    decoder's score of that row of the two gathered blocks. -/
theorem score_block (x0 x1 : Vec Ideal S4000x128 .f32) (x2 x3 : Vec Ideal S128x1 .f32) (x4 : Vec Ideal S1x1 .f32)
    (y : S4000x1.Idx) :
    out6_5 x0 x1 x2 x3 x4 y = Cert.Sage.scoreAt (n := 4000) x0 x1 x2 x3 x4 (y 0) := by
  unfold out6_5
  rw [View.canon_unit_zero zero_offsets]
  simp only [View.ld_unit_zero (S := S4000x128) zero_offsets, View.ld_unit_zero (S := S128x1) zero_offsets,
    View.ld_unit_zero (S := S1x1) zero_offsets]
  obtain ⟨r, rfl⟩ : ∃ r : Fin 4000, y = ix2 r 0 :=
    ⟨y 0, (eq_ix2 y).trans (congrArg (ix2 (y 0)) (Fin.ext (by
      have h1 : (y 1).val < 1 := (y 1).isLt
      show (y 1).val = 0
      omega)))⟩
  exact pay_score x0 x1 x2 x3 x4 r

/-! ## From the blocks to the array of scores -/

/-- The scores as one function of the arrays the region finds. -/
abbrev scoreArr (c : Dev nD) : S200000x1.Idx → EReal := fun i =>
  Cert.Sage.scoreAt (n := 200000) (V c main_v136) (V c main_v143) (V c main_v145) (V c main_v147) (V c main_v148) (i 0)

/-- What point `t` writes back to the scores is block `t` of that function: row `y` of the block is the
    score of row `4000 t + y`, each input block being the matching rows of its array. -/
theorem score_flushed (c : Dev nD) (t : Fin cfg6.N) :
    (dat6 (F := Ideal) V c).flushed 5 t = ((cfg6.win 5).blk t).view.read (Elt Ideal) (scoreArr V c) := by
  show (cfg6.win 5).cut (grid6.coords t) ((dat6 (F := Ideal) V c).after 5 t) = _
  rw [after6_5]
  funext y
  show out6_5 (iblk6 V c 0 t) (iblk6 V c 1 t) (iblk6 V c 2 t) (iblk6 V c 3 t) (iblk6 V c 4 t) y
    = scoreArr V c (((cfg6.win 5).blk t).view.emb y)
  refine (score_block (iblk6 V c 0 t) (iblk6 V c 1 t) (iblk6 V c 2 t) (iblk6 V c 3 t) (iblk6 V c 4 t) y).trans ?_
  have hR : ((((cfg6.win 5).blk t).view.emb y) 0).val = t.val * 4000 + (y 0).val := by
    obtain ⟨-, -, -, -, -, -, -, -, -, -, e0, -⟩ := block_index t
    show win6_5.index t (0 : Fin 2) * 4000 + 1 * (y 0).val = _
    rw [e0]; omega
  show Cert.Sage.scoreAt (n := 4000) _ _ _ _ _ (y 0) = Cert.Sage.scoreAt (n := 200000) _ _ _ _ _ _
  unfold Cert.Sage.scoreAt
  refine congrArg₂ (· + ·) (congrArg₂ (· + ·) (Finset.sum_congr rfl fun k _ => ?_)
    (Finset.sum_congr rfl fun k _ => ?_)) ?_
  · exact congrArg₂ (· * ·) (row_side_block V c t (y 0) k _ hR) (first_weight_block V c t k)
  · exact congrArg₂ (· * ·) (col_side_block V c t (y 0) k _ hR) (second_weight_block V c t k)
  · exact bias_block V c t

/-- An entry of the scores lies in point `t`'s block iff its row is one of the block's 4000 rows. -/
theorem mem_score_block (t : Fin cfg6.N) (i : S200000x1.Idx) :
    i ∈ ((cfg6.win 5).blk t).view.set ↔ ∀ a : Fin 2, win6_5.index t a * S4000x1.size a ≤ (i a).val
      ∧ (i a).val < win6_5.index t a * S4000x1.size a + S4000x1.size a := by
  show i ∈ ((View.whole main_v149_0).slice (win6_5.rect t)).set ↔ _
  rw [View.set_slice_whole, Rect.mem_set_unit]
  exact Iff.rfl

/-- Every row of the scores is in the block of the point its number divided by 4000 names. -/
theorem score_cover (i : S200000x1.Idx) :
    ∃ t : Fin cfg6.N, (cfg6.win 5).flush t = true ∧ i ∈ ((cfg6.win 5).blk t).view.set := by
  have hi0 : (i 0).val < 200000 := (i 0).isLt
  have hi1 : (i 1).val < 1 := (i 1).isLt
  have hN : cfg6.N = 50 := N_6
  refine ⟨⟨(i 0).val / 4000, by rw [hN]; omega⟩, flush6_5 _, ?_⟩
  rw [mem_score_block]
  obtain ⟨-, -, -, -, -, -, -, -, -, -, e0, e1, -⟩ := block_index ⟨(i 0).val / 4000, by rw [hN]; omega⟩
  intro a
  match a with
  | ⟨0, _⟩ =>
    show win6_5.index _ (0 : Fin 2) * 4000 ≤ (i 0).val ∧ (i 0).val < win6_5.index _ (0 : Fin 2) * 4000 + 4000
    rw [e0]; show (i 0).val / 4000 * 4000 ≤ (i 0).val ∧ (i 0).val < (i 0).val / 4000 * 4000 + 4000; omega
  | ⟨1, _⟩ =>
    show win6_5.index _ (1 : Fin 2) * 1 ≤ (i 1).val ∧ (i 1).val < win6_5.index _ (1 : Fin 2) * 1 + 1
    rw [e1]; omega

/-- The array of scores after the region: entry `r` is the decoder's score of label edge `r`. -/
theorem scores (V : (c : Dev nD) → (b : Ref sig .tc) → Buf (Elt Ideal) ((c : Thread nD τ).loc b)) (c : Dev nD) :
    (Gen.dat6 (F := Ideal) V c).arrAt 5 cfg6.N
      = fun i : S200000x1.Idx => Cert.Sage.scoreAt (n := 200000) (V c main_v136) (V c main_v143) (V c main_v145)
          (V c main_v147) (V c main_v148) (i 0) :=
  (dat6 (F := Ideal) V c).arrAt_eq_of_cover 5 (scoreArr V c) (fun t _ => score_flushed V c t) score_cover

end Cert.KernelIdeal.DecoderValue

end
-- ==== Proof.DecoderFeatures.lean ====
/-
  The array of features the decoder leaves.

  Each grid point writes one block of 4000 feature rows with two stores: its block of the row-side gather
  into columns 0 … 127 and its block of the column-side gather into columns 128 … 255.  Row `y` of the
  block at point `t` is label edge `4000 t + y`, and the 50 blocks tile the 200000 label edges, so after
  the region row `r` of the array is the row-side gather's row `r` followed by the column-side gather's
  row `r`.
-/
import proofs.«167260_j2637109919789_2_alg».proof.Proof.Gen.KernelIdeal.Frame
import proofs.«167260_j2637109919789_2_alg».proof.Proof.SageSpec
import proofs.«167260_j2637109919789_2_alg».proof.Proof.DecoderPayload
import proofs.«167260_j2637109919789_2_alg».proof.Proof.DecoderBlocks
import Idealize.ShloMosaic.Lib.Pipeline.Value

set_option maxRecDepth 16384

noncomputable section

namespace Cert.KernelIdeal.DecoderValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## One block of features -/

/-- An entry of the column-side block is the entry of the pair 128 columns to the right. -/
theorem pair_right_half (x0 x1 : S4000x128.Idx → EReal) (x : S4000x128.Idx) (j : S4000x256.Idx)
    (h0 : (j 0).val = (x 0).val) (h1 : (j 1).val = 128 + (x 1).val) :
    x1 x = Cert.Sage.pairAt (n := 4000) x0 x1 (j 0) (j 1) := by
  unfold Cert.Sage.pairAt
  rw [dif_neg (by omega)]
  refine congrArg x1 (funext fun a => Fin.ext ?_)
  match a with
  | ⟨0, _⟩ => exact h0.symm
  | ⟨1, _⟩ => show (x 1).val = (j 1).val - 128; omega

/-- An entry of the row-side block is the entry of the pair in the same column. -/
theorem pair_left_half (x0 x1 : S4000x128.Idx → EReal) (x : S4000x128.Idx) (j : S4000x256.Idx)
    (h0 : (j 0).val = (x 0).val) (h1 : (j 1).val = (x 1).val) :
    x0 x = Cert.Sage.pairAt (n := 4000) x0 x1 (j 0) (j 1) := by
  have hx : (x 1).val < 128 := (x 1).isLt
  unfold Cert.Sage.pairAt
  rw [dif_pos (by omega)]
  refine congrArg x0 (funext fun a => Fin.ext ?_)
  match a with
  | ⟨0, _⟩ => exact h0.symm
  | ⟨1, _⟩ => exact h1.symm

/-- What one grid point leaves in the feature window's buffer, from the input blocks: the two stores lay
    the row-side block over columns 0 … 127 and the column-side block over columns 128 … 255. -/
theorem feature_block (x0 x1 : Vec Ideal S4000x128 .f32) (x2 x3 : Vec Ideal S128x1 .f32) (x4 : Vec Ideal S1x1 .f32)
    (y : S4000x256.Idx) :
    out6_6 x0 x1 x2 x3 x4 y = Cert.Sage.pairAt (n := 4000) x0 x1 (y 0) (y 1) := by
  unfold out6_6
  simp only [View.ld_unit_zero (S := S4000x128) zero_offsets]
  rw [pay_row_side, pay_col_side]
  refine View.canon_apply_of_pieces (fun j : S4000x256.Idx => Cert.Sage.pairAt (n := 4000) x0 x1 (j 0) (j 1)) _ ?_ y
    (cover6_6 x1 x0 y)
  intro p hp x
  rcases List.mem_cons.mp hp with rfl | hp
  · exact pair_right_half x0 x1 x (r6_5.emb x) (by show 0 + 1 * (x 0).val = (x 0).val; omega)
      (by show 128 + 1 * (x 1).val = 128 + (x 1).val; omega)
  · obtain rfl := List.mem_singleton.mp hp
    exact pair_left_half x0 x1 x (r6_4.emb x) (by show 0 + 1 * (x 0).val = (x 0).val; omega)
      (by show 0 + 1 * (x 1).val = (x 1).val; omega)

/-! ## From the blocks to the array of features -/

/-- The pair read off two blocks of rows `4000 t …` is the pair read off the two arrays at the shifted row. -/
theorem pair_of_blocks (b0 b1 : S4000x128.Idx → EReal) (A0 A1 : S200000x128.Idx → EReal) (t : ℕ)
    (h0 : ∀ (r : Fin 4000) (k : Fin 128) (R : Fin 200000), R.val = t * 4000 + r.val → b0 (ix2 r k) = A0 (ix2 R k))
    (h1 : ∀ (r : Fin 4000) (k : Fin 128) (R : Fin 200000), R.val = t * 4000 + r.val → b1 (ix2 r k) = A1 (ix2 R k))
    (y0 : Fin 4000) (y1 : Fin 256) (R : Fin 200000) (C : Fin 256) (hR : R.val = t * 4000 + y0.val)
    (hC : C.val = y1.val) :
    Cert.Sage.pairAt (n := 4000) b0 b1 y0 y1 = Cert.Sage.pairAt (n := 200000) A0 A1 R C := by
  obtain rfl : C = y1 := Fin.ext hC
  unfold Cert.Sage.pairAt
  by_cases h : C.val < 128
  · rw [dif_pos h, dif_pos h]; exact h0 _ _ _ hR
  · rw [dif_neg h, dif_neg h]; exact h1 _ _ _ hR

/-- The features as one function of the arrays the region finds. -/
abbrev pairArr (c : Dev nD) : S200000x256.Idx → EReal := fun i =>
  Cert.Sage.pairAt (n := 200000) (V c main_v136) (V c main_v143) (i 0) (i 1)

/-- What point `t` writes back to the features is block `t` of that function. -/
theorem feature_flushed (c : Dev nD) (t : Fin cfg6.N) :
    (dat6 (F := Ideal) V c).flushed 6 t = ((cfg6.win 6).blk t).view.read (Elt Ideal) (pairArr V c) := by
  show (cfg6.win 6).cut (grid6.coords t) ((dat6 (F := Ideal) V c).after 6 t) = _
  rw [after6_6]
  funext y
  show out6_6 (iblk6 V c 0 t) (iblk6 V c 1 t) (iblk6 V c 2 t) (iblk6 V c 3 t) (iblk6 V c 4 t) y
    = pairArr V c (((cfg6.win 6).blk t).view.emb y)
  refine (feature_block (iblk6 V c 0 t) (iblk6 V c 1 t) (iblk6 V c 2 t) (iblk6 V c 3 t) (iblk6 V c 4 t) y).trans ?_
  obtain ⟨-, -, -, -, -, -, -, -, -, -, -, -, e0, e1⟩ := block_index t
  have hR : ((((cfg6.win 6).blk t).view.emb y) 0).val = t.val * 4000 + (y 0).val := by
    show win6_6.index t (0 : Fin 2) * 4000 + 1 * (y 0).val = _
    rw [e0]; omega
  have hC : ((((cfg6.win 6).blk t).view.emb y) 1).val = (y 1).val := by
    show win6_6.index t (1 : Fin 2) * 256 + 1 * (y 1).val = _
    rw [e1]; omega
  exact pair_of_blocks _ _ _ _ t.val (fun r k R h => row_side_block V c t r k R h)
    (fun r k R h => col_side_block V c t r k R h) (y 0) (y 1) _ _ hR hC

/-- An entry of the features lies in point `t`'s block iff its row is one of the block's 4000 rows. -/
theorem mem_feature_block (t : Fin cfg6.N) (i : S200000x256.Idx) :
    i ∈ ((cfg6.win 6).blk t).view.set ↔ ∀ a : Fin 2, win6_6.index t a * S4000x256.size a ≤ (i a).val
      ∧ (i a).val < win6_6.index t a * S4000x256.size a + S4000x256.size a := by
  show i ∈ ((View.whole main_v149_1).slice (win6_6.rect t)).set ↔ _
  rw [View.set_slice_whole, Rect.mem_set_unit]
  exact Iff.rfl

/-- Every row of the features is in the block of the point its number divided by 4000 names. -/
theorem feature_cover (i : S200000x256.Idx) :
    ∃ t : Fin cfg6.N, (cfg6.win 6).flush t = true ∧ i ∈ ((cfg6.win 6).blk t).view.set := by
  have hi0 : (i 0).val < 200000 := (i 0).isLt
  have hi1 : (i 1).val < 256 := (i 1).isLt
  have hN : cfg6.N = 50 := N_6
  refine ⟨⟨(i 0).val / 4000, by rw [hN]; omega⟩, flush6_6 _, ?_⟩
  rw [mem_feature_block]
  obtain ⟨-, -, -, -, -, -, -, -, -, -, -, -, e0, e1⟩ := block_index ⟨(i 0).val / 4000, by rw [hN]; omega⟩
  intro a
  match a with
  | ⟨0, _⟩ =>
    show win6_6.index _ (0 : Fin 2) * 4000 ≤ (i 0).val ∧ (i 0).val < win6_6.index _ (0 : Fin 2) * 4000 + 4000
    rw [e0]; show (i 0).val / 4000 * 4000 ≤ (i 0).val ∧ (i 0).val < (i 0).val / 4000 * 4000 + 4000; omega
  | ⟨1, _⟩ =>
    show win6_6.index _ (1 : Fin 2) * 256 ≤ (i 1).val ∧ (i 1).val < win6_6.index _ (1 : Fin 2) * 256 + 256
    rw [e1]; omega

/-- The array of features after the region: row `r` is the row-side gather's row `r` followed by the
    column-side gather's row `r`. -/
theorem features (V : (c : Dev nD) → (b : Ref sig .tc) → Buf (Elt Ideal) ((c : Thread nD τ).loc b)) (c : Dev nD) :
    (Gen.dat6 (F := Ideal) V c).arrAt 6 cfg6.N
      = fun i : S200000x256.Idx => Cert.Sage.pairAt (n := 200000) (V c main_v136) (V c main_v143) (i 0) (i 1) :=
  (dat6 (F := Ideal) V c).arrAt_eq_of_cover 6 (pairArr V c) (fun t _ => feature_flushed V c t) feature_cover

end Cert.KernelIdeal.DecoderValue

end
-- ==== Proof.RefDecoder.lean ====
/-
  The reference's decoder, entry by entry.

  The reference lays the two gathered arrays side by side into 200000 rows of 256 features, multiplies them
  by the decoder weight stood up as a column of 256 entries, adds the decoder bias and flattens the column of
  scores.  Row `r` of the features is the row-side gather's row `r` followed by the column-side gather's;
  and since a sum over 256 columns is the sum over the first 128 plus the sum over the last 128, score `r`
  is
      (∑ₖ g_row[r,k] · w[k]) + (∑ₖ g_col[r,k] · w[128 + k]) + b_d,
  the two halves of the weight being exactly the two columns of 128 entries that the other program cuts out
  of the same weight row, and the bias the same entry read through a different reshaping.
-/
import proofs.«167260_j2637109919789_2_alg».proof.Proof.Gen.ReferenceIdeal
import proofs.«167260_j2637109919789_2_alg».proof.Proof.Gen.KernelIdeal
import proofs.«167260_j2637109919789_2_alg».proof.Proof.SageSpec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.DecoderRef

open Cert.ReferenceIdeal Cert.ReferenceIdeal.Facts₀
open Idealize.ShloMosaic Idealize.ShloMosaic.ValueIdx

/-! ## The concatenated feature rows -/

theorem features_eq (a b : (⟨S200000x128, .f32⟩ : BufTy).Contents (Elt Ideal)) :
    concatenate (α := Ideal .f32) S200000x256 1 [⟨S200000x128, a⟩, ⟨S200000x128, b⟩] concatenates_S200000x128_S200000x128_S200000x256_d1
      = fun i : S200000x256.Idx => Cert.Sage.pairAt (n := 200000) a b (i 0) (i 1) := by
  funext i
  show _ = Cert.Sage.pairAt (n := 200000) a b (i 0) (i 1)
  unfold Cert.Sage.pairAt
  by_cases h : (i 1).val < 128
  · rw [dif_pos h]
    exact concatenate_pair_apply_left (t := S200000x256) (s₁ := S200000x128) (s₂ := S200000x128) 1 a b
      concatenates_S200000x128_S200000x128_S200000x256_d1 i rfl (ix2 (i 0) ⟨(i 1).val, h⟩)
      (fun d => match d with | ⟨0, _⟩ => rfl | ⟨1, _⟩ => rfl)
  · rw [dif_neg h]
    exact concatenate_pair_apply_right (t := S200000x256) (s₁ := S200000x128) (s₂ := S200000x128) 1 a b
      concatenates_S200000x128_S200000x128_S200000x256_d1 i rfl rfl (ix2 (i 0) ⟨(i 1).val - 128, by have h2 : (i 1).val < 256 := (i 1).isLt; omega⟩)
      (fun d hd => match d, hd with | ⟨0, _⟩, _ => rfl | ⟨1, _⟩, hd => absurd rfl hd)
      (by show (i 1).val - 128 + 128 = (i 1).val; omega)

/-- A column below 128 of the pair is the row-side entry. -/
theorem pair_left (a b : (⟨S200000x128, .f32⟩ : BufTy).Contents (Elt Ideal)) (r : Fin 200000) (k : Fin 128) :
    Cert.Sage.pairAt (n := 200000) a b r ⟨k.val, by omega⟩ = a (ix2 r k) := by
  unfold Cert.Sage.pairAt
  rw [dif_pos (show k.val < 128 from k.isLt)]

/-- A column from 128 on of the pair is the column-side entry 128 columns to the left. -/
theorem pair_right (a b : (⟨S200000x128, .f32⟩ : BufTy).Contents (Elt Ideal)) (r : Fin 200000) (k : Fin 128) :
    Cert.Sage.pairAt (n := 200000) a b r ⟨k.val + 128, by omega⟩ = b (ix2 r k) := by
  unfold Cert.Sage.pairAt
  rw [dif_neg (show ¬ (k.val + 128 < 128) by omega)]
  exact congrArg b (congrArg (ix2 r) (Fin.ext (by show k.val + 128 - 128 = k.val; omega)))

/-! ## The weight row, its column, and its two halves -/

/-- The weight row stood up as a column. -/
theorem weight_column (wd : (⟨S1x256, .f32⟩ : BufTy).Contents (Elt Ideal)) (k : Fin 256) :
    transpose S256x1 [1, 0] wd transposes_S1x256_S256x1_1_0 (ix2 k 0) = wd (ix2 0 k) :=
  transpose_ix2_apply wd transposes_S1x256_S256x1_1_0 k 0

/-- The first half of the weight row stood up as a column. -/
theorem weight_first_half (wd : (⟨S1x256, .f32⟩ : BufTy).Contents (Elt Ideal)) (k : Fin 128) :
    transpose Cert.KernelIdeal.S128x1 [1, 0] (extractStridedSlice Cert.KernelIdeal.S1x128 ![0, 0] wd
        Cert.KernelIdeal.Facts₀.slices_S1x256_S1x128_0_0) Cert.KernelIdeal.Facts₀.transposes_S1x128_S128x1_1_0 (ix2 k 0)
      = wd (ix2 0 ⟨k.val, by omega⟩) :=
  (transpose_ix2_apply _ Cert.KernelIdeal.Facts₀.transposes_S1x128_S128x1_1_0 k 0).trans
    (slice2_axis1_apply 0 wd Cert.KernelIdeal.Facts₀.slices_S1x256_S1x128_0_0 0 k ⟨k.val, by omega⟩ (Nat.zero_add _).symm)

/-- The second half of the weight row stood up as a column. -/
theorem weight_second_half (wd : (⟨S1x256, .f32⟩ : BufTy).Contents (Elt Ideal)) (k : Fin 128) :
    transpose Cert.KernelIdeal.S128x1 [1, 0] (extractStridedSlice Cert.KernelIdeal.S1x128 ![0, 128] wd
        Cert.KernelIdeal.Facts₀.slices_S1x256_S1x128_0_128) Cert.KernelIdeal.Facts₀.transposes_S1x128_S128x1_1_0 (ix2 k 0)
      = wd (ix2 0 ⟨k.val + 128, by omega⟩) :=
  (transpose_ix2_apply _ Cert.KernelIdeal.Facts₀.transposes_S1x128_S128x1_1_0 k 0).trans
    (slice2_axis1_apply 128 wd Cert.KernelIdeal.Facts₀.slices_S1x256_S1x128_0_128 0 k ⟨k.val + 128, by omega⟩ (Nat.add_comm _ _))

/-! ## The bias -/

/-- The one bias entry spread over the 200000 scores. -/
theorem bias_spread (bd : (⟨S1, .f32⟩ : BufTy).Contents (Elt Ideal)) (r : Fin 200000) :
    broadcastInDim S200000x1 ![0, 1] bcast_S1x1_S200000x1_0_1 (broadcastInDim S1x1 ![1] bcast_S1_S1x1_1 bd) (ix2 r 0)
      = bd (ix1 0) :=
  (broadcastInDim_apply _ bcast_S1x1_S200000x1_0_1 _ (ix2 r 0) (ix2 0 0) (fun d => match d with
    | ⟨0, _⟩ => by show (0 : Nat) = if (1 : Nat) = 1 then 0 else _; rw [if_pos rfl]
    | ⟨1, _⟩ => by show (0 : Nat) = if (1 : Nat) = 1 then 0 else _; rw [if_pos rfl])).trans
  (broadcastInDim_apply _ bcast_S1_S1x1_1 bd (ix2 0 0) (ix1 0) (fun d => match d with
    | ⟨0, _⟩ => by show (0 : Nat) = if (1 : Nat) = 1 then 0 else _; rw [if_pos rfl]))

/-- The one bias entry as a [1, 1] array. -/
theorem bias_cell (bd : (⟨S1, .f32⟩ : BufTy).Contents (Elt Ideal)) :
    shapeCast Cert.KernelIdeal.S1x1 bd Cert.KernelIdeal.Facts₀.shapeCasts_S1_S1x1 (ix2 0 0) = bd (ix1 0) :=
  shapeCast_a_1a_apply bd Cert.KernelIdeal.Facts₀.shapeCasts_S1_S1x1 0 0

/-! ## The product of the feature rows with the weight column -/

theorem rowIdx_row (j : S200000x1.Idx) (q : dot_S200000x256_S256x1_S200000x1_1_0_0_1_n_n.contr.Idx) :
    (dot_S200000x256_S256x1_S200000x1_1_0_0_1_n_n.lhsIdx j q 0).val = (j 0).val := by
  unfold DotDims.lhsIdx
  rw [dif_neg (show ¬(0 : Fin S200000x256.rank) ∈ dot_S200000x256_S256x1_S200000x1_1_0_0_1_n_n.lhsBatch by decide),
    dif_pos (show (0 : Fin S200000x256.rank) ∈ dot_S200000x256_S256x1_S200000x1_1_0_0_1_n_n.lhsNonContracting by decide)]
  rfl

theorem rowIdx_col (j : S200000x1.Idx) (q : dot_S200000x256_S256x1_S200000x1_1_0_0_1_n_n.contr.Idx) :
    (dot_S200000x256_S256x1_S200000x1_1_0_0_1_n_n.lhsIdx j q 1).val = (q ⟨0, by decide⟩).val :=
  dot_S200000x256_S256x1_S200000x1_1_0_0_1_n_n.lhsIdx_val_of_single rfl j q

theorem colIdx_row (j : S200000x1.Idx) (q : dot_S200000x256_S256x1_S200000x1_1_0_0_1_n_n.contr.Idx) :
    (dot_S200000x256_S256x1_S200000x1_1_0_0_1_n_n.rhsIdx j q 0).val = (q ⟨0, by decide⟩).val :=
  dot_S200000x256_S256x1_S200000x1_1_0_0_1_n_n.rhsIdx_val_of_single rfl j q

theorem colIdx_col (j : S200000x1.Idx) (q : dot_S200000x256_S256x1_S200000x1_1_0_0_1_n_n.contr.Idx) :
    (dot_S200000x256_S256x1_S200000x1_1_0_0_1_n_n.rhsIdx j q 1).val = (j 1).val := by
  unfold DotDims.rhsIdx
  rw [dif_neg (show ¬(1 : Fin S256x1.rank) ∈ dot_S200000x256_S256x1_S200000x1_1_0_0_1_n_n.rhsBatch by decide),
    dif_pos (show (1 : Fin S256x1.rank) ∈ dot_S200000x256_S256x1_S200000x1_1_0_0_1_n_n.rhsNonContracting by decide)]
  rfl

/-- The 200000 rows of 256 features against a column of 256 weights: at row `r` the sum over the 256
    columns of the feature times the weight. -/
theorem rows_times_column (x : S200000x256.Idx → EReal) (w : S256x1.Idx → EReal) (r : Fin 200000) :
    Host.dotGeneral (F := Ideal) (φ₁ := .f32) (φ₂ := .f32) dot_S200000x256_S256x1_S200000x1_1_0_0_1_n_n none x w (ix2 r 0)
      = ∑ k : Fin 256, x (ix2 r k) * w (ix2 k 0) := by
  simp only [Host.dotGeneral]
  rw [Ideal.dotGeneral_apply,
    ← Equiv.sum_comp (contrEquiv1 dot_S200000x256_S256x1_S200000x1_1_0_0_1_n_n 256 rfl rfl).symm]
  refine Finset.sum_congr rfl fun k _ => ?_
  have hk := contrEquiv1_symm_val dot_S200000x256_S256x1_S200000x1_1_0_0_1_n_n 256 rfl rfl k
  have el : dot_S200000x256_S256x1_S200000x1_1_0_0_1_n_n.lhsIdx (ix2 r 0)
      ((contrEquiv1 dot_S200000x256_S256x1_S200000x1_1_0_0_1_n_n 256 rfl rfl).symm k) = ix2 r k :=
    funext fun d => Fin.ext (by
      match d with
      | ⟨0, _⟩ => exact rowIdx_row _ _
      | ⟨1, _⟩ => exact (rowIdx_col _ _).trans hk)
  have er : dot_S200000x256_S256x1_S200000x1_1_0_0_1_n_n.rhsIdx (ix2 r 0)
      ((contrEquiv1 dot_S200000x256_S256x1_S200000x1_1_0_0_1_n_n 256 rfl rfl).symm k) = ix2 k 0 :=
    funext fun d => Fin.ext (by
      match d with
      | ⟨0, _⟩ => exact (colIdx_row _ _).trans hk
      | ⟨1, _⟩ => exact colIdx_col _ _)
  rw [el, er]

/-! ## The scores -/

theorem scores_eq (a b : (⟨S200000x128, .f32⟩ : BufTy).Contents (Elt Ideal)) (wd : (⟨S1x256, .f32⟩ : BufTy).Contents (Elt Ideal))
    (bd : (⟨S1, .f32⟩ : BufTy).Contents (Elt Ideal)) :
    shapeCast S200000 (addf (F := Ideal) (Host.dotGeneral (F := Ideal) (φ₁ := .f32) (φ₂ := .f32) dot_S200000x256_S256x1_S200000x1_1_0_0_1_n_n none
          (concatenate (α := Ideal .f32) S200000x256 1 [⟨S200000x128, a⟩, ⟨S200000x128, b⟩] concatenates_S200000x128_S200000x128_S200000x256_d1)
          (transpose S256x1 [1, 0] wd transposes_S1x256_S256x1_1_0))
        (broadcastInDim S200000x1 ![0, 1] bcast_S1x1_S200000x1_0_1 (broadcastInDim S1x1 ![1] bcast_S1_S1x1_1 bd)))
      shapeCasts_S200000x1_S200000
      = fun i : S200000.Idx => Cert.Sage.scoreAt (n := 200000) a b
          (transpose Cert.KernelIdeal.S128x1 [1, 0] (extractStridedSlice Cert.KernelIdeal.S1x128 ![0, 0] wd Cert.KernelIdeal.Facts₀.slices_S1x256_S1x128_0_0) Cert.KernelIdeal.Facts₀.transposes_S1x128_S128x1_1_0)
          (transpose Cert.KernelIdeal.S128x1 [1, 0] (extractStridedSlice Cert.KernelIdeal.S1x128 ![0, 128] wd Cert.KernelIdeal.Facts₀.slices_S1x256_S1x128_0_128) Cert.KernelIdeal.Facts₀.transposes_S1x128_S128x1_1_0)
          (shapeCast Cert.KernelIdeal.S1x1 bd Cert.KernelIdeal.Facts₀.shapeCasts_S1_S1x1) (i 0) := by
  funext i
  obtain ⟨r, rfl⟩ : ∃ r : Fin 200000, i = ix1 r := ⟨i 0, eq_ix1 i⟩
  refine (shapeCast_apply _ shapeCasts_S200000x1_S200000 (ix1 r) (ix2 r 0) ?_).trans ?_
  · rewrite [Shape.rowMajor_val_two, Shape.rowMajor_val_one]
    show r.val * 1 + 0 = r.val
    omega
  show Host.dotGeneral (F := Ideal) (φ₁ := .f32) (φ₂ := .f32) dot_S200000x256_S256x1_S200000x1_1_0_0_1_n_n none _ _ (ix2 r 0)
      + broadcastInDim S200000x1 ![0, 1] bcast_S1x1_S200000x1_0_1 (broadcastInDim S1x1 ![1] bcast_S1_S1x1_1 bd) (ix2 r 0)
    = Cert.Sage.scoreAt (n := 200000) a b _ _ _ r
  unfold Cert.Sage.scoreAt
  refine congrArg₂ (· + ·) ?_ ((bias_spread bd r).trans (bias_cell bd).symm)
  refine (rows_times_column _ _ r).trans ?_
  rw [Cert.Sage.sum_halves]
  refine congrArg₂ (· + ·) (Finset.sum_congr rfl fun k _ => ?_) (Finset.sum_congr rfl fun k _ => ?_)
  · refine congrArg₂ (· * ·) ?_ ((weight_column wd _).trans (weight_first_half wd k).symm)
    exact (congrFun (features_eq a b) _).trans (pair_left a b r k)
  · refine congrArg₂ (· * ·) ?_ ((weight_column wd _).trans (weight_second_half wd k).symm)
    exact (congrFun (features_eq a b) _).trans (pair_right a b r k)

end Cert.ReferenceIdeal.DecoderRef

end
-- ==== Proof.StagesDecoder.lean ====
/-
  The decoder of the kernel program, followed through the memory.

  After the last layer the host operations gather the 100000-row features at the row ends of the label edges and
  the 20000-row features at the column ends — the reference's two gathers —, cut the decoder weight into its
  two halves, each turned into a column, and make the decoder bias a 1×1 array.  The decoder region leaves in
  its feature array the two gathered rows side by side, which is the reference's concatenation, and in its score
  column the two rows against the two half weights plus the bias, which is the reference's product of the
  concatenated row with the whole weight plus the bias: a sum over 256 columns is the sum over the first 128 plus
  the sum over the last 128.  The last host operation reads the score column as a vector.
-/
import proofs.«167260_j2637109919789_2_alg».proof.Proof.StagesLayer2
import proofs.«167260_j2637109919789_2_alg».proof.Proof.DecoderScores
import proofs.«167260_j2637109919789_2_alg».proof.Proof.DecoderFeatures
import proofs.«167260_j2637109919789_2_alg».proof.Proof.RefDecoder
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- None of a stretch's operations writes the buffer in question: each operation's one written buffer is a
    different buffer. -/
local macro "host_keeps " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))
/-- A column [n, 1] read as a vector of n entries: entry i is the column's entry (i, 0). -/
theorem vector_of_column {n : ℕ} (f : (⟨2, ![n, 1]⟩ : Shape).Idx → EReal) (h : (⟨2, ![n, 1]⟩ : Shape).ShapeCasts ⟨1, ![n]⟩)
    (i : (⟨1, ![n]⟩ : Shape).Idx) : shapeCast ⟨1, ![n]⟩ f h i = f (ValueIdx.ix2 (i 0) (0 : Fin 1)) :=
  shapeCast_apply f h _ _ (by
    rw [Shape.rowMajor_val_two, Shape.rowMajor_val_one]
    show (i 0).val * 1 + 0 = (i 0).val
    omega)

/-! ## Boundary 10: after the host operations `hostOps6` -/

theorem at10_v136 : W10 m ρ c (Proc.devRef .tc main_v136) = (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) := by
  have e0 := at9_v129 m ρ c
  have e1 := at9_arg9 m ρ c
  dsimp only [W10]
  generalize W9 m ρ c = X at e0 e1 ⊢
  after_results_simp
  simp only [e0, e1]
  rfl

theorem at10_v143 : W10 m ρ c (Proc.devRef .tc main_v143) = (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) := by
  have e0 := at9_v128 m ρ c
  have e1 := at9_arg10 m ρ c
  dsimp only [W10]
  generalize W9 m ρ c = X at e0 e1 ⊢
  after_results_simp
  simp only [e0, e1]
  rfl

theorem at10_v145 : W10 m ρ c (Proc.devRef .tc main_v145) = (transpose S128x1 [1, 0] (extractStridedSlice S1x128 ![0, 0] (m ((c : Thread nD τ).loc main_arg5)) slices_S1x256_S1x128_0_0) transposes_S1x128_S128x1_1_0) := by
  have e0 := at9_arg5 m ρ c
  dsimp only [W10]
  generalize W9 m ρ c = X at e0 ⊢
  after_results_simp
  simp only [e0]

theorem at10_v147 : W10 m ρ c (Proc.devRef .tc main_v147) = (transpose S128x1 [1, 0] (extractStridedSlice S1x128 ![0, 128] (m ((c : Thread nD τ).loc main_arg5)) slices_S1x256_S1x128_0_128) transposes_S1x128_S128x1_1_0) := by
  have e0 := at9_arg5 m ρ c
  dsimp only [W10]
  generalize W9 m ρ c = X at e0 ⊢
  after_results_simp
  simp only [e0]

theorem at10_v148 : W10 m ρ c (Proc.devRef .tc main_v148) = (shapeCast S1x1 (m ((c : Thread nD τ).loc main_arg6)) shapeCasts_S1_S1x1) := by
  have e0 := at9_arg6 m ρ c
  dsimp only [W10]
  generalize W9 m ρ c = X at e0 ⊢
  after_results_simp
  simp only [e0]
  rfl

/-! ## Boundary 11: after region 6 -/

theorem at11_v149_1 : W11 m ρ c (Proc.devRef .tc main_v149_1) = (Cert.ReferenceIdeal.Read.val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))) := by
  refine ((W11_arr m ρ c 6).trans (Cert.KernelIdeal.DecoderValue.features (V10 m ρ) c)).trans ?_
  have h0 : V10 m ρ c main_v136 = (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) := at10_v136 m ρ c
  have h1 : V10 m ρ c main_v143 = (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) := at10_v143 m ρ c
  rw [h0, h1]
  exact (Cert.ReferenceIdeal.DecoderRef.features_eq _ _).symm

theorem at11_v149_0 : W11 m ρ c (Proc.devRef .tc main_v149_0) = (fun i : S200000x1.Idx => Cert.Sage.scoreAt (n := 200000) (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) (transpose S128x1 [1, 0] (extractStridedSlice S1x128 ![0, 0] (m ((c : Thread nD τ).loc main_arg5)) slices_S1x256_S1x128_0_0) transposes_S1x128_S128x1_1_0) (transpose S128x1 [1, 0] (extractStridedSlice S1x128 ![0, 128] (m ((c : Thread nD τ).loc main_arg5)) slices_S1x256_S1x128_0_128) transposes_S1x128_S128x1_1_0) (shapeCast S1x1 (m ((c : Thread nD τ).loc main_arg6)) shapeCasts_S1_S1x1) (i 0)) := by
  refine ((W11_arr m ρ c 5).trans (Cert.KernelIdeal.DecoderValue.scores (V10 m ρ) c)).trans ?_
  have h0 : V10 m ρ c main_v136 = (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) := at10_v136 m ρ c
  have h1 : V10 m ρ c main_v143 = (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) := at10_v143 m ρ c
  have h2 : V10 m ρ c main_v145 = (transpose S128x1 [1, 0] (extractStridedSlice S1x128 ![0, 0] (m ((c : Thread nD τ).loc main_arg5)) slices_S1x256_S1x128_0_0) transposes_S1x128_S128x1_1_0) := at10_v145 m ρ c
  have h3 : V10 m ρ c main_v147 = (transpose S128x1 [1, 0] (extractStridedSlice S1x128 ![0, 128] (m ((c : Thread nD τ).loc main_arg5)) slices_S1x256_S1x128_0_128) transposes_S1x128_S128x1_1_0) := at10_v147 m ρ c
  have h4 : V10 m ρ c main_v148 = (shapeCast S1x1 (m ((c : Thread nD τ).loc main_arg6)) shapeCasts_S1_S1x1) := at10_v148 m ρ c
  rw [h0, h1, h2, h3, h4]

/-! ## Boundary 12: after the host operations `hostOps7` -/

theorem at12_v149_1 : W12 m ρ c (Proc.devRef .tc main_v149_1) = (Cert.ReferenceIdeal.Read.val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))) :=
  (StableHlo.after_of_forall_not_mem (b := (Proc.devRef .tc main_v149_1)) _ _ (List.forall_iff_forall_mem.mp (by host_keeps hostOps7))).trans (at11_v149_1 m ρ c)

theorem at12_v150 : W12 m ρ c (Proc.devRef .tc main_v150) = (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e0 := at11_v149_0 m ρ c
  -- the reference's last stage, read entry by entry: the concatenated row against the whole weight, plus the bias
  have hz : (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      = fun i : S200000.Idx => Cert.Sage.scoreAt (n := 200000) (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) (transpose S128x1 [1, 0] (extractStridedSlice S1x128 ![0, 0] (m ((c : Thread nD τ).loc main_arg5)) slices_S1x256_S1x128_0_0) transposes_S1x128_S128x1_1_0) (transpose S128x1 [1, 0] (extractStridedSlice S1x128 ![0, 128] (m ((c : Thread nD τ).loc main_arg5)) slices_S1x256_S1x128_0_128) transposes_S1x128_S128x1_1_0) (shapeCast S1x1 (m ((c : Thread nD τ).loc main_arg6)) shapeCasts_S1_S1x1) (i 0) :=
    Cert.ReferenceIdeal.DecoderRef.scores_eq (Cert.ReferenceIdeal.Read.val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9))) (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg10))) (m ((c : Thread nD τ).loc main_arg5)) (m ((c : Thread nD τ).loc main_arg6))
  dsimp only [W12]
  generalize W11 m ρ c = X at e0 ⊢
  after_results_simp
  simp only [e0]
  rw [hz]
  funext i
  exact vector_of_column _ _ i

end Cert.KernelIdeal.Stages

end
-- ==== Proof.KernelResult.lean ====
/-
  What the idealized kernel program returns.

  Followed through its memory boundary by boundary, the program leaves in its first result buffer the decoder's
  scores and in its second the decoder's feature rows, each the same function of the eleven argument arrays as
  the reference's last stages: three layers of mean aggregation over the edges for each node type, the two
  gathers at the label edges, and the decoder's product with the two halves of its weight.  The argument arrays
  end as they began.
-/
import proofs.«167260_j2637109919789_2_alg».proof.Proof.KernelRun
import proofs.«167260_j2637109919789_2_alg».proof.Proof.StagesDecoder

set_option maxRecDepth 16384

noncomputable section

namespace Cert.KernelIdeal.Result

open Cert.KernelIdeal Cert.KernelIdeal.Gen
open Idealize.ShloMosaic Idealize.ShloMosaic.TcCoe Idealize.SL.Sem

/-- Every weakly fair execution of the idealized kernel program terminates with the scores and the feature rows
    at the reference's last two stages of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v150) = (Cert.ReferenceIdeal.Read.val_main_v218 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v149_1) = (Cert.ReferenceIdeal.Read.val_main_v212 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Run.run_to_last_boundary m ρ (fun s h c =>
    ⟨(h c _ (mem_uc main_v150 (by decide))).trans (Stages.at12_v150 m ρ c),
     (h c _ (mem_uc main_v149_1 (by decide))).trans (Stages.at12_v149_1 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)

end Cert.KernelIdeal.Result

end
-- ==== Proof.lean ====
/-
  The certificate: a three-layer mean-aggregation network on a graph with two node types, followed by an edge
  decoder, computed by seven block-tiled kernels among host gathers and scatter-adds, against the same network
  written as whole-array operations.

  Both programs gather source rows along the edges and add them up at the destination rows with the same host
  operations; they differ in the dense stage of each layer and in the decoder.  A layer's kernel divides each
  aggregated row by its degree clamped at one, multiplies by the transposed left weight, adds the destination
  row times the transposed right weight and then the bias, and clamps at zero — block by block of 5000 rows;
  the reference does the same on whole arrays, adding the bias before the second product.  On the extended
  reals the two orders of addition agree (addition is commutative and associative at infinities too), the
  conversions to a shorter float format are the identity, and a block-wise matrix product into a zero
  accumulator is the plain sum over the contracted entries, so each layer's output array is the reference's,
  entry by entry.  The decoder's kernel multiplies the two gathered rows by the two halves of the decoder
  weight and writes the two rows side by side; the reference concatenates first and multiplies once: a sum over
  256 columns is the sum over the first 128 plus the sum over the last 128.  No step needs the inputs finite.

  The kernel program's final memory is followed boundary by boundary (Proof/KernelRun.lean, the stage modules,
  Proof/KernelResult.lean); the reference's is its generated run, read stage by stage.  The idealization applied
  no rewrite to the kernel program, so nothing is owed for it.
-/
import proofs.«167260_j2637109919789_2_alg».proof.Defs
import proofs.«167260_j2637109919789_2_alg».proof.Proof.Gen.Kernel
import proofs.«167260_j2637109919789_2_alg».proof.Proof.Gen.Kernel.Frame
import proofs.«167260_j2637109919789_2_alg».proof.Proof.Gen.KernelIdeal
import proofs.«167260_j2637109919789_2_alg».proof.Proof.Gen.KernelIdeal.Frame
import proofs.«167260_j2637109919789_2_alg».proof.Proof.Gen.ReferenceIdeal
import proofs.«167260_j2637109919789_2_alg».proof.Proof.Gen.Pre_finite_inputs
import proofs.«167260_j2637109919789_2_alg».proof.Proof.Gen.ReferenceIdeal.Read
import proofs.«167260_j2637109919789_2_alg».proof.Proof.KernelResult
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference terminates and leaves its arguments unchanged: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the eleven arguments the two idealized programs end with the same scores and
    the same feature rows: the kernel program's results are the reference's last two stages of the arguments,
    and the reference's run ends at those stages of its own, equal, arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.ReferenceIdeal.Read.val_main_v218 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    fun c => (Cert.ReferenceIdeal.Read.val_main_v212 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v218_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · rw [Cert.ReferenceIdeal.Read.val_main_v212_eq, (hagree c).1, (hagree c).2.1, (hagree c).2.2.1, (hagree c).2.2.2.1, (hagree c).2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
